-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v155)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v155) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg13 : FVec F S256x10 .f32) (main_arg14 : FVec F S10 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x10 .f32 := Host.absf main_arg13
  let main_cst_20 : FVec F S_ .f32 := constant S_ .f32 0x7F800000#32
  let main_v55 : FVec F S256x10 .f32 := broadcastInDim S256x10 ![] bcast_S_S256x10 main_cst_20
  let main_v56 : IVec S256x10 1 := cmpf .olt main_v54 main_v55
  let main_c_21 : IVec S_ 1 := constantI S_ 1 1#1
  let main_v57 : IVec S_ 1 := (fun x v => Host.reduce IntOp.andi x v reducesTo_S256x10_S_d0_1 h_S_) main_v56 main_c_21
  let main_v58 : IVec S_ 1 := andi main_v53 main_v57
  let main_v59 : FVec F S10 .f32 := Host.absf main_arg14
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg9 : FVec F S256 .f32) (main_arg10 : FVec F S256 .f32) (main_arg11 : FVec F S256 .f32) (main_arg12 : FVec F S256 .f32) (main_arg13 : FVec F S256x10 .f32) (main_arg14 : FVec F S10 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_v48 main_v49 main_v50

def fn_part1 {F : FTy → Type} [FloatOps F] (main_arg6 : FVec F S256 .f32) (main_arg7 : FVec F S256x256 .f32) (main_arg8 : FVec F S256 .f32) (main_arg9 : FVec F S256 .f32) (main_arg10 : FVec F S256 .f32) (main_arg11 : FVec F S256 .f32) (main_arg12 : FVec F S256 .f32) (main_arg13 : FVec F S256x10 .f32) (main_arg14 : FVec F S10 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S2x800000 32) (main_arg2 : IVec S50000 32) (main_arg3 : FVec F S128x256 .f32) (main_arg4 : FVec F S256 .f32) (main_arg5 : FVec F S256x256 .f32) (main_arg6 : FVec F S256 .f32) (main_arg7 : FVec F S256x256 .f32) (main_arg8 : FVec F S256 .f32) (main_arg9 : FVec F S256 .f32) (main_arg10 : FVec F S256 .f32) (main_arg11 : FVec F S256 .f32) (main_arg12 : FVec F S256 .f32) (main_arg13 : FVec F S256x10 .f32) (main_arg14 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S1x256 : Shape := ⟨2, ![1, 256]⟩
abbrev S2000x1 : Shape := ⟨2, ![2000, 1]⟩
abbrev S64x256 : Shape := ⟨2, ![64, 256]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 209
  | .vmem => 58
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256, .f32⟩
  | 10 => ⟨S256, .f32⟩
  | 11 => ⟨S256, .f32⟩
  | 12 => ⟨S256, .f32⟩
  | 13 => ⟨S256x10, .f32⟩
  | 14 => ⟨S10, .f32⟩
  | 15 => ⟨S1x800000, .i32⟩
  | 16 => ⟨S800000, .i32⟩
  | 17 => ⟨S1x800000, .i32⟩
  | 18 => ⟨S800000, .i32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S50000, .f32⟩
  | 30 => ⟨S50000x1, .f32⟩
  | 31 => ⟨S50000x256, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S800000x1, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x256, .f32⟩
  | 61 => ⟨S800000x256, .f32⟩
  | 62 => ⟨S800000x256, .f32⟩
  | 63 => ⟨S_, .f32⟩
  | 64 => ⟨S50000x256, .f32⟩
  | 65 => ⟨S800000x1, .i32⟩
  | 66 => ⟨S50000x256, .f32⟩
  | 67 => ⟨S1x256, .f32⟩
  | 68 => ⟨S50000x256, .f32⟩
  | 69 => ⟨S50000x256, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000, .f32⟩
  | 88 => ⟨S800000, .f32⟩
  | 89 => ⟨S800000x1, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x256, .f32⟩
  | 99 => ⟨S800000x256, .f32⟩
  | 100 => ⟨S800000x256, .f32⟩
  | 101 => ⟨S_, .f32⟩
  | 102 => ⟨S50000x256, .f32⟩
  | 103 => ⟨S800000x1, .i32⟩
  | 104 => ⟨S50000x256, .f32⟩
  | 105 => ⟨S1x256, .f32⟩
  | 106 => ⟨S50000x256, .f32⟩
  | 107 => ⟨S_, .f32⟩
  | 108 => ⟨S256, .f32⟩
  | 109 => ⟨S1x256, .f32⟩
  | 110 => ⟨S_, .f32⟩
  | 111 => ⟨S1x256, .f32⟩
  | 112 => ⟨S1x256, .f32⟩
  | 113 => ⟨S50000x256, .f32⟩
  | 114 => ⟨S50000x256, .f32⟩
  | 115 => ⟨S50000x256, .f32⟩
  | 116 => ⟨S_, .f32⟩
  | 117 => ⟨S256, .f32⟩
  | 118 => ⟨S1x256, .f32⟩
  | 119 => ⟨S_, .f32⟩
  | 120 => ⟨S1x256, .f32⟩
  | 121 => ⟨S1x256, .f32⟩
  | 122 => ⟨S_, .f32⟩
  | 123 => ⟨S1x256, .f32⟩
  | 124 => ⟨S1x256, .f32⟩
  | 125 => ⟨S1x256, .f32⟩
  | 126 => ⟨S1x256, .f32⟩
  | 127 => ⟨S1x256, .f32⟩
  | _ => ⟨S50000x128, .f32⟩

abbrev hbmTy0_1 (i : Nat) : BufTy := match i % 128 with
  | 0 => ⟨S50000x256, .f32⟩
  | 1 => ⟨S50000x256, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000, .f32⟩
  | 20 => ⟨S800000, .f32⟩
  | 21 => ⟨S800000x1, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x256, .f32⟩
  | 31 => ⟨S800000x256, .f32⟩
  | 32 => ⟨S800000x256, .f32⟩
  | 33 => ⟨S_, .f32⟩
  | 34 => ⟨S50000x256, .f32⟩
  | 35 => ⟨S800000x1, .i32⟩
  | 36 => ⟨S50000x256, .f32⟩
  | 37 => ⟨S1x256, .f32⟩
  | 38 => ⟨S50000x256, .f32⟩
  | 39 => ⟨S_, .f32⟩
  | 40 => ⟨S256, .f32⟩
  | 41 => ⟨S1x256, .f32⟩
  | 42 => ⟨S_, .f32⟩
  | 43 => ⟨S1x256, .f32⟩
  | 44 => ⟨S1x256, .f32⟩
  | 45 => ⟨S50000x256, .f32⟩
  | 46 => ⟨S50000x256, .f32⟩
  | 47 => ⟨S50000x256, .f32⟩
  | 48 => ⟨S_, .f32⟩
  | 49 => ⟨S256, .f32⟩
  | 50 => ⟨S1x256, .f32⟩
  | 51 => ⟨S_, .f32⟩
  | 52 => ⟨S1x256, .f32⟩
  | 53 => ⟨S1x256, .f32⟩
  | 54 => ⟨S_, .f32⟩
  | 55 => ⟨S1x256, .f32⟩
  | 56 => ⟨S1x256, .f32⟩
  | 57 => ⟨S1x256, .f32⟩
  | 58 => ⟨S1x256, .f32⟩
  | 59 => ⟨S1x256, .f32⟩
  | 60 => ⟨S50000x256, .f32⟩
  | 61 => ⟨S_, .f32⟩
  | 62 => ⟨S64x256, .f32⟩
  | 63 => ⟨S50000x1, .i32⟩
  | 64 => ⟨S64x256, .f32⟩
  | 65 => ⟨S_, .f32⟩
  | 66 => ⟨S50000, .f32⟩
  | 67 => ⟨S_, .f32⟩
  | 68 => ⟨S64, .f32⟩
  | 69 => ⟨S50000x1, .i32⟩
  | 70 => ⟨S64, .f32⟩
  | 71 => ⟨S_, .f32⟩
  | 72 => ⟨S64, .f32⟩
  | 73 => ⟨S64, .f32⟩
  | 74 => ⟨S64x1, .f32⟩
  | 75 => ⟨S64x256, .f32⟩
  | 76 => ⟨S64x256, .f32⟩
  | 77 => ⟨S64x10, .f32⟩
  | 78 => ⟨S1x10, .f32⟩
  | 79 => ⟨S64x10, .f32⟩
  | 80 => ⟨S64x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S256x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x1, .f32⟩
  | .local _ .vmem, ⟨24, _⟩ => ⟨S2000x1, .f32⟩
  | .local _ .vmem, ⟨25, _⟩ => ⟨S1x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S256x256, .f32⟩
  | .local _ .vmem, ⟨39, _⟩ => ⟨S2000x256, .f32⟩
  | .local _ .vmem, ⟨40, _⟩ => ⟨S2000x256, .f32⟩
  | .local _ .vmem, ⟨41, _⟩ => ⟨S2000x256, .f32⟩
  | .local _ .vmem, ⟨42, _⟩ => ⟨S2000x256, .f32⟩
  | .local _ .vmem, ⟨43, _⟩ => ⟨S2000x256, .f32⟩
  | .local _ .vmem, ⟨44, _⟩ => ⟨S2000x256, .f32⟩
  | .local _ .vmem, ⟨45, _⟩ => ⟨S2000x1, .f32⟩
  | .local _ .vmem, ⟨46, _⟩ => ⟨S2000x1, .f32⟩
  | .local _ .vmem, ⟨47, _⟩ => ⟨S1x256, .f32⟩
  | .local _ .vmem, ⟨48, _⟩ => ⟨S2000x256, .f32⟩
  | .local _ .vmem, ⟨49, _⟩ => ⟨S2000x256, .f32⟩
  | .local _ .vmem, ⟨50, _⟩ => ⟨S2000x256, .f32⟩
  | .local _ .vmem, ⟨51, _⟩ => ⟨S2000x256, .f32⟩
  | .local _ .vmem, ⟨52, _⟩ => ⟨S1x256, .f32⟩
  | .local _ .vmem, ⟨53, _⟩ => ⟨S1x256, .f32⟩
  | .local _ .vmem, ⟨54, _⟩ => ⟨S1x256, .f32⟩
  | .local _ .vmem, ⟨55, _⟩ => ⟨S1x256, .f32⟩
  | .local _ .vmem, ⟨56, _⟩ => ⟨S2000x256, .f32⟩
  | .local _ .vmem, ⟨57, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_8 : Ref sig .tc := ⟨.hbm, 70, rfl⟩
abbrev main_v45 : Ref sig .tc := ⟨.hbm, 71, rfl⟩
abbrev main_v46 : Ref sig .tc := ⟨.hbm, 72, rfl⟩
abbrev main_c_9 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_10 : Ref sig .tc := ⟨.hbm, 79, rfl⟩
abbrev main_v52 : Ref sig .tc := ⟨.hbm, 80, rfl⟩
abbrev main_v53 : Ref sig .tc := ⟨.hbm, 81, rfl⟩
abbrev main_c_11 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_12 : Ref sig .tc := ⟨.hbm, 90, rfl⟩
abbrev main_v61 : Ref sig .tc := ⟨.hbm, 91, rfl⟩
abbrev main_v62 : Ref sig .tc := ⟨.hbm, 92, rfl⟩
abbrev main_c_13 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_14 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_15 : Ref sig .tc := ⟨.hbm, 107, rfl⟩
abbrev main_v75 : Ref sig .tc := ⟨.hbm, 108, rfl⟩
abbrev main_v76 : Ref sig .tc := ⟨.hbm, 109, rfl⟩
abbrev main_cst_16 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_17 : Ref sig .tc := ⟨.hbm, 116, rfl⟩
abbrev main_v82 : Ref sig .tc := ⟨.hbm, 117, rfl⟩
abbrev main_v83 : Ref sig .tc := ⟨.hbm, 118, rfl⟩
abbrev main_cst_18 : Ref sig .tc := ⟨.hbm, 119, rfl⟩
abbrev main_v84 : Ref sig .tc := ⟨.hbm, 120, rfl⟩
abbrev main_v85 : Ref sig .tc := ⟨.hbm, 121, rfl⟩
abbrev main_cst_19 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_c_20 : Ref sig .tc := ⟨.hbm, 130, rfl⟩
abbrev main_v93 : Ref sig .tc := ⟨.hbm, 131, rfl⟩
abbrev main_v94 : Ref sig .tc := ⟨.hbm, 132, rfl⟩
abbrev main_c_21 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_c_22 : Ref sig .tc := ⟨.hbm, 139, rfl⟩
abbrev main_v100 : Ref sig .tc := ⟨.hbm, 140, rfl⟩
abbrev main_v101 : Ref sig .tc := ⟨.hbm, 141, rfl⟩
abbrev main_c_23 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_c_24 : Ref sig .tc := ⟨.hbm, 150, rfl⟩
abbrev main_v109 : Ref sig .tc := ⟨.hbm, 151, rfl⟩
abbrev main_v110 : Ref sig .tc := ⟨.hbm, 152, rfl⟩
abbrev main_c_25 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_26 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_27 : Ref sig .tc := ⟨.hbm, 167, rfl⟩
abbrev main_v123 : Ref sig .tc := ⟨.hbm, 168, rfl⟩
abbrev main_v124 : Ref sig .tc := ⟨.hbm, 169, rfl⟩
abbrev main_cst_28 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_cst_29 : Ref sig .tc := ⟨.hbm, 176, rfl⟩
abbrev main_v130 : Ref sig .tc := ⟨.hbm, 177, rfl⟩
abbrev main_v131 : Ref sig .tc := ⟨.hbm, 178, rfl⟩
abbrev main_cst_30 : Ref sig .tc := ⟨.hbm, 179, rfl⟩
abbrev main_v132 : Ref sig .tc := ⟨.hbm, 180, rfl⟩
abbrev main_v133 : Ref sig .tc := ⟨.hbm, 181, rfl⟩
abbrev main_cst_31 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_cst_32 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_cst_33 : Ref sig .tc := ⟨.hbm, 193, rfl⟩
abbrev main_v143 : Ref sig .tc := ⟨.hbm, 194, rfl⟩
abbrev main_cst_34 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_cst_35 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg5_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg2_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg1_1 : Ref sig .tc := ⟨.vmem, 44, rfl⟩
abbrev cc6_stg2_0 : Ref sig .tc := ⟨.vmem, 45, rfl⟩
abbrev cc6_stg2_1 : Ref sig .tc := ⟨.vmem, 46, rfl⟩
abbrev cc6_stg3_0 : Ref sig .tc := ⟨.vmem, 47, rfl⟩
abbrev cc6_stg4_0 : Ref sig .tc := ⟨.vmem, 48, rfl⟩
abbrev cc6_stg4_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg4_0 : Ref sig .tc := ⟨.vmem, 55, rfl⟩
abbrev cc7_stg5_0 : Ref sig .tc := ⟨.vmem, 56, rfl⟩
abbrev cc7_stg5_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem5_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem2_1 : DmaSem sig := 40
abbrev cc6_sem0_0 : DmaSem sig := 41
abbrev cc6_sem0_1 : DmaSem sig := 42
abbrev cc6_sem1_0 : DmaSem sig := 43
abbrev cc6_sem1_1 : DmaSem sig := 44
abbrev cc6_sem2_0 : DmaSem sig := 45
abbrev cc6_sem2_1 : DmaSem sig := 46
abbrev cc6_sem3_0 : DmaSem sig := 47
abbrev cc6_sem4_0 : DmaSem sig := 48
abbrev cc6_sem4_1 : DmaSem sig := 49
abbrev cc7_sem0_0 : DmaSem sig := 50
abbrev cc7_sem0_1 : DmaSem sig := 51
abbrev cc7_sem1_0 : DmaSem sig := 52
abbrev cc7_sem2_0 : DmaSem sig := 53
abbrev cc7_sem3_0 : DmaSem sig := 54
abbrev cc7_sem4_0 : DmaSem sig := 55
abbrev cc7_sem5_0 : DmaSem sig := 56
abbrev cc7_sem5_1 : DmaSem sig := 57

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2000x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2000x256 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  reducesTo_S50000x256_S256_d0 : S50000x256.ReducesTo [0] S256
  h_S_ : 0 < S_.numel
  bcast_S_S1x256 : S_.BroadcastsInDim S1x256 (![] : Fin 0 → Fin S1x256.rank)
  bcast_S1x256_S50000x256_0_1 : S1x256.BroadcastsInDim S50000x256 (![0, 1] : Fin 2 → Fin S50000x256.rank)
  bcast_S_S64x256 : S_.BroadcastsInDim S64x256 (![] : Fin 0 → Fin S64x256.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  dot_S64x256_S256x10_S64x10_1_0_0_1_n_n_wf : DotDims.WF S64x256 S256x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S50000x256.size a
  hwx3_4 : ∀ i : grid3.Coords, EltTy.bits .f32 = 32 ∨ (Rect.block (s := S50000x256) S2000x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x256.size a ≤ S50000x256.size a
  hwx4_5 : ∀ i : grid4.Coords, EltTy.bits .f32 = 32 ∨ (Rect.block (s := S50000x256) S2000x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .f32 = 32 ∨ (Rect.block (s := S256x256) S256x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x256.size a ≤ S50000x256.size a
  hwx5_2 : ∀ i : grid5.Coords, EltTy.bits .f32 = 32 ∨ (Rect.block (s := S50000x256) S2000x256.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x256.size a ≤ S50000x256.size a
  hwx6_1 : ∀ i : grid6.Coords, EltTy.bits .f32 = 32 ∨ (Rect.block (s := S50000x256) S2000x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S50000x1.size a
  hwx6_2 : ∀ i : grid6.Coords, EltTy.bits .f32 = 32 ∨ (Rect.block (s := S50000x1) S2000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x256.size a ≤ S50000x256.size a
  hwx6_4 : ∀ i : grid6.Coords, EltTy.bits .f32 = 32 ∨ (Rect.block (s := S50000x256) S2000x256.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S50000x256.size a
  hwx7_0 : ∀ i : grid7.Coords, EltTy.bits .f32 = 32 ∨ (Rect.block (s := S50000x256) S2000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x256.size a ≤ S1x256.size a
  hwx7_1 : ∀ i : grid7.Coords, EltTy.bits .f32 = 32 ∨ (Rect.block (s := S1x256) S1x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x256.size a ≤ S1x256.size a
  hwx7_4 : ∀ i : grid7.Coords, EltTy.bits .f32 = 32 ∨ (Rect.block (s := S1x256) S1x256.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x256.size a ≤ S50000x256.size a
  hwx7_5 : ∀ i : grid7.Coords, EltTy.bits .f32 = 32 ∨ (Rect.block (s := S50000x256) S2000x256.size (cc7_transform_5 i) (hinb7_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v72) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S2000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v74) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v78) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v88) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v89) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v90) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v91) S2000x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v91) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v92) S2000x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v120) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v92) S2000x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v12) S2000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v121) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v122) S2000x256.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v122) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v126) S1x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v136) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v137) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v138) S1x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v139) S2000x256.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x256 : Shape := ⟨2, ![50000, 256]⟩
abbrev S800000x256 : Shape := ⟨2, ![800000, 256]⟩
abbrev S50000x1 : Shape := ⟨2, ![50000, 1]⟩
abbrev S1x256 : Shape := ⟨2, ![1, 256]⟩
abbrev S64x256 : Shape := ⟨2, ![64, 256]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 250
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256, .f32⟩
  | 10 => ⟨S256, .f32⟩
  | 11 => ⟨S256, .f32⟩
  | 12 => ⟨S256, .f32⟩
  | 13 => ⟨S256x10, .f32⟩
  | 14 => ⟨S10, .f32⟩
  | 15 => ⟨S1x800000, .i32⟩
  | 16 => ⟨S800000, .i32⟩
  | 17 => ⟨S1x800000, .i32⟩
  | 18 => ⟨S800000, .i32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S50000x256, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S800000, .f32⟩
  | 49 => ⟨S800000x1, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x256, .f32⟩
  | 59 => ⟨S800000x256, .f32⟩
  | 60 => ⟨S800000x256, .f32⟩
  | 61 => ⟨S_, .f32⟩
  | 62 => ⟨S50000x256, .f32⟩
  | 63 => ⟨S800000x1, .i32⟩
  | 64 => ⟨S50000x256, .f32⟩
  | 65 => ⟨S50000, .f32⟩
  | 66 => ⟨S50000x1, .f32⟩
  | 67 => ⟨S50000x256, .f32⟩
  | 68 => ⟨S50000x256, .f32⟩
  | 69 => ⟨S50000x256, .f32⟩
  | 70 => ⟨S1x256, .f32⟩
  | 71 => ⟨S50000x256, .f32⟩
  | 72 => ⟨S50000x256, .f32⟩
  | 73 => ⟨S_, .f32⟩
  | 74 => ⟨S50000x256, .f32⟩
  | 75 => ⟨S50000x256, .f32⟩
  | 76 => ⟨S50000x256, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000, .f32⟩
  | 95 => ⟨S800000, .f32⟩
  | 96 => ⟨S800000x1, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x256, .f32⟩
  | 106 => ⟨S800000x256, .f32⟩
  | 107 => ⟨S800000x256, .f32⟩
  | 108 => ⟨S_, .f32⟩
  | 109 => ⟨S50000x256, .f32⟩
  | 110 => ⟨S800000x1, .i32⟩
  | 111 => ⟨S50000x256, .f32⟩
  | 112 => ⟨S50000, .f32⟩
  | 113 => ⟨S50000x1, .f32⟩
  | 114 => ⟨S50000x256, .f32⟩
  | 115 => ⟨S50000x256, .f32⟩
  | 116 => ⟨S50000x256, .f32⟩
  | 117 => ⟨S1x256, .f32⟩
  | 118 => ⟨S50000x256, .f32⟩
  | 119 => ⟨S50000x256, .f32⟩
  | 120 => ⟨S_, .f32⟩
  | 121 => ⟨S50000x256, .f32⟩
  | 122 => ⟨S50000x256, .f32⟩
  | 123 => ⟨S_, .f32⟩
  | 124 => ⟨S256, .f32⟩
  | 125 => ⟨S_, .f32⟩
  | 126 => ⟨S256, .f32⟩
  | 127 => ⟨S256, .f32⟩
  | _ => ⟨S50000x128, .f32⟩

abbrev hbmTy0_1 (i : Nat) : BufTy := match i % 128 with
  | 0 => ⟨S1x256, .f32⟩
  | 1 => ⟨S50000x256, .f32⟩
  | 2 => ⟨S50000x256, .f32⟩
  | 3 => ⟨S50000x256, .f32⟩
  | 4 => ⟨S_, .f32⟩
  | 5 => ⟨S256, .f32⟩
  | 6 => ⟨S_, .f32⟩
  | 7 => ⟨S256, .f32⟩
  | 8 => ⟨S256, .f32⟩
  | 9 => ⟨S1x256, .f32⟩
  | 10 => ⟨S50000x256, .f32⟩
  | 11 => ⟨S50000x256, .f32⟩
  | 12 => ⟨S_, .f32⟩
  | 13 => ⟨S256, .f32⟩
  | 14 => ⟨S256, .f32⟩
  | 15 => ⟨S256, .f32⟩
  | 16 => ⟨S1x256, .f32⟩
  | 17 => ⟨S50000x256, .f32⟩
  | 18 => ⟨S50000x256, .f32⟩
  | 19 => ⟨S1x256, .f32⟩
  | 20 => ⟨S50000x256, .f32⟩
  | 21 => ⟨S50000x256, .f32⟩
  | 22 => ⟨S1x256, .f32⟩
  | 23 => ⟨S50000x256, .f32⟩
  | 24 => ⟨S50000x256, .f32⟩
  | 25 => ⟨S50000x256, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S800000x1, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x256, .f32⟩
  | 55 => ⟨S800000x256, .f32⟩
  | 56 => ⟨S800000x256, .f32⟩
  | 57 => ⟨S_, .f32⟩
  | 58 => ⟨S50000x256, .f32⟩
  | 59 => ⟨S800000x1, .i32⟩
  | 60 => ⟨S50000x256, .f32⟩
  | 61 => ⟨S50000, .f32⟩
  | 62 => ⟨S50000x1, .f32⟩
  | 63 => ⟨S50000x256, .f32⟩
  | 64 => ⟨S50000x256, .f32⟩
  | 65 => ⟨S50000x256, .f32⟩
  | 66 => ⟨S1x256, .f32⟩
  | 67 => ⟨S50000x256, .f32⟩
  | 68 => ⟨S50000x256, .f32⟩
  | 69 => ⟨S_, .f32⟩
  | 70 => ⟨S50000x256, .f32⟩
  | 71 => ⟨S50000x256, .f32⟩
  | 72 => ⟨S_, .f32⟩
  | 73 => ⟨S256, .f32⟩
  | 74 => ⟨S_, .f32⟩
  | 75 => ⟨S256, .f32⟩
  | 76 => ⟨S256, .f32⟩
  | 77 => ⟨S1x256, .f32⟩
  | 78 => ⟨S50000x256, .f32⟩
  | 79 => ⟨S50000x256, .f32⟩
  | 80 => ⟨S50000x256, .f32⟩
  | 81 => ⟨S_, .f32⟩
  | 82 => ⟨S256, .f32⟩
  | 83 => ⟨S_, .f32⟩
  | 84 => ⟨S256, .f32⟩
  | 85 => ⟨S256, .f32⟩
  | 86 => ⟨S1x256, .f32⟩
  | 87 => ⟨S50000x256, .f32⟩
  | 88 => ⟨S50000x256, .f32⟩
  | 89 => ⟨S_, .f32⟩
  | 90 => ⟨S256, .f32⟩
  | 91 => ⟨S256, .f32⟩
  | 92 => ⟨S256, .f32⟩
  | 93 => ⟨S1x256, .f32⟩
  | 94 => ⟨S50000x256, .f32⟩
  | 95 => ⟨S50000x256, .f32⟩
  | 96 => ⟨S1x256, .f32⟩
  | 97 => ⟨S50000x256, .f32⟩
  | 98 => ⟨S50000x256, .f32⟩
  | 99 => ⟨S1x256, .f32⟩
  | 100 => ⟨S50000x256, .f32⟩
  | 101 => ⟨S50000x256, .f32⟩
  | 102 => ⟨S_, .f32⟩
  | 103 => ⟨S64x256, .f32⟩
  | 104 => ⟨S50000x1, .i32⟩
  | 105 => ⟨S64x256, .f32⟩
  | 106 => ⟨S_, .f32⟩
  | 107 => ⟨S50000, .f32⟩
  | 108 => ⟨S_, .f32⟩
  | 109 => ⟨S64, .f32⟩
  | 110 => ⟨S50000x1, .i32⟩
  | 111 => ⟨S64, .f32⟩
  | 112 => ⟨S_, .f32⟩
  | 113 => ⟨S64, .f32⟩
  | 114 => ⟨S64, .f32⟩
  | 115 => ⟨S64x1, .f32⟩
  | 116 => ⟨S64x256, .f32⟩
  | 117 => ⟨S64x256, .f32⟩
  | 118 => ⟨S64x10, .f32⟩
  | 119 => ⟨S1x10, .f32⟩
  | 120 => ⟨S64x10, .f32⟩
  | 121 => ⟨S64x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_c_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_5 : Ref sig .tc := ⟨.hbm, 50, rfl⟩
abbrev main_v28 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call0_cst : Ref sig .tc := ⟨.hbm, 73, rfl⟩
abbrev main_call0_v0 : Ref sig .tc := ⟨.hbm, 74, rfl⟩
abbrev main_v48 : Ref sig .tc := ⟨.hbm, 75, rfl⟩
abbrev main_v49 : Ref sig .tc := ⟨.hbm, 76, rfl⟩
abbrev main_c_8 : Ref sig .tc := ⟨.hbm, 77, rfl⟩
abbrev main_v50 : Ref sig .tc := ⟨.hbm, 78, rfl⟩
abbrev main_v51 : Ref sig .tc := ⟨.hbm, 79, rfl⟩
abbrev main_c_9 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_10 : Ref sig .tc := ⟨.hbm, 86, rfl⟩
abbrev main_v57 : Ref sig .tc := ⟨.hbm, 87, rfl⟩
abbrev main_v58 : Ref sig .tc := ⟨.hbm, 88, rfl⟩
abbrev main_c_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_12 : Ref sig .tc := ⟨.hbm, 97, rfl⟩
abbrev main_v66 : Ref sig .tc := ⟨.hbm, 98, rfl⟩
abbrev main_v67 : Ref sig .tc := ⟨.hbm, 99, rfl⟩
abbrev main_c_13 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_14 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_call1_cst : Ref sig .tc := ⟨.hbm, 120, rfl⟩
abbrev main_call1_v0 : Ref sig .tc := ⟨.hbm, 121, rfl⟩
abbrev main_v86 : Ref sig .tc := ⟨.hbm, 122, rfl⟩
abbrev main_cst_15 : Ref sig .tc := ⟨.hbm, 123, rfl⟩
abbrev main_v87 : Ref sig .tc := ⟨.hbm, 124, rfl⟩
abbrev main_cst_16 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_17 : Ref sig .tc := ⟨.hbm, 132, rfl⟩
abbrev main_v94 : Ref sig .tc := ⟨.hbm, 133, rfl⟩
abbrev main_cst_18 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_19 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_c_20 : Ref sig .tc := ⟨.hbm, 154, rfl⟩
abbrev main_v113 : Ref sig .tc := ⟨.hbm, 155, rfl⟩
abbrev main_v114 : Ref sig .tc := ⟨.hbm, 156, rfl⟩
abbrev main_c_21 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_c_22 : Ref sig .tc := ⟨.hbm, 163, rfl⟩
abbrev main_v120 : Ref sig .tc := ⟨.hbm, 164, rfl⟩
abbrev main_v121 : Ref sig .tc := ⟨.hbm, 165, rfl⟩
abbrev main_c_23 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_c_24 : Ref sig .tc := ⟨.hbm, 174, rfl⟩
abbrev main_v129 : Ref sig .tc := ⟨.hbm, 175, rfl⟩
abbrev main_v130 : Ref sig .tc := ⟨.hbm, 176, rfl⟩
abbrev main_c_25 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_cst_26 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_call2_cst : Ref sig .tc := ⟨.hbm, 197, rfl⟩
abbrev main_call2_v0 : Ref sig .tc := ⟨.hbm, 198, rfl⟩
abbrev main_v149 : Ref sig .tc := ⟨.hbm, 199, rfl⟩
abbrev main_cst_27 : Ref sig .tc := ⟨.hbm, 200, rfl⟩
abbrev main_v150 : Ref sig .tc := ⟨.hbm, 201, rfl⟩
abbrev main_cst_28 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_cst_29 : Ref sig .tc := ⟨.hbm, 209, rfl⟩
abbrev main_v157 : Ref sig .tc := ⟨.hbm, 210, rfl⟩
abbrev main_cst_30 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_cst_31 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_cst_32 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_cst_33 : Ref sig .tc := ⟨.hbm, 234, rfl⟩
abbrev main_v178 : Ref sig .tc := ⟨.hbm, 235, rfl⟩
abbrev main_cst_34 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_cst_35 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S64x256 : S_.BroadcastsInDim S64x256 (![] : Fin 0 → Fin S64x256.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  dot_S64x256_S256x10_S64x10_1_0_0_1_n_n_wf : DotDims.WF S64x256 S256x10 S64x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

class Facts : Prop extends Facts₀ where

variable [Facts]
-- ==== Proof.KRun.lean ====
/-
  The kernel program's run with its RESULT named. The program is eight tiled kernels among stretches of host operations;
  its frame proof already follows the core's buffers through every stretch and every kernel, ending with every buffer at
  the last boundary's contents `W15`. The frame statement keeps only the argument arrays from that; this is the same run
  with the result array `main_v155` kept as well: after every weakly fair execution it holds `W15 … main_v155`.
-/
import proofs.«139121_j59785944760955_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result array then holds the last
    boundary's contents, and the argument arrays are as launched. -/
theorem run_named : θ_run defs (onTc (τ := τ) (main (F := F))) ⟨m, fun _ => 0, ρ⟩ (fun r => ∀ c : Dev nD,
      r.2.mem ((c.tc : Thread nD τ).loc main_v155) = W15 m ρ c (Proc.devRef .tc main_v155)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v155 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c)⟩)

end Cert.KernelIdeal.Named

end
-- ==== Proof.RefRun.lean ====
/-
  The reference program's run, stage by stage. The reference is one straight line of 235 host operations. Written out as
  one term of the arguments its result is enormous (every use of a shared intermediate repeats it), so the run is cut
  into ten consecutive stages — the degree normalisation; then per graph convolution the matrix product and the
  neighbour sum with its epilogue; the two batch normalisations; the pooling head — and the buffers' contents are
  followed from one cut to the next: `U0` is the launch memory and `U(i+1)` what the core's buffers hold after stage
  `i`'s operations on `Ui`. A buffer a stage does not write passes through it unchanged (`keep`). (The three rectifiers are functions the
  program calls; their operations stand in the stage lists at the call sites, over the call's own buffers.) The run theorem states
  the result array at the last cut and the argument arrays unchanged.
-/
import proofs.«139121_j59785944760955_1_alg».proof.Proof.RefOps

set_option maxRecDepth 16384

noncomputable section

namespace Cert.ReferenceIdeal.Staged

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- Running two lists of operations one after the other is running their concatenation. -/
theorem after_append {Val : EltTy → Type} (l₁ l₂ : List (HloOp τ sig Val)) (V : Valuation τ sig Val) :
    after (l₁ ++ l₂) V = after l₂ (after l₁ V) := by
  induction l₁ generalizing V with
  | nil => rfl
  | cons a l ih => exact ih _

/-- Stage A: operations 0 … 13 of @main. -/
def segA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v8 main_v7 main_v9 (addf : (⟨S50000, .f32⟩ : BufTy).Contents (Elt F) → (⟨S50000, .f32⟩ : BufTy).Contents (Elt F) → (⟨S50000, .f32⟩ : BufTy).Contents (Elt F)),
    unary main_v9 main_v10 (Host.rsqrt : (⟨S50000, .f32⟩ : BufTy).Contents (Elt F) → (⟨S50000, .f32⟩ : BufTy).Contents (Elt F)) ]

/-- The buffers stage A writes. -/
def writtenA : List (Ref sig .tc) :=
  [main_v0, main_v1, main_v2, main_v3, main_cst, main_v4, main_cst_0, main_v5, main_v6, main_v7, main_cst_1, main_v8, main_v9, main_v10]

/-- Stage B: operations 14 … 14 of @main. -/
def segB : List (HloOp τ sig (Elt F)) :=
  [ binary main_arg0 main_arg3 main_v11 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)) ]

/-- The buffers stage B writes. -/
def writtenB : List (Ref sig .tc) :=
  [main_v11]

/-- Stage C: operations 15 … 60 of @main. -/
def segC : List (HloOp τ sig (Elt F)) :=
  [ nullary main_c (constantI S_ 32 0#32),
    unary main_c main_v12 (broadcastInDim S800000 ![] bcast_S_S800000 : (⟨S_, .i32⟩ : BufTy).Contents (Elt F) → (⟨S800000, .i32⟩ : BufTy).Contents (Elt F)),
    binary main_v1 main_v12 main_v13 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v14 (broadcastInDim S800000 ![] bcast_S_S800000 : (⟨S_, .i32⟩ : BufTy).Contents (Elt F) → (⟨S800000, .i32⟩ : BufTy).Contents (Elt F)),
    binary main_v1 main_v14 main_v15 (addi : (⟨S800000, .i32⟩ : BufTy).Contents (Elt F) → (⟨S800000, .i32⟩ : BufTy).Contents (Elt F) → (⟨S800000, .i32⟩ : BufTy).Contents (Elt F)),
    ternary main_v13 main_v15 main_v1 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v16 main_v17 (broadcastInDim S800000x1 ![0] bcast_S800000_S800000x1_0 : (⟨S800000, .i32⟩ : BufTy).Contents (Elt F) → (⟨S800000x1, .i32⟩ : BufTy).Contents (Elt F)),
    binary main_v10 main_v17 main_v18 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_3 (constantI S_ 32 0#32),
    unary main_c_3 main_v19 (broadcastInDim S800000 ![] bcast_S_S800000 : (⟨S_, .i32⟩ : BufTy).Contents (Elt F) → (⟨S800000, .i32⟩ : BufTy).Contents (Elt F)),
    binary main_v3 main_v19 main_v20 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v21 (broadcastInDim S800000 ![] bcast_S_S800000 : (⟨S_, .i32⟩ : BufTy).Contents (Elt F) → (⟨S800000, .i32⟩ : BufTy).Contents (Elt F)),
    binary main_v3 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_v3 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)),
    binary main_v10 main_v24 main_v25 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v18 main_v25 main_v26 (mulf : (⟨S800000, .f32⟩ : BufTy).Contents (Elt F) → (⟨S800000, .f32⟩ : BufTy).Contents (Elt F) → (⟨S800000, .f32⟩ : BufTy).Contents (Elt F)),
    unary main_v26 main_v27 (broadcastInDim S800000x1 ![0] bcast_S800000_S800000x1_0 : (⟨S800000, .f32⟩ : BufTy).Contents (Elt F) → (⟨S800000x1, .f32⟩ : BufTy).Contents (Elt F)),
    nullary main_c_5 (constantI S_ 32 0#32),
    unary main_c_5 main_v28 (broadcastInDim S800000 ![] bcast_S_S800000 : (⟨S_, .i32⟩ : BufTy).Contents (Elt F) → (⟨S800000, .i32⟩ : BufTy).Contents (Elt F)),
    binary main_v1 main_v28 main_v29 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v30 (broadcastInDim S800000 ![] bcast_S_S800000 : (⟨S_, .i32⟩ : BufTy).Contents (Elt F) → (⟨S800000, .i32⟩ : BufTy).Contents (Elt F)),
    binary main_v1 main_v30 main_v31 (addi : (⟨S800000, .i32⟩ : BufTy).Contents (Elt F) → (⟨S800000, .i32⟩ : BufTy).Contents (Elt F) → (⟨S800000, .i32⟩ : BufTy).Contents (Elt F)),
    ternary main_v29 main_v31 main_v1 main_v32 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v32 main_v33 (broadcastInDim S800000x1 ![0] bcast_S800000_S800000x1_0 : (⟨S800000, .i32⟩ : BufTy).Contents (Elt F) → (⟨S800000x1, .i32⟩ : BufTy).Contents (Elt F)),
    binary main_v11 main_v33 main_v34 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_v27 main_v35 (broadcastInDim S800000x256 ![0, 1] bcast_S800000x1_S800000x256_0_1 : (⟨S800000x1, .f32⟩ : BufTy).Contents (Elt F) → (⟨S800000x256, .f32⟩ : BufTy).Contents (Elt F)),
    binary main_v34 main_v35 main_v36 (mulf : (⟨S800000x256, .f32⟩ : BufTy).Contents (Elt F) → (⟨S800000x256, .f32⟩ : BufTy).Contents (Elt F) → (⟨S800000x256, .f32⟩ : BufTy).Contents (Elt F)),
    nullary main_cst_7 (constant S_ .f32 0x00000000#32),
    unary main_cst_7 main_v37 (broadcastInDim S50000x256 ![] bcast_S_S50000x256 : (⟨S_, .f32⟩ : BufTy).Contents (Elt F) → (⟨S50000x256, .f32⟩ : BufTy).Contents (Elt F)),
    unary main_v3 main_v38 (broadcastInDim S800000x1 ![0] bcast_S800000_S800000x1_0 : (⟨S800000, .i32⟩ : BufTy).Contents (Elt F) → (⟨S800000x1, .i32⟩ : BufTy).Contents (Elt F)),
    ternary main_v37 main_v38 main_v36 main_v39 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    binary main_v10 main_v10 main_v40 (mulf : (⟨S50000, .f32⟩ : BufTy).Contents (Elt F) → (⟨S50000, .f32⟩ : BufTy).Contents (Elt F) → (⟨S50000, .f32⟩ : BufTy).Contents (Elt F)),
    unary main_v40 main_v41 (broadcastInDim S50000x1 ![0] bcast_S50000_S50000x1_0 : (⟨S50000, .f32⟩ : BufTy).Contents (Elt F) → (⟨S50000x1, .f32⟩ : BufTy).Contents (Elt F)),
    unary main_v41 main_v42 (broadcastInDim S50000x256 ![0, 1] bcast_S50000x1_S50000x256_0_1 : (⟨S50000x1, .f32⟩ : BufTy).Contents (Elt F) → (⟨S50000x256, .f32⟩ : BufTy).Contents (Elt F)),
    binary main_v11 main_v42 main_v43 (mulf : (⟨S50000x256, .f32⟩ : BufTy).Contents (Elt F) → (⟨S50000x256, .f32⟩ : BufTy).Contents (Elt F) → (⟨S50000x256, .f32⟩ : BufTy).Contents (Elt F)),
    binary main_v39 main_v43 main_v44 (addf : (⟨S50000x256, .f32⟩ : BufTy).Contents (Elt F) → (⟨S50000x256, .f32⟩ : BufTy).Contents (Elt F) → (⟨S50000x256, .f32⟩ : BufTy).Contents (Elt F)),
    unary main_arg4 main_v45 (broadcastInDim S1x256 ![1] bcast_S256_S1x256_1 : (⟨S256, .f32⟩ : BufTy).Contents (Elt F) → (⟨S1x256, .f32⟩ : BufTy).Contents (Elt F)),
    unary main_v45 main_v46 (broadcastInDim S50000x256 ![0, 1] bcast_S1x256_S50000x256_0_1 : (⟨S1x256, .f32⟩ : BufTy).Contents (Elt F) → (⟨S50000x256, .f32⟩ : BufTy).Contents (Elt F)),
    binary main_v44 main_v46 main_v47 (addf : (⟨S50000x256, .f32⟩ : BufTy).Contents (Elt F) → (⟨S50000x256, .f32⟩ : BufTy).Contents (Elt F) → (⟨S50000x256, .f32⟩ : BufTy).Contents (Elt F)),
    nullary main_call0_cst (constant S_ .f32 0x00000000#32),
    unary main_call0_cst main_call0_v0 ((broadcastInDim S50000x256 ![] bcast_S_S50000x256) : (⟨S_, .f32⟩ : BufTy).Contents (Elt F) → (⟨S50000x256, .f32⟩ : BufTy).Contents (Elt F)),
    binary main_v47 main_call0_v0 main_v48 (maximumf : (⟨S50000x256, .f32⟩ : BufTy).Contents (Elt F) → (⟨S50000x256, .f32⟩ : BufTy).Contents (Elt F) → (⟨S50000x256, .f32⟩ : BufTy).Contents (Elt F)) ]

/-- The buffers stage C writes. -/
def writtenC : List (Ref sig .tc) :=
  [main_c, main_v12, main_v13, main_c_2, main_v14, main_v15, main_v16, main_v17, main_v18, main_c_3, main_v19, main_v20, main_c_4, main_v21, main_v22, main_v23, main_v24, main_v25, main_v26, main_v27, main_c_5, main_v28, main_v29, main_c_6, main_v30, main_v31, main_v32, main_v33, main_v34, main_v35, main_v36, main_cst_7, main_v37, main_v38, main_v39, main_v40, main_v41, main_v42, main_v43, main_v44, main_v45, main_v46, main_v47, main_call0_cst, main_call0_v0, main_v48]

/-- Stage D: operations 61 … 61 of @main. -/
def segD : List (HloOp τ sig (Elt F)) :=
  [ binary main_v48 main_arg5 main_v49 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- The buffers stage D writes. -/
def writtenD : List (Ref sig .tc) :=
  [main_v49]

/-- Stage E: operations 62 … 107 of @main. -/
def segE : List (HloOp τ sig (Elt F)) :=
  [ nullary main_c_8 (constantI S_ 32 0#32),
    unary main_c_8 main_v50 (broadcastInDim S800000 ![] bcast_S_S800000 : (⟨S_, .i32⟩ : BufTy).Contents (Elt F) → (⟨S800000, .i32⟩ : BufTy).Contents (Elt F)),
    binary main_v1 main_v50 main_v51 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v52 (broadcastInDim S800000 ![] bcast_S_S800000 : (⟨S_, .i32⟩ : BufTy).Contents (Elt F) → (⟨S800000, .i32⟩ : BufTy).Contents (Elt F)),
    binary main_v1 main_v52 main_v53 (addi : (⟨S800000, .i32⟩ : BufTy).Contents (Elt F) → (⟨S800000, .i32⟩ : BufTy).Contents (Elt F) → (⟨S800000, .i32⟩ : BufTy).Contents (Elt F)),
    ternary main_v51 main_v53 main_v1 main_v54 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v54 main_v55 (broadcastInDim S800000x1 ![0] bcast_S800000_S800000x1_0 : (⟨S800000, .i32⟩ : BufTy).Contents (Elt F) → (⟨S800000x1, .i32⟩ : BufTy).Contents (Elt F)),
    binary main_v10 main_v55 main_v56 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_10 (constantI S_ 32 0#32),
    unary main_c_10 main_v57 (broadcastInDim S800000 ![] bcast_S_S800000 : (⟨S_, .i32⟩ : BufTy).Contents (Elt F) → (⟨S800000, .i32⟩ : BufTy).Contents (Elt F)),
    binary main_v3 main_v57 main_v58 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v59 (broadcastInDim S800000 ![] bcast_S_S800000 : (⟨S_, .i32⟩ : BufTy).Contents (Elt F) → (⟨S800000, .i32⟩ : BufTy).Contents (Elt F)),
    binary main_v3 main_v59 main_v60 (addi : (⟨S800000, .i32⟩ : BufTy).Contents (Elt F) → (⟨S800000, .i32⟩ : BufTy).Contents (Elt F) → (⟨S800000, .i32⟩ : BufTy).Contents (Elt F)),
    ternary main_v58 main_v60 main_v3 main_v61 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v61 main_v62 (broadcastInDim S800000x1 ![0] bcast_S800000_S800000x1_0 : (⟨S800000, .i32⟩ : BufTy).Contents (Elt F) → (⟨S800000x1, .i32⟩ : BufTy).Contents (Elt F)),
    binary main_v10 main_v62 main_v63 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v56 main_v63 main_v64 (mulf : (⟨S800000, .f32⟩ : BufTy).Contents (Elt F) → (⟨S800000, .f32⟩ : BufTy).Contents (Elt F) → (⟨S800000, .f32⟩ : BufTy).Contents (Elt F)),
    unary main_v64 main_v65 (broadcastInDim S800000x1 ![0] bcast_S800000_S800000x1_0 : (⟨S800000, .f32⟩ : BufTy).Contents (Elt F) → (⟨S800000x1, .f32⟩ : BufTy).Contents (Elt F)),
    nullary main_c_12 (constantI S_ 32 0#32),
    unary main_c_12 main_v66 (broadcastInDim S800000 ![] bcast_S_S800000 : (⟨S_, .i32⟩ : BufTy).Contents (Elt F) → (⟨S800000, .i32⟩ : BufTy).Contents (Elt F)),
    binary main_v1 main_v66 main_v67 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v68 (broadcastInDim S800000 ![] bcast_S_S800000 : (⟨S_, .i32⟩ : BufTy).Contents (Elt F) → (⟨S800000, .i32⟩ : BufTy).Contents (Elt F)),
    binary main_v1 main_v68 main_v69 (addi : (⟨S800000, .i32⟩ : BufTy).Contents (Elt F) → (⟨S800000, .i32⟩ : BufTy).Contents (Elt F) → (⟨S800000, .i32⟩ : BufTy).Contents (Elt F)),
    ternary main_v67 main_v69 main_v1 main_v70 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v70 main_v71 (broadcastInDim S800000x1 ![0] bcast_S800000_S800000x1_0 : (⟨S800000, .i32⟩ : BufTy).Contents (Elt F) → (⟨S800000x1, .i32⟩ : BufTy).Contents (Elt F)),
    binary main_v49 main_v71 main_v72 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_v65 main_v73 (broadcastInDim S800000x256 ![0, 1] bcast_S800000x1_S800000x256_0_1 : (⟨S800000x1, .f32⟩ : BufTy).Contents (Elt F) → (⟨S800000x256, .f32⟩ : BufTy).Contents (Elt F)),
    binary main_v72 main_v73 main_v74 (mulf : (⟨S800000x256, .f32⟩ : BufTy).Contents (Elt F) → (⟨S800000x256, .f32⟩ : BufTy).Contents (Elt F) → (⟨S800000x256, .f32⟩ : BufTy).Contents (Elt F)),
    nullary main_cst_14 (constant S_ .f32 0x00000000#32),
    unary main_cst_14 main_v75 (broadcastInDim S50000x256 ![] bcast_S_S50000x256 : (⟨S_, .f32⟩ : BufTy).Contents (Elt F) → (⟨S50000x256, .f32⟩ : BufTy).Contents (Elt F)),
    unary main_v3 main_v76 (broadcastInDim S800000x1 ![0] bcast_S800000_S800000x1_0 : (⟨S800000, .i32⟩ : BufTy).Contents (Elt F) → (⟨S800000x1, .i32⟩ : BufTy).Contents (Elt F)),
    ternary main_v75 main_v76 main_v74 main_v77 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    binary main_v10 main_v10 main_v78 (mulf : (⟨S50000, .f32⟩ : BufTy).Contents (Elt F) → (⟨S50000, .f32⟩ : BufTy).Contents (Elt F) → (⟨S50000, .f32⟩ : BufTy).Contents (Elt F)),
    unary main_v78 main_v79 (broadcastInDim S50000x1 ![0] bcast_S50000_S50000x1_0 : (⟨S50000, .f32⟩ : BufTy).Contents (Elt F) → (⟨S50000x1, .f32⟩ : BufTy).Contents (Elt F)),
    unary main_v79 main_v80 (broadcastInDim S50000x256 ![0, 1] bcast_S50000x1_S50000x256_0_1 : (⟨S50000x1, .f32⟩ : BufTy).Contents (Elt F) → (⟨S50000x256, .f32⟩ : BufTy).Contents (Elt F)),
    binary main_v49 main_v80 main_v81 (mulf : (⟨S50000x256, .f32⟩ : BufTy).Contents (Elt F) → (⟨S50000x256, .f32⟩ : BufTy).Contents (Elt F) → (⟨S50000x256, .f32⟩ : BufTy).Contents (Elt F)),
    binary main_v77 main_v81 main_v82 (addf : (⟨S50000x256, .f32⟩ : BufTy).Contents (Elt F) → (⟨S50000x256, .f32⟩ : BufTy).Contents (Elt F) → (⟨S50000x256, .f32⟩ : BufTy).Contents (Elt F)),
    unary main_arg6 main_v83 (broadcastInDim S1x256 ![1] bcast_S256_S1x256_1 : (⟨S256, .f32⟩ : BufTy).Contents (Elt F) → (⟨S1x256, .f32⟩ : BufTy).Contents (Elt F)),
    unary main_v83 main_v84 (broadcastInDim S50000x256 ![0, 1] bcast_S1x256_S50000x256_0_1 : (⟨S1x256, .f32⟩ : BufTy).Contents (Elt F) → (⟨S50000x256, .f32⟩ : BufTy).Contents (Elt F)),
    binary main_v82 main_v84 main_v85 (addf : (⟨S50000x256, .f32⟩ : BufTy).Contents (Elt F) → (⟨S50000x256, .f32⟩ : BufTy).Contents (Elt F) → (⟨S50000x256, .f32⟩ : BufTy).Contents (Elt F)),
    nullary main_call1_cst (constant S_ .f32 0x00000000#32),
    unary main_call1_cst main_call1_v0 ((broadcastInDim S50000x256 ![] bcast_S_S50000x256) : (⟨S_, .f32⟩ : BufTy).Contents (Elt F) → (⟨S50000x256, .f32⟩ : BufTy).Contents (Elt F)),
    binary main_v85 main_call1_v0 main_v86 (maximumf : (⟨S50000x256, .f32⟩ : BufTy).Contents (Elt F) → (⟨S50000x256, .f32⟩ : BufTy).Contents (Elt F) → (⟨S50000x256, .f32⟩ : BufTy).Contents (Elt F)) ]

/-- The buffers stage E writes. -/
def writtenE : List (Ref sig .tc) :=
  [main_c_8, main_v50, main_v51, main_c_9, main_v52, main_v53, main_v54, main_v55, main_v56, main_c_10, main_v57, main_v58, main_c_11, main_v59, main_v60, main_v61, main_v62, main_v63, main_v64, main_v65, main_c_12, main_v66, main_v67, main_c_13, main_v68, main_v69, main_v70, main_v71, main_v72, main_v73, main_v74, main_cst_14, main_v75, main_v76, main_v77, main_v78, main_v79, main_v80, main_v81, main_v82, main_v83, main_v84, main_v85, main_call1_cst, main_call1_v0, main_v86]

/-- Stage F: operations 108 … 137 of @main. -/
def segF : List (HloOp τ sig (Elt F)) :=
  [ nullary main_cst_15 (constant S_ .f32 0x00000000#32),
    binary main_v86 main_cst_15 main_v87 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_16 (constant S_ .f32 0x47435000#32),
    unary main_cst_16 main_v88 (broadcastInDim S256 ![] bcast_S_S256 : (⟨S_, .f32⟩ : BufTy).Contents (Elt F) → (⟨S256, .f32⟩ : BufTy).Contents (Elt F)),
    binary main_v87 main_v88 main_v89 (Host.divf : (⟨S256, .f32⟩ : BufTy).Contents (Elt F) → (⟨S256, .f32⟩ : BufTy).Contents (Elt F) → (⟨S256, .f32⟩ : BufTy).Contents (Elt F)),
    unary main_v89 main_v90 (broadcastInDim S1x256 ![1] bcast_S256_S1x256_1 : (⟨S256, .f32⟩ : BufTy).Contents (Elt F) → (⟨S1x256, .f32⟩ : BufTy).Contents (Elt F)),
    unary main_v90 main_v91 (broadcastInDim S50000x256 ![0, 1] bcast_S1x256_S50000x256_0_1 : (⟨S1x256, .f32⟩ : BufTy).Contents (Elt F) → (⟨S50000x256, .f32⟩ : BufTy).Contents (Elt F)),
    binary main_v86 main_v91 main_v92 (subf : (⟨S50000x256, .f32⟩ : BufTy).Contents (Elt F) → (⟨S50000x256, .f32⟩ : BufTy).Contents (Elt F) → (⟨S50000x256, .f32⟩ : BufTy).Contents (Elt F)),
    binary main_v92 main_v92 main_v93 (mulf : (⟨S50000x256, .f32⟩ : BufTy).Contents (Elt F) → (⟨S50000x256, .f32⟩ : BufTy).Contents (Elt F) → (⟨S50000x256, .f32⟩ : BufTy).Contents (Elt F)),
    nullary main_cst_17 (constant S_ .f32 0x00000000#32),
    binary main_v93 main_cst_17 main_v94 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_18 (constant S_ .f32 0x47435000#32),
    unary main_cst_18 main_v95 (broadcastInDim S256 ![] bcast_S_S256 : (⟨S_, .f32⟩ : BufTy).Contents (Elt F) → (⟨S256, .f32⟩ : BufTy).Contents (Elt F)),
    binary main_v94 main_v95 main_v96 (Host.divf : (⟨S256, .f32⟩ : BufTy).Contents (Elt F) → (⟨S256, .f32⟩ : BufTy).Contents (Elt F) → (⟨S256, .f32⟩ : BufTy).Contents (Elt F)),
    unary main_v89 main_v97 (broadcastInDim S1x256 ![1] bcast_S256_S1x256_1 : (⟨S256, .f32⟩ : BufTy).Contents (Elt F) → (⟨S1x256, .f32⟩ : BufTy).Contents (Elt F)),
    unary main_v97 main_v98 (broadcastInDim S50000x256 ![0, 1] bcast_S1x256_S50000x256_0_1 : (⟨S1x256, .f32⟩ : BufTy).Contents (Elt F) → (⟨S50000x256, .f32⟩ : BufTy).Contents (Elt F)),
    binary main_v86 main_v98 main_v99 (subf : (⟨S50000x256, .f32⟩ : BufTy).Contents (Elt F) → (⟨S50000x256, .f32⟩ : BufTy).Contents (Elt F) → (⟨S50000x256, .f32⟩ : BufTy).Contents (Elt F)),
    nullary main_cst_19 (constant S_ .f32 0x3727C5AC#32),
    unary main_cst_19 main_v100 (broadcastInDim S256 ![] bcast_S_S256 : (⟨S_, .f32⟩ : BufTy).Contents (Elt F) → (⟨S256, .f32⟩ : BufTy).Contents (Elt F)),
    binary main_v96 main_v100 main_v101 (addf : (⟨S256, .f32⟩ : BufTy).Contents (Elt F) → (⟨S256, .f32⟩ : BufTy).Contents (Elt F) → (⟨S256, .f32⟩ : BufTy).Contents (Elt F)),
    unary main_v101 main_v102 (Host.rsqrt : (⟨S256, .f32⟩ : BufTy).Contents (Elt F) → (⟨S256, .f32⟩ : BufTy).Contents (Elt F)),
    unary main_v102 main_v103 (broadcastInDim S1x256 ![1] bcast_S256_S1x256_1 : (⟨S256, .f32⟩ : BufTy).Contents (Elt F) → (⟨S1x256, .f32⟩ : BufTy).Contents (Elt F)),
    unary main_v103 main_v104 (broadcastInDim S50000x256 ![0, 1] bcast_S1x256_S50000x256_0_1 : (⟨S1x256, .f32⟩ : BufTy).Contents (Elt F) → (⟨S50000x256, .f32⟩ : BufTy).Contents (Elt F)),
    binary main_v99 main_v104 main_v105 (mulf : (⟨S50000x256, .f32⟩ : BufTy).Contents (Elt F) → (⟨S50000x256, .f32⟩ : BufTy).Contents (Elt F) → (⟨S50000x256, .f32⟩ : BufTy).Contents (Elt F)),
    unary main_arg9 main_v106 (broadcastInDim S1x256 ![1] bcast_S256_S1x256_1 : (⟨S256, .f32⟩ : BufTy).Contents (Elt F) → (⟨S1x256, .f32⟩ : BufTy).Contents (Elt F)),
    unary main_v106 main_v107 (broadcastInDim S50000x256 ![0, 1] bcast_S1x256_S50000x256_0_1 : (⟨S1x256, .f32⟩ : BufTy).Contents (Elt F) → (⟨S50000x256, .f32⟩ : BufTy).Contents (Elt F)),
    binary main_v105 main_v107 main_v108 (mulf : (⟨S50000x256, .f32⟩ : BufTy).Contents (Elt F) → (⟨S50000x256, .f32⟩ : BufTy).Contents (Elt F) → (⟨S50000x256, .f32⟩ : BufTy).Contents (Elt F)),
    unary main_arg10 main_v109 (broadcastInDim S1x256 ![1] bcast_S256_S1x256_1 : (⟨S256, .f32⟩ : BufTy).Contents (Elt F) → (⟨S1x256, .f32⟩ : BufTy).Contents (Elt F)),
    unary main_v109 main_v110 (broadcastInDim S50000x256 ![0, 1] bcast_S1x256_S50000x256_0_1 : (⟨S1x256, .f32⟩ : BufTy).Contents (Elt F) → (⟨S50000x256, .f32⟩ : BufTy).Contents (Elt F)),
    binary main_v108 main_v110 main_v111 (addf : (⟨S50000x256, .f32⟩ : BufTy).Contents (Elt F) → (⟨S50000x256, .f32⟩ : BufTy).Contents (Elt F) → (⟨S50000x256, .f32⟩ : BufTy).Contents (Elt F)) ]

/-- The buffers stage F writes. -/
def writtenF : List (Ref sig .tc) :=
  [main_cst_15, main_v87, main_cst_16, main_v88, main_v89, main_v90, main_v91, main_v92, main_v93, main_cst_17, main_v94, main_cst_18, main_v95, main_v96, main_v97, main_v98, main_v99, main_cst_19, main_v100, main_v101, main_v102, main_v103, main_v104, main_v105, main_v106, main_v107, main_v108, main_v109, main_v110, main_v111]

/-- Stage G: operations 138 … 138 of @main. -/
def segG : List (HloOp τ sig (Elt F)) :=
  [ binary main_v111 main_arg7 main_v112 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- The buffers stage G writes. -/
def writtenG : List (Ref sig .tc) :=
  [main_v112]

/-- Stage H: operations 139 … 184 of @main. -/
def segH : List (HloOp τ sig (Elt F)) :=
  [ nullary main_c_20 (constantI S_ 32 0#32),
    unary main_c_20 main_v113 (broadcastInDim S800000 ![] bcast_S_S800000 : (⟨S_, .i32⟩ : BufTy).Contents (Elt F) → (⟨S800000, .i32⟩ : BufTy).Contents (Elt F)),
    binary main_v1 main_v113 main_v114 (cmpi .slt : (⟨S800000, .i32⟩ : BufTy).Contents (Elt F) → (⟨S800000, .i32⟩ : BufTy).Contents (Elt F) → (⟨S800000, .i1⟩ : BufTy).Contents (Elt F)),
    nullary main_c_21 (constantI S_ 32 50000#32),
    unary main_c_21 main_v115 (broadcastInDim S800000 ![] bcast_S_S800000 : (⟨S_, .i32⟩ : BufTy).Contents (Elt F) → (⟨S800000, .i32⟩ : BufTy).Contents (Elt F)),
    binary main_v1 main_v115 main_v116 (addi : (⟨S800000, .i32⟩ : BufTy).Contents (Elt F) → (⟨S800000, .i32⟩ : BufTy).Contents (Elt F) → (⟨S800000, .i32⟩ : BufTy).Contents (Elt F)),
    ternary main_v114 main_v116 main_v1 main_v117 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v117 main_v118 (broadcastInDim S800000x1 ![0] bcast_S800000_S800000x1_0 : (⟨S800000, .i32⟩ : BufTy).Contents (Elt F) → (⟨S800000x1, .i32⟩ : BufTy).Contents (Elt F)),
    binary main_v10 main_v118 main_v119 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_22 (constantI S_ 32 0#32),
    unary main_c_22 main_v120 (broadcastInDim S800000 ![] bcast_S_S800000 : (⟨S_, .i32⟩ : BufTy).Contents (Elt F) → (⟨S800000, .i32⟩ : BufTy).Contents (Elt F)),
    binary main_v3 main_v120 main_v121 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v122 (broadcastInDim S800000 ![] bcast_S_S800000 : (⟨S_, .i32⟩ : BufTy).Contents (Elt F) → (⟨S800000, .i32⟩ : BufTy).Contents (Elt F)),
    binary main_v3 main_v122 main_v123 (addi : (⟨S800000, .i32⟩ : BufTy).Contents (Elt F) → (⟨S800000, .i32⟩ : BufTy).Contents (Elt F) → (⟨S800000, .i32⟩ : BufTy).Contents (Elt F)),
    ternary main_v121 main_v123 main_v3 main_v124 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v124 main_v125 (broadcastInDim S800000x1 ![0] bcast_S800000_S800000x1_0 : (⟨S800000, .i32⟩ : BufTy).Contents (Elt F) → (⟨S800000x1, .i32⟩ : BufTy).Contents (Elt F)),
    binary main_v10 main_v125 main_v126 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v119 main_v126 main_v127 (mulf : (⟨S800000, .f32⟩ : BufTy).Contents (Elt F) → (⟨S800000, .f32⟩ : BufTy).Contents (Elt F) → (⟨S800000, .f32⟩ : BufTy).Contents (Elt F)),
    unary main_v127 main_v128 (broadcastInDim S800000x1 ![0] bcast_S800000_S800000x1_0 : (⟨S800000, .f32⟩ : BufTy).Contents (Elt F) → (⟨S800000x1, .f32⟩ : BufTy).Contents (Elt F)),
    nullary main_c_24 (constantI S_ 32 0#32),
    unary main_c_24 main_v129 (broadcastInDim S800000 ![] bcast_S_S800000 : (⟨S_, .i32⟩ : BufTy).Contents (Elt F) → (⟨S800000, .i32⟩ : BufTy).Contents (Elt F)),
    binary main_v1 main_v129 main_v130 (cmpi .slt : (⟨S800000, .i32⟩ : BufTy).Contents (Elt F) → (⟨S800000, .i32⟩ : BufTy).Contents (Elt F) → (⟨S800000, .i1⟩ : BufTy).Contents (Elt F)),
    nullary main_c_25 (constantI S_ 32 50000#32),
    unary main_c_25 main_v131 (broadcastInDim S800000 ![] bcast_S_S800000 : (⟨S_, .i32⟩ : BufTy).Contents (Elt F) → (⟨S800000, .i32⟩ : BufTy).Contents (Elt F)),
    binary main_v1 main_v131 main_v132 (addi : (⟨S800000, .i32⟩ : BufTy).Contents (Elt F) → (⟨S800000, .i32⟩ : BufTy).Contents (Elt F) → (⟨S800000, .i32⟩ : BufTy).Contents (Elt F)),
    ternary main_v130 main_v132 main_v1 main_v133 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v133 main_v134 (broadcastInDim S800000x1 ![0] bcast_S800000_S800000x1_0 : (⟨S800000, .i32⟩ : BufTy).Contents (Elt F) → (⟨S800000x1, .i32⟩ : BufTy).Contents (Elt F)),
    binary main_v112 main_v134 main_v135 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_v128 main_v136 (broadcastInDim S800000x256 ![0, 1] bcast_S800000x1_S800000x256_0_1 : (⟨S800000x1, .f32⟩ : BufTy).Contents (Elt F) → (⟨S800000x256, .f32⟩ : BufTy).Contents (Elt F)),
    binary main_v135 main_v136 main_v137 (mulf : (⟨S800000x256, .f32⟩ : BufTy).Contents (Elt F) → (⟨S800000x256, .f32⟩ : BufTy).Contents (Elt F) → (⟨S800000x256, .f32⟩ : BufTy).Contents (Elt F)),
    nullary main_cst_26 (constant S_ .f32 0x00000000#32),
    unary main_cst_26 main_v138 (broadcastInDim S50000x256 ![] bcast_S_S50000x256 : (⟨S_, .f32⟩ : BufTy).Contents (Elt F) → (⟨S50000x256, .f32⟩ : BufTy).Contents (Elt F)),
    unary main_v3 main_v139 (broadcastInDim S800000x1 ![0] bcast_S800000_S800000x1_0 : (⟨S800000, .i32⟩ : BufTy).Contents (Elt F) → (⟨S800000x1, .i32⟩ : BufTy).Contents (Elt F)),
    ternary main_v138 main_v139 main_v137 main_v140 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    binary main_v10 main_v10 main_v141 (mulf : (⟨S50000, .f32⟩ : BufTy).Contents (Elt F) → (⟨S50000, .f32⟩ : BufTy).Contents (Elt F) → (⟨S50000, .f32⟩ : BufTy).Contents (Elt F)),
    unary main_v141 main_v142 (broadcastInDim S50000x1 ![0] bcast_S50000_S50000x1_0 : (⟨S50000, .f32⟩ : BufTy).Contents (Elt F) → (⟨S50000x1, .f32⟩ : BufTy).Contents (Elt F)),
    unary main_v142 main_v143 (broadcastInDim S50000x256 ![0, 1] bcast_S50000x1_S50000x256_0_1 : (⟨S50000x1, .f32⟩ : BufTy).Contents (Elt F) → (⟨S50000x256, .f32⟩ : BufTy).Contents (Elt F)),
    binary main_v112 main_v143 main_v144 (mulf : (⟨S50000x256, .f32⟩ : BufTy).Contents (Elt F) → (⟨S50000x256, .f32⟩ : BufTy).Contents (Elt F) → (⟨S50000x256, .f32⟩ : BufTy).Contents (Elt F)),
    binary main_v140 main_v144 main_v145 (addf : (⟨S50000x256, .f32⟩ : BufTy).Contents (Elt F) → (⟨S50000x256, .f32⟩ : BufTy).Contents (Elt F) → (⟨S50000x256, .f32⟩ : BufTy).Contents (Elt F)),
    unary main_arg8 main_v146 (broadcastInDim S1x256 ![1] bcast_S256_S1x256_1 : (⟨S256, .f32⟩ : BufTy).Contents (Elt F) → (⟨S1x256, .f32⟩ : BufTy).Contents (Elt F)),
    unary main_v146 main_v147 (broadcastInDim S50000x256 ![0, 1] bcast_S1x256_S50000x256_0_1 : (⟨S1x256, .f32⟩ : BufTy).Contents (Elt F) → (⟨S50000x256, .f32⟩ : BufTy).Contents (Elt F)),
    binary main_v145 main_v147 main_v148 (addf : (⟨S50000x256, .f32⟩ : BufTy).Contents (Elt F) → (⟨S50000x256, .f32⟩ : BufTy).Contents (Elt F) → (⟨S50000x256, .f32⟩ : BufTy).Contents (Elt F)),
    nullary main_call2_cst (constant S_ .f32 0x00000000#32),
    unary main_call2_cst main_call2_v0 ((broadcastInDim S50000x256 ![] bcast_S_S50000x256) : (⟨S_, .f32⟩ : BufTy).Contents (Elt F) → (⟨S50000x256, .f32⟩ : BufTy).Contents (Elt F)),
    binary main_v148 main_call2_v0 main_v149 (maximumf : (⟨S50000x256, .f32⟩ : BufTy).Contents (Elt F) → (⟨S50000x256, .f32⟩ : BufTy).Contents (Elt F) → (⟨S50000x256, .f32⟩ : BufTy).Contents (Elt F)) ]

/-- The buffers stage H writes. -/
def writtenH : List (Ref sig .tc) :=
  [main_c_20, main_v113, main_v114, main_c_21, main_v115, main_v116, main_v117, main_v118, main_v119, main_c_22, main_v120, main_v121, main_c_23, main_v122, main_v123, main_v124, main_v125, main_v126, main_v127, main_v128, main_c_24, main_v129, main_v130, main_c_25, main_v131, main_v132, main_v133, main_v134, main_v135, main_v136, main_v137, main_cst_26, main_v138, main_v139, main_v140, main_v141, main_v142, main_v143, main_v144, main_v145, main_v146, main_v147, main_v148, main_call2_cst, main_call2_v0, main_v149]

/-- Stage I: operations 185 … 214 of @main. -/
def segI : List (HloOp τ sig (Elt F)) :=
  [ nullary main_cst_27 (constant S_ .f32 0x00000000#32),
    binary main_v149 main_cst_27 main_v150 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_28 (constant S_ .f32 0x47435000#32),
    unary main_cst_28 main_v151 (broadcastInDim S256 ![] bcast_S_S256 : (⟨S_, .f32⟩ : BufTy).Contents (Elt F) → (⟨S256, .f32⟩ : BufTy).Contents (Elt F)),
    binary main_v150 main_v151 main_v152 (Host.divf : (⟨S256, .f32⟩ : BufTy).Contents (Elt F) → (⟨S256, .f32⟩ : BufTy).Contents (Elt F) → (⟨S256, .f32⟩ : BufTy).Contents (Elt F)),
    unary main_v152 main_v153 (broadcastInDim S1x256 ![1] bcast_S256_S1x256_1 : (⟨S256, .f32⟩ : BufTy).Contents (Elt F) → (⟨S1x256, .f32⟩ : BufTy).Contents (Elt F)),
    unary main_v153 main_v154 (broadcastInDim S50000x256 ![0, 1] bcast_S1x256_S50000x256_0_1 : (⟨S1x256, .f32⟩ : BufTy).Contents (Elt F) → (⟨S50000x256, .f32⟩ : BufTy).Contents (Elt F)),
    binary main_v149 main_v154 main_v155 (subf : (⟨S50000x256, .f32⟩ : BufTy).Contents (Elt F) → (⟨S50000x256, .f32⟩ : BufTy).Contents (Elt F) → (⟨S50000x256, .f32⟩ : BufTy).Contents (Elt F)),
    binary main_v155 main_v155 main_v156 (mulf : (⟨S50000x256, .f32⟩ : BufTy).Contents (Elt F) → (⟨S50000x256, .f32⟩ : BufTy).Contents (Elt F) → (⟨S50000x256, .f32⟩ : BufTy).Contents (Elt F)),
    nullary main_cst_29 (constant S_ .f32 0x00000000#32),
    binary main_v156 main_cst_29 main_v157 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_30 (constant S_ .f32 0x47435000#32),
    unary main_cst_30 main_v158 (broadcastInDim S256 ![] bcast_S_S256 : (⟨S_, .f32⟩ : BufTy).Contents (Elt F) → (⟨S256, .f32⟩ : BufTy).Contents (Elt F)),
    binary main_v157 main_v158 main_v159 (Host.divf : (⟨S256, .f32⟩ : BufTy).Contents (Elt F) → (⟨S256, .f32⟩ : BufTy).Contents (Elt F) → (⟨S256, .f32⟩ : BufTy).Contents (Elt F)),
    unary main_v152 main_v160 (broadcastInDim S1x256 ![1] bcast_S256_S1x256_1 : (⟨S256, .f32⟩ : BufTy).Contents (Elt F) → (⟨S1x256, .f32⟩ : BufTy).Contents (Elt F)),
    unary main_v160 main_v161 (broadcastInDim S50000x256 ![0, 1] bcast_S1x256_S50000x256_0_1 : (⟨S1x256, .f32⟩ : BufTy).Contents (Elt F) → (⟨S50000x256, .f32⟩ : BufTy).Contents (Elt F)),
    binary main_v149 main_v161 main_v162 (subf : (⟨S50000x256, .f32⟩ : BufTy).Contents (Elt F) → (⟨S50000x256, .f32⟩ : BufTy).Contents (Elt F) → (⟨S50000x256, .f32⟩ : BufTy).Contents (Elt F)),
    nullary main_cst_31 (constant S_ .f32 0x3727C5AC#32),
    unary main_cst_31 main_v163 (broadcastInDim S256 ![] bcast_S_S256 : (⟨S_, .f32⟩ : BufTy).Contents (Elt F) → (⟨S256, .f32⟩ : BufTy).Contents (Elt F)),
    binary main_v159 main_v163 main_v164 (addf : (⟨S256, .f32⟩ : BufTy).Contents (Elt F) → (⟨S256, .f32⟩ : BufTy).Contents (Elt F) → (⟨S256, .f32⟩ : BufTy).Contents (Elt F)),
    unary main_v164 main_v165 (Host.rsqrt : (⟨S256, .f32⟩ : BufTy).Contents (Elt F) → (⟨S256, .f32⟩ : BufTy).Contents (Elt F)),
    unary main_v165 main_v166 (broadcastInDim S1x256 ![1] bcast_S256_S1x256_1 : (⟨S256, .f32⟩ : BufTy).Contents (Elt F) → (⟨S1x256, .f32⟩ : BufTy).Contents (Elt F)),
    unary main_v166 main_v167 (broadcastInDim S50000x256 ![0, 1] bcast_S1x256_S50000x256_0_1 : (⟨S1x256, .f32⟩ : BufTy).Contents (Elt F) → (⟨S50000x256, .f32⟩ : BufTy).Contents (Elt F)),
    binary main_v162 main_v167 main_v168 (mulf : (⟨S50000x256, .f32⟩ : BufTy).Contents (Elt F) → (⟨S50000x256, .f32⟩ : BufTy).Contents (Elt F) → (⟨S50000x256, .f32⟩ : BufTy).Contents (Elt F)),
    unary main_arg11 main_v169 (broadcastInDim S1x256 ![1] bcast_S256_S1x256_1 : (⟨S256, .f32⟩ : BufTy).Contents (Elt F) → (⟨S1x256, .f32⟩ : BufTy).Contents (Elt F)),
    unary main_v169 main_v170 (broadcastInDim S50000x256 ![0, 1] bcast_S1x256_S50000x256_0_1 : (⟨S1x256, .f32⟩ : BufTy).Contents (Elt F) → (⟨S50000x256, .f32⟩ : BufTy).Contents (Elt F)),
    binary main_v168 main_v170 main_v171 (mulf : (⟨S50000x256, .f32⟩ : BufTy).Contents (Elt F) → (⟨S50000x256, .f32⟩ : BufTy).Contents (Elt F) → (⟨S50000x256, .f32⟩ : BufTy).Contents (Elt F)),
    unary main_arg12 main_v172 (broadcastInDim S1x256 ![1] bcast_S256_S1x256_1 : (⟨S256, .f32⟩ : BufTy).Contents (Elt F) → (⟨S1x256, .f32⟩ : BufTy).Contents (Elt F)),
    unary main_v172 main_v173 (broadcastInDim S50000x256 ![0, 1] bcast_S1x256_S50000x256_0_1 : (⟨S1x256, .f32⟩ : BufTy).Contents (Elt F) → (⟨S50000x256, .f32⟩ : BufTy).Contents (Elt F)),
    binary main_v171 main_v173 main_v174 (addf : (⟨S50000x256, .f32⟩ : BufTy).Contents (Elt F) → (⟨S50000x256, .f32⟩ : BufTy).Contents (Elt F) → (⟨S50000x256, .f32⟩ : BufTy).Contents (Elt F)) ]

/-- The buffers stage I writes. -/
def writtenI : List (Ref sig .tc) :=
  [main_cst_27, main_v150, main_cst_28, main_v151, main_v152, main_v153, main_v154, main_v155, main_v156, main_cst_29, main_v157, main_cst_30, main_v158, main_v159, main_v160, main_v161, main_v162, main_cst_31, main_v163, main_v164, main_v165, main_v166, main_v167, main_v168, main_v169, main_v170, main_v171, main_v172, main_v173, main_v174]

/-- Stage J: operations 215 … 234 of @main. -/
def segJ : List (HloOp τ sig (Elt F)) :=
  [ nullary main_cst_32 (constant S_ .f32 0x00000000#32),
    unary main_cst_32 main_v175 (broadcastInDim S64x256 ![] bcast_S_S64x256 : (⟨S_, .f32⟩ : BufTy).Contents (Elt F) → (⟨S64x256, .f32⟩ : BufTy).Contents (Elt F)),
    unary main_arg2 main_v176 (broadcastInDim S50000x1 ![0] bcast_S50000_S50000x1_0 : (⟨S50000, .i32⟩ : BufTy).Contents (Elt F) → (⟨S50000x1, .i32⟩ : BufTy).Contents (Elt F)),
    ternary main_v175 main_v176 main_v174 main_v177 ((fun x i u => Host.scatterAdd scatter_S64x256_S50000x1_S50000x256_1_0_0_1 x i u) : (⟨S64x256, .f32⟩ : BufTy).Contents (Elt F) → (⟨S50000x1, .i32⟩ : BufTy).Contents (Elt F) → (⟨S50000x256, .f32⟩ : BufTy).Contents (Elt F) → (⟨S64x256, .f32⟩ : BufTy).Contents (Elt F)),
    nullary main_cst_33 (constant S_ .f32 0x3F800000#32),
    unary main_cst_33 main_v178 (broadcastInDim S50000 ![] bcast_S_S50000 : (⟨S_, .f32⟩ : BufTy).Contents (Elt F) → (⟨S50000, .f32⟩ : BufTy).Contents (Elt F)),
    nullary main_cst_34 (constant S_ .f32 0x00000000#32),
    unary main_cst_34 main_v179 (broadcastInDim S64 ![] bcast_S_S64 : (⟨S_, .f32⟩ : BufTy).Contents (Elt F) → (⟨S64, .f32⟩ : BufTy).Contents (Elt F)),
    unary main_arg2 main_v180 (broadcastInDim S50000x1 ![0] bcast_S50000_S50000x1_0 : (⟨S50000, .i32⟩ : BufTy).Contents (Elt F) → (⟨S50000x1, .i32⟩ : BufTy).Contents (Elt F)),
    ternary main_v179 main_v180 main_v178 main_v181 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    nullary main_cst_35 (constant S_ .f32 0x3F800000#32),
    unary main_cst_35 main_v182 (broadcastInDim S64 ![] bcast_S_S64 : (⟨S_, .f32⟩ : BufTy).Contents (Elt F) → (⟨S64, .f32⟩ : BufTy).Contents (Elt F)),
    binary main_v181 main_v182 main_v183 (maximumf : (⟨S64, .f32⟩ : BufTy).Contents (Elt F) → (⟨S64, .f32⟩ : BufTy).Contents (Elt F) → (⟨S64, .f32⟩ : BufTy).Contents (Elt F)),
    unary main_v183 main_v184 (broadcastInDim S64x1 ![0] bcast_S64_S64x1_0 : (⟨S64, .f32⟩ : BufTy).Contents (Elt F) → (⟨S64x1, .f32⟩ : BufTy).Contents (Elt F)),
    unary main_v184 main_v185 (broadcastInDim S64x256 ![0, 1] bcast_S64x1_S64x256_0_1 : (⟨S64x1, .f32⟩ : BufTy).Contents (Elt F) → (⟨S64x256, .f32⟩ : BufTy).Contents (Elt F)),
    binary main_v177 main_v185 main_v186 (Host.divf : (⟨S64x256, .f32⟩ : BufTy).Contents (Elt F) → (⟨S64x256, .f32⟩ : BufTy).Contents (Elt F) → (⟨S64x256, .f32⟩ : BufTy).Contents (Elt F)),
    binary main_v186 main_arg13 main_v187 ((fun l r => Host.dotGeneral dot_S64x256_S256x10_S64x10_1_0_0_1_n_n none l r) : (⟨S64x256, .f32⟩ : BufTy).Contents (Elt F) → (⟨S256x10, .f32⟩ : BufTy).Contents (Elt F) → (⟨S64x10, .f32⟩ : BufTy).Contents (Elt F)),
    unary main_arg14 main_v188 (broadcastInDim S1x10 ![1] bcast_S10_S1x10_1 : (⟨S10, .f32⟩ : BufTy).Contents (Elt F) → (⟨S1x10, .f32⟩ : BufTy).Contents (Elt F)),
    unary main_v188 main_v189 (broadcastInDim S64x10 ![0, 1] bcast_S1x10_S64x10_0_1 : (⟨S1x10, .f32⟩ : BufTy).Contents (Elt F) → (⟨S64x10, .f32⟩ : BufTy).Contents (Elt F)),
    binary main_v187 main_v189 main_v190 (addf : (⟨S64x10, .f32⟩ : BufTy).Contents (Elt F) → (⟨S64x10, .f32⟩ : BufTy).Contents (Elt F) → (⟨S64x10, .f32⟩ : BufTy).Contents (Elt F)) ]

/-- The buffers stage J writes. -/
def writtenJ : List (Ref sig .tc) :=
  [main_cst_32, main_v175, main_v176, main_v177, main_cst_33, main_v178, main_cst_34, main_v179, main_v180, main_v181, main_cst_35, main_v182, main_v183, main_v184, main_v185, main_v186, main_v187, main_v188, main_v189, main_v190]

/-- @main's operations are the ten stages in order. -/
theorem ops_eq : (ops (F := F)) = segA ++ (segB ++ (segC ++ (segD ++ (segE ++ (segF ++ (segG ++ (segH ++ (segI ++ segJ)))))))) := rfl

variable (m : (ℓ : Loc nD τ sig) → Buf (Elt F) ℓ) (c : Dev nD)

/-- The core's buffers at launch. -/
abbrev U0 : Valuation τ sig (Elt F) := launchContents m c
/-- The core's buffers after stage A. -/
def U1 : Valuation τ sig (Elt F) := after (segA (F := F)) (U0 m c)
/-- The core's buffers after stage B. -/
def U2 : Valuation τ sig (Elt F) := after (segB (F := F)) (U1 m c)
/-- The core's buffers after stage C. -/
def U3 : Valuation τ sig (Elt F) := after (segC (F := F)) (U2 m c)
/-- The core's buffers after stage D. -/
def U4 : Valuation τ sig (Elt F) := after (segD (F := F)) (U3 m c)
/-- The core's buffers after stage E. -/
def U5 : Valuation τ sig (Elt F) := after (segE (F := F)) (U4 m c)
/-- The core's buffers after stage F. -/
def U6 : Valuation τ sig (Elt F) := after (segF (F := F)) (U5 m c)
/-- The core's buffers after stage G. -/
def U7 : Valuation τ sig (Elt F) := after (segG (F := F)) (U6 m c)
/-- The core's buffers after stage H. -/
def U8 : Valuation τ sig (Elt F) := after (segH (F := F)) (U7 m c)
/-- The core's buffers after stage I. -/
def U9 : Valuation τ sig (Elt F) := after (segI (F := F)) (U8 m c)
/-- The core's buffers after stage J. -/
def U10 : Valuation τ sig (Elt F) := after (segJ (F := F)) (U9 m c)

/-- After all of @main the buffers are at the last cut. -/
theorem after_ops : after (ops (F := F)) (launchContents m c) = U10 m c := by
  rw [ops_eq]
  simp only [after_append]
  rfl

/-- A buffer stage A does not write is unchanged by it. -/
theorem keep1 (b : Ref sig .tc) (hb : b ∉ writtenA) : U1 m c (Proc.devRef .tc b) = U0 m c (Proc.devRef .tc b) :=
  after_of_writes_sub (segA (F := F)) _ (by
    simp only [segA, writtenA, List.Forall, nullary_writes, unary_writes, binary_writes,
      ternary_writes, reshape_writes]
    repeat' apply And.intro
    all_goals exact Finset.singleton_subset_iff.mpr (List.mem_toFinset.mpr (List.mem_map_of_mem (by decide)))) hb

/-- A buffer stage B does not write is unchanged by it. -/
theorem keep2 (b : Ref sig .tc) (hb : b ∉ writtenB) : U2 m c (Proc.devRef .tc b) = U1 m c (Proc.devRef .tc b) :=
  after_of_writes_sub (segB (F := F)) _ (by
    simp only [segB, writtenB, List.Forall, nullary_writes, unary_writes, binary_writes,
      ternary_writes, reshape_writes]
    repeat' apply And.intro
    all_goals exact Finset.singleton_subset_iff.mpr (List.mem_toFinset.mpr (List.mem_map_of_mem (by decide)))) hb

/-- A buffer stage C does not write is unchanged by it. -/
theorem keep3 (b : Ref sig .tc) (hb : b ∉ writtenC) : U3 m c (Proc.devRef .tc b) = U2 m c (Proc.devRef .tc b) :=
  after_of_writes_sub (segC (F := F)) _ (by
    simp only [segC, writtenC, List.Forall, nullary_writes, unary_writes, binary_writes,
      ternary_writes, reshape_writes]
    repeat' apply And.intro
    all_goals exact Finset.singleton_subset_iff.mpr (List.mem_toFinset.mpr (List.mem_map_of_mem (by decide)))) hb

/-- A buffer stage D does not write is unchanged by it. -/
theorem keep4 (b : Ref sig .tc) (hb : b ∉ writtenD) : U4 m c (Proc.devRef .tc b) = U3 m c (Proc.devRef .tc b) :=
  after_of_writes_sub (segD (F := F)) _ (by
    simp only [segD, writtenD, List.Forall, nullary_writes, unary_writes, binary_writes,
      ternary_writes, reshape_writes]
    repeat' apply And.intro
    all_goals exact Finset.singleton_subset_iff.mpr (List.mem_toFinset.mpr (List.mem_map_of_mem (by decide)))) hb

/-- A buffer stage E does not write is unchanged by it. -/
theorem keep5 (b : Ref sig .tc) (hb : b ∉ writtenE) : U5 m c (Proc.devRef .tc b) = U4 m c (Proc.devRef .tc b) :=
  after_of_writes_sub (segE (F := F)) _ (by
    simp only [segE, writtenE, List.Forall, nullary_writes, unary_writes, binary_writes,
      ternary_writes, reshape_writes]
    repeat' apply And.intro
    all_goals exact Finset.singleton_subset_iff.mpr (List.mem_toFinset.mpr (List.mem_map_of_mem (by decide)))) hb

/-- A buffer stage F does not write is unchanged by it. -/
theorem keep6 (b : Ref sig .tc) (hb : b ∉ writtenF) : U6 m c (Proc.devRef .tc b) = U5 m c (Proc.devRef .tc b) :=
  after_of_writes_sub (segF (F := F)) _ (by
    simp only [segF, writtenF, List.Forall, nullary_writes, unary_writes, binary_writes,
      ternary_writes, reshape_writes]
    repeat' apply And.intro
    all_goals exact Finset.singleton_subset_iff.mpr (List.mem_toFinset.mpr (List.mem_map_of_mem (by decide)))) hb

/-- A buffer stage G does not write is unchanged by it. -/
theorem keep7 (b : Ref sig .tc) (hb : b ∉ writtenG) : U7 m c (Proc.devRef .tc b) = U6 m c (Proc.devRef .tc b) :=
  after_of_writes_sub (segG (F := F)) _ (by
    simp only [segG, writtenG, List.Forall, nullary_writes, unary_writes, binary_writes,
      ternary_writes, reshape_writes]
    repeat' apply And.intro
    all_goals exact Finset.singleton_subset_iff.mpr (List.mem_toFinset.mpr (List.mem_map_of_mem (by decide)))) hb

/-- A buffer stage H does not write is unchanged by it. -/
theorem keep8 (b : Ref sig .tc) (hb : b ∉ writtenH) : U8 m c (Proc.devRef .tc b) = U7 m c (Proc.devRef .tc b) :=
  after_of_writes_sub (segH (F := F)) _ (by
    simp only [segH, writtenH, List.Forall, nullary_writes, unary_writes, binary_writes,
      ternary_writes, reshape_writes]
    repeat' apply And.intro
    all_goals exact Finset.singleton_subset_iff.mpr (List.mem_toFinset.mpr (List.mem_map_of_mem (by decide)))) hb

/-- A buffer stage I does not write is unchanged by it. -/
theorem keep9 (b : Ref sig .tc) (hb : b ∉ writtenI) : U9 m c (Proc.devRef .tc b) = U8 m c (Proc.devRef .tc b) :=
  after_of_writes_sub (segI (F := F)) _ (by
    simp only [segI, writtenI, List.Forall, nullary_writes, unary_writes, binary_writes,
      ternary_writes, reshape_writes]
    repeat' apply And.intro
    all_goals exact Finset.singleton_subset_iff.mpr (List.mem_toFinset.mpr (List.mem_map_of_mem (by decide)))) hb

/-- A buffer stage J does not write is unchanged by it. -/
theorem keep10 (b : Ref sig .tc) (hb : b ∉ writtenJ) : U10 m c (Proc.devRef .tc b) = U9 m c (Proc.devRef .tc b) :=
  after_of_writes_sub (segJ (F := F)) _ (by
    simp only [segJ, writtenJ, List.Forall, nullary_writes, unary_writes, binary_writes,
      ternary_writes, reshape_writes]
    repeat' apply And.intro
    all_goals exact Finset.singleton_subset_iff.mpr (List.mem_toFinset.mpr (List.mem_map_of_mem (by decide)))) hb

/-- No stage writes an argument array: at the last cut it holds what it held at launch. -/
theorem U10_arg (b : Ref sig .tc) (h1 : b ∉ writtenA) (h2 : b ∉ writtenB) (h3 : b ∉ writtenC) (h4 : b ∉ writtenD) (h5 : b ∉ writtenE)
    (h6 : b ∉ writtenF) (h7 : b ∉ writtenG) (h8 : b ∉ writtenH) (h9 : b ∉ writtenI) (h10 : b ∉ writtenJ) :
    U10 m c (Proc.devRef .tc b) = m ((c.tc : Thread nD τ).loc b) :=
  (keep10 m c b h10).trans ((keep9 m c b h9).trans ((keep8 m c b h8).trans ((keep7 m c b h7).trans ((keep6 m c b h6).trans
    ((keep5 m c b h5).trans ((keep4 m c b h4).trans ((keep3 m c b h3).trans ((keep2 m c b h2).trans ((keep1 m c b h1).trans rfl)))))))))

variable (ρ : Dev nD → PrngReg)

/-- Every weakly fair execution of the reference terminates without a fault, with the result array at the last cut's
    contents and every argument array as launched. -/
theorem run : θ_run defs (onTc (τ := τ) (main (F := F))) ⟨m, fun _ => 0, ρ⟩ fun r => ∀ c : Dev nD,
      r.2.mem ((c.tc : Thread nD τ).loc main_v190) = U10 m c (Proc.devRef .tc main_v190)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v190).trans (congrFun (after_ops m c) _),
      (h c main_arg0).trans ((congrFun (after_ops m c) _).trans (U10_arg m c main_arg0 (by decide) (by decide) (by decide) (by decide) (by decide) (by decide) (by decide) (by decide) (by decide) (by decide))),
      (h c main_arg1).trans ((congrFun (after_ops m c) _).trans (U10_arg m c main_arg1 (by decide) (by decide) (by decide) (by decide) (by decide) (by decide) (by decide) (by decide) (by decide) (by decide))),
      (h c main_arg2).trans ((congrFun (after_ops m c) _).trans (U10_arg m c main_arg2 (by decide) (by decide) (by decide) (by decide) (by decide) (by decide) (by decide) (by decide) (by decide) (by decide))),
      (h c main_arg3).trans ((congrFun (after_ops m c) _).trans (U10_arg m c main_arg3 (by decide) (by decide) (by decide) (by decide) (by decide) (by decide) (by decide) (by decide) (by decide) (by decide))),
      (h c main_arg4).trans ((congrFun (after_ops m c) _).trans (U10_arg m c main_arg4 (by decide) (by decide) (by decide) (by decide) (by decide) (by decide) (by decide) (by decide) (by decide) (by decide))),
      (h c main_arg5).trans ((congrFun (after_ops m c) _).trans (U10_arg m c main_arg5 (by decide) (by decide) (by decide) (by decide) (by decide) (by decide) (by decide) (by decide) (by decide) (by decide))),
      (h c main_arg6).trans ((congrFun (after_ops m c) _).trans (U10_arg m c main_arg6 (by decide) (by decide) (by decide) (by decide) (by decide) (by decide) (by decide) (by decide) (by decide) (by decide))),
      (h c main_arg7).trans ((congrFun (after_ops m c) _).trans (U10_arg m c main_arg7 (by decide) (by decide) (by decide) (by decide) (by decide) (by decide) (by decide) (by decide) (by decide) (by decide))),
      (h c main_arg8).trans ((congrFun (after_ops m c) _).trans (U10_arg m c main_arg8 (by decide) (by decide) (by decide) (by decide) (by decide) (by decide) (by decide) (by decide) (by decide) (by decide))),
      (h c main_arg9).trans ((congrFun (after_ops m c) _).trans (U10_arg m c main_arg9 (by decide) (by decide) (by decide) (by decide) (by decide) (by decide) (by decide) (by decide) (by decide) (by decide))),
      (h c main_arg10).trans ((congrFun (after_ops m c) _).trans (U10_arg m c main_arg10 (by decide) (by decide) (by decide) (by decide) (by decide) (by decide) (by decide) (by decide) (by decide) (by decide))),
      (h c main_arg11).trans ((congrFun (after_ops m c) _).trans (U10_arg m c main_arg11 (by decide) (by decide) (by decide) (by decide) (by decide) (by decide) (by decide) (by decide) (by decide) (by decide))),
      (h c main_arg12).trans ((congrFun (after_ops m c) _).trans (U10_arg m c main_arg12 (by decide) (by decide) (by decide) (by decide) (by decide) (by decide) (by decide) (by decide) (by decide) (by decide))),
      (h c main_arg13).trans ((congrFun (after_ops m c) _).trans (U10_arg m c main_arg13 (by decide) (by decide) (by decide) (by decide) (by decide) (by decide) (by decide) (by decide) (by decide) (by decide))),
      (h c main_arg14).trans ((congrFun (after_ops m c) _).trans (U10_arg m c main_arg14 (by decide) (by decide) (by decide) (by decide) (by decide) (by decide) (by decide) (by decide) (by decide) (by decide)))⟩)
    (run_seq scopedRefs_eq scopedSems_eq defs main (fun _ => ops) main_eq (fun _ => ops_sub) m ρ)

end Cert.ReferenceIdeal.Staged

end
-- ==== Proof.Keep.lean ====
/-
  Which buffers a stretch of host operations leaves alone. Between two kernels the program runs a stretch of host
  operations, each writing one buffer of its own; a buffer that is not among the ones a stretch writes holds after the
  stretch what it held before it. One lemma per stretch, with the list of the buffers the stretch writes.
-/
import proofs.«139121_j59785944760955_1_alg».proof.Proof.Gen.KernelIdeal.Frame

set_option maxRecDepth 16384

noncomputable section

namespace Cert.KernelIdeal.Walk

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- The buffers host stretch 0 writes. -/
def written0 : List (Ref sig .tc) :=
  [main_v0, main_v1, main_v2, main_v3, main_cst, main_v4, main_cst_0, main_v5, main_v6, main_v7, main_cst_1, main_v8, main_v9, main_v10, main_v11, main_v12]

/-- A buffer that host stretch 0 does not write is unchanged by it. -/
theorem keep1 (b : Ref sig .tc) (hb : b ∉ written0) :
    W1 m ρ c (Proc.devRef .tc b) = W0 m ρ c (Proc.devRef .tc b) :=
  StableHlo.after_of_writes_sub (hostOps0 (F := F)) _ (by
    simp only [hostOps0, written0, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map_of_mem (by decide)))) hb

/-- The buffers host stretch 1 writes. -/
def written1 : List (Ref sig .tc) :=
  [main_c, main_v14, main_v15, main_c_2, main_v16, main_v17, main_v18, main_v19, main_v20, main_c_3, main_v21, main_v22, main_c_4, main_v23, main_v24, main_v25, main_v26, main_v27, main_v28, main_v29, main_c_5, main_v30, main_v31, main_c_6, main_v32, main_v33, main_v34, main_v35, main_v36, main_v37, main_v38, main_cst_7, main_v39, main_v40, main_v41, main_v42]

/-- A buffer that host stretch 1 does not write is unchanged by it. -/
theorem keep3 (b : Ref sig .tc) (hb : b ∉ written1) :
    W3 m ρ c (Proc.devRef .tc b) = W2 m ρ c (Proc.devRef .tc b) :=
  StableHlo.after_of_writes_sub (hostOps1 (F := F)) _ (by
    simp only [hostOps1, written1, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map_of_mem (by decide)))) hb

/-- The buffers host stretch 3 writes. -/
def written3 : List (Ref sig .tc) :=
  [main_c_8, main_v45, main_v46, main_c_9, main_v47, main_v48, main_v49, main_v50, main_v51, main_c_10, main_v52, main_v53, main_c_11, main_v54, main_v55, main_v56, main_v57, main_v58, main_v59, main_v60, main_c_12, main_v61, main_v62, main_c_13, main_v63, main_v64, main_v65, main_v66, main_v67, main_v68, main_v69, main_cst_14, main_v70, main_v71, main_v72, main_v73]

/-- A buffer that host stretch 3 does not write is unchanged by it. -/
theorem keep6 (b : Ref sig .tc) (hb : b ∉ written3) :
    W6 m ρ c (Proc.devRef .tc b) = W5 m ρ c (Proc.devRef .tc b) :=
  StableHlo.after_of_writes_sub (hostOps3 (F := F)) _ (by
    simp only [hostOps3, written3, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map_of_mem (by decide)))) hb

/-- The buffers host stretch 4 writes. -/
def written4 : List (Ref sig .tc) :=
  [main_cst_15, main_v75, main_v76, main_cst_16, main_v77, main_v78, main_v79, main_v80, main_v81, main_cst_17, main_v82, main_v83, main_cst_18, main_v84, main_v85, main_cst_19, main_v86, main_v87, main_v88, main_v89, main_v90]

/-- A buffer that host stretch 4 does not write is unchanged by it. -/
theorem keep8 (b : Ref sig .tc) (hb : b ∉ written4) :
    W8 m ρ c (Proc.devRef .tc b) = W7 m ρ c (Proc.devRef .tc b) :=
  StableHlo.after_of_writes_sub (hostOps4 (F := F)) _ (by
    simp only [hostOps4, written4, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map_of_mem (by decide)))) hb

/-- The buffers host stretch 6 writes. -/
def written6 : List (Ref sig .tc) :=
  [main_c_20, main_v93, main_v94, main_c_21, main_v95, main_v96, main_v97, main_v98, main_v99, main_c_22, main_v100, main_v101, main_c_23, main_v102, main_v103, main_v104, main_v105, main_v106, main_v107, main_v108, main_c_24, main_v109, main_v110, main_c_25, main_v111, main_v112, main_v113, main_v114, main_v115, main_v116, main_v117, main_cst_26, main_v118, main_v119, main_v120, main_v121]

/-- A buffer that host stretch 6 does not write is unchanged by it. -/
theorem keep11 (b : Ref sig .tc) (hb : b ∉ written6) :
    W11 m ρ c (Proc.devRef .tc b) = W10 m ρ c (Proc.devRef .tc b) :=
  StableHlo.after_of_writes_sub (hostOps6 (F := F)) _ (by
    simp only [hostOps6, written6, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map_of_mem (by decide)))) hb

/-- The buffers host stretch 7 writes. -/
def written7 : List (Ref sig .tc) :=
  [main_cst_27, main_v123, main_v124, main_cst_28, main_v125, main_v126, main_v127, main_v128, main_v129, main_cst_29, main_v130, main_v131, main_cst_30, main_v132, main_v133, main_cst_31, main_v134, main_v135, main_v136, main_v137, main_v138]

/-- A buffer that host stretch 7 does not write is unchanged by it. -/
theorem keep13 (b : Ref sig .tc) (hb : b ∉ written7) :
    W13 m ρ c (Proc.devRef .tc b) = W12 m ρ c (Proc.devRef .tc b) :=
  StableHlo.after_of_writes_sub (hostOps7 (F := F)) _ (by
    simp only [hostOps7, written7, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map_of_mem (by decide)))) hb

/-- The buffers host stretch 8 writes. -/
def written8 : List (Ref sig .tc) :=
  [main_cst_32, main_v140, main_v141, main_v142, main_cst_33, main_v143, main_cst_34, main_v144, main_v145, main_v146, main_cst_35, main_v147, main_v148, main_v149, main_v150, main_v151, main_v152, main_v153, main_v154, main_v155]

/-- A buffer that host stretch 8 does not write is unchanged by it. -/
theorem keep15 (b : Ref sig .tc) (hb : b ∉ written8) :
    W15 m ρ c (Proc.devRef .tc b) = W14 m ρ c (Proc.devRef .tc b) :=
  StableHlo.after_of_writes_sub (hostOps8 (F := F)) _ (by
    simp only [hostOps8, written8, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map_of_mem (by decide)))) hb

end Cert.KernelIdeal.Walk

end
-- ==== Proof.Pass.lean ====
/-
  What the stage-by-stage comparison of the two programs starts from: the hypothesis that the two launch memories agree
  on the argument arrays; each argument array, the two edge lists, the degree factor and its squared column followed
  unchanged from the boundary where a later stretch reads it back to the boundary where it was written (on the kernel
  program's side through kernels — which leave alone every array that is not their output — and host stretches, on the
  reference's side through its stages); and the argument arrays identified at launch.
-/
import proofs.«139121_j59785944760955_1_alg».proof.Proof.Keep
import proofs.«139121_j59785944760955_1_alg».proof.Proof.RefRun
import Idealize.ShloMosaic.PureOps.Ideal

set_option maxRecDepth 16384

noncomputable section

namespace Cert.Bridge

open Cert.KernelIdeal Cert.KernelIdeal.Gen Cert.KernelIdeal.Walk
open Idealize.ShloMosaic Idealize.ShloMosaic.TcCoe Idealize.SL.Sem Idealize.ShloMosaic.StableHlo

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)
variable (c : Dev nD)

/-- The two launch memories agree on the fifteen argument arrays of core `c`. -/
def Agree : Prop :=
  m' ((c.tc : Thread Cert.ReferenceIdeal.nD Cert.ReferenceIdeal.τ).loc Cert.ReferenceIdeal.main_arg0) = m ((c.tc : Thread nD τ).loc main_arg0)
  ∧ m' ((c.tc : Thread Cert.ReferenceIdeal.nD Cert.ReferenceIdeal.τ).loc Cert.ReferenceIdeal.main_arg1) = m ((c.tc : Thread nD τ).loc main_arg1)
  ∧ m' ((c.tc : Thread Cert.ReferenceIdeal.nD Cert.ReferenceIdeal.τ).loc Cert.ReferenceIdeal.main_arg2) = m ((c.tc : Thread nD τ).loc main_arg2)
  ∧ m' ((c.tc : Thread Cert.ReferenceIdeal.nD Cert.ReferenceIdeal.τ).loc Cert.ReferenceIdeal.main_arg3) = m ((c.tc : Thread nD τ).loc main_arg3)
  ∧ m' ((c.tc : Thread Cert.ReferenceIdeal.nD Cert.ReferenceIdeal.τ).loc Cert.ReferenceIdeal.main_arg4) = m ((c.tc : Thread nD τ).loc main_arg4)
  ∧ m' ((c.tc : Thread Cert.ReferenceIdeal.nD Cert.ReferenceIdeal.τ).loc Cert.ReferenceIdeal.main_arg5) = m ((c.tc : Thread nD τ).loc main_arg5)
  ∧ m' ((c.tc : Thread Cert.ReferenceIdeal.nD Cert.ReferenceIdeal.τ).loc Cert.ReferenceIdeal.main_arg6) = m ((c.tc : Thread nD τ).loc main_arg6)
  ∧ m' ((c.tc : Thread Cert.ReferenceIdeal.nD Cert.ReferenceIdeal.τ).loc Cert.ReferenceIdeal.main_arg7) = m ((c.tc : Thread nD τ).loc main_arg7)
  ∧ m' ((c.tc : Thread Cert.ReferenceIdeal.nD Cert.ReferenceIdeal.τ).loc Cert.ReferenceIdeal.main_arg8) = m ((c.tc : Thread nD τ).loc main_arg8)
  ∧ m' ((c.tc : Thread Cert.ReferenceIdeal.nD Cert.ReferenceIdeal.τ).loc Cert.ReferenceIdeal.main_arg9) = m ((c.tc : Thread nD τ).loc main_arg9)
  ∧ m' ((c.tc : Thread Cert.ReferenceIdeal.nD Cert.ReferenceIdeal.τ).loc Cert.ReferenceIdeal.main_arg10) = m ((c.tc : Thread nD τ).loc main_arg10)
  ∧ m' ((c.tc : Thread Cert.ReferenceIdeal.nD Cert.ReferenceIdeal.τ).loc Cert.ReferenceIdeal.main_arg11) = m ((c.tc : Thread nD τ).loc main_arg11)
  ∧ m' ((c.tc : Thread Cert.ReferenceIdeal.nD Cert.ReferenceIdeal.τ).loc Cert.ReferenceIdeal.main_arg12) = m ((c.tc : Thread nD τ).loc main_arg12)
  ∧ m' ((c.tc : Thread Cert.ReferenceIdeal.nD Cert.ReferenceIdeal.τ).loc Cert.ReferenceIdeal.main_arg13) = m ((c.tc : Thread nD τ).loc main_arg13)
  ∧ m' ((c.tc : Thread Cert.ReferenceIdeal.nD Cert.ReferenceIdeal.τ).loc Cert.ReferenceIdeal.main_arg14) = m ((c.tc : Thread nD τ).loc main_arg14)

/-! ## Buffers that pass through: the kernel program's side -/

theorem kArg0 : W1 m ρ c (Proc.devRef .tc main_arg0) = W0 m ρ c (Proc.devRef .tc main_arg0) :=
  (keep1 m ρ c main_arg0 (by decide))
theorem kArg2 : W14 m ρ c (Proc.devRef .tc main_arg2) = W0 m ρ c (Proc.devRef .tc main_arg2) :=
  (W14_of_ne m ρ c main_arg2 (by decide)).trans ((keep13 m ρ c main_arg2 (by decide)).trans ((W12_of_ne m ρ c main_arg2 (by decide)).trans ((keep11 m ρ c main_arg2 (by decide)).trans ((W10_of_ne m ρ c main_arg2 (by decide)).trans ((W9_of_ne m ρ c main_arg2 (by decide)).trans ((keep8 m ρ c main_arg2 (by decide)).trans ((W7_of_ne m ρ c main_arg2 (by decide)).trans ((keep6 m ρ c main_arg2 (by decide)).trans ((W5_of_ne m ρ c main_arg2 (by decide)).trans ((W4_of_ne m ρ c main_arg2 (by decide)).trans ((keep3 m ρ c main_arg2 (by decide)).trans ((W2_of_ne m ρ c main_arg2 (by decide)).trans (keep1 m ρ c main_arg2 (by decide))))))))))))))
theorem kArg3 : W1 m ρ c (Proc.devRef .tc main_arg3) = W0 m ρ c (Proc.devRef .tc main_arg3) :=
  (keep1 m ρ c main_arg3 (by decide))
theorem kArg4 : W2 m ρ c (Proc.devRef .tc main_arg4) = W0 m ρ c (Proc.devRef .tc main_arg4) :=
  (W2_of_ne m ρ c main_arg4 (by decide)).trans (keep1 m ρ c main_arg4 (by decide))
theorem kArg5 : W4 m ρ c (Proc.devRef .tc main_arg5) = W0 m ρ c (Proc.devRef .tc main_arg5) :=
  (W4_of_ne m ρ c main_arg5 (by decide)).trans ((keep3 m ρ c main_arg5 (by decide)).trans ((W2_of_ne m ρ c main_arg5 (by decide)).trans (keep1 m ρ c main_arg5 (by decide))))
theorem kArg6 : W5 m ρ c (Proc.devRef .tc main_arg6) = W0 m ρ c (Proc.devRef .tc main_arg6) :=
  (W5_of_ne m ρ c main_arg6 (by decide)).trans ((W4_of_ne m ρ c main_arg6 (by decide)).trans ((keep3 m ρ c main_arg6 (by decide)).trans ((W2_of_ne m ρ c main_arg6 (by decide)).trans (keep1 m ρ c main_arg6 (by decide)))))
theorem kArg7 : W9 m ρ c (Proc.devRef .tc main_arg7) = W0 m ρ c (Proc.devRef .tc main_arg7) :=
  (W9_of_ne m ρ c main_arg7 (by decide)).trans ((keep8 m ρ c main_arg7 (by decide)).trans ((W7_of_ne m ρ c main_arg7 (by decide)).trans ((keep6 m ρ c main_arg7 (by decide)).trans ((W5_of_ne m ρ c main_arg7 (by decide)).trans ((W4_of_ne m ρ c main_arg7 (by decide)).trans ((keep3 m ρ c main_arg7 (by decide)).trans ((W2_of_ne m ρ c main_arg7 (by decide)).trans (keep1 m ρ c main_arg7 (by decide)))))))))
theorem kArg8 : W10 m ρ c (Proc.devRef .tc main_arg8) = W0 m ρ c (Proc.devRef .tc main_arg8) :=
  (W10_of_ne m ρ c main_arg8 (by decide)).trans ((W9_of_ne m ρ c main_arg8 (by decide)).trans ((keep8 m ρ c main_arg8 (by decide)).trans ((W7_of_ne m ρ c main_arg8 (by decide)).trans ((keep6 m ρ c main_arg8 (by decide)).trans ((W5_of_ne m ρ c main_arg8 (by decide)).trans ((W4_of_ne m ρ c main_arg8 (by decide)).trans ((keep3 m ρ c main_arg8 (by decide)).trans ((W2_of_ne m ρ c main_arg8 (by decide)).trans (keep1 m ρ c main_arg8 (by decide))))))))))
theorem kArg9 : W7 m ρ c (Proc.devRef .tc main_arg9) = W0 m ρ c (Proc.devRef .tc main_arg9) :=
  (W7_of_ne m ρ c main_arg9 (by decide)).trans ((keep6 m ρ c main_arg9 (by decide)).trans ((W5_of_ne m ρ c main_arg9 (by decide)).trans ((W4_of_ne m ρ c main_arg9 (by decide)).trans ((keep3 m ρ c main_arg9 (by decide)).trans ((W2_of_ne m ρ c main_arg9 (by decide)).trans (keep1 m ρ c main_arg9 (by decide)))))))
theorem kArg10 : W7 m ρ c (Proc.devRef .tc main_arg10) = W0 m ρ c (Proc.devRef .tc main_arg10) :=
  (W7_of_ne m ρ c main_arg10 (by decide)).trans ((keep6 m ρ c main_arg10 (by decide)).trans ((W5_of_ne m ρ c main_arg10 (by decide)).trans ((W4_of_ne m ρ c main_arg10 (by decide)).trans ((keep3 m ρ c main_arg10 (by decide)).trans ((W2_of_ne m ρ c main_arg10 (by decide)).trans (keep1 m ρ c main_arg10 (by decide)))))))
theorem kArg11 : W12 m ρ c (Proc.devRef .tc main_arg11) = W0 m ρ c (Proc.devRef .tc main_arg11) :=
  (W12_of_ne m ρ c main_arg11 (by decide)).trans ((keep11 m ρ c main_arg11 (by decide)).trans ((W10_of_ne m ρ c main_arg11 (by decide)).trans ((W9_of_ne m ρ c main_arg11 (by decide)).trans ((keep8 m ρ c main_arg11 (by decide)).trans ((W7_of_ne m ρ c main_arg11 (by decide)).trans ((keep6 m ρ c main_arg11 (by decide)).trans ((W5_of_ne m ρ c main_arg11 (by decide)).trans ((W4_of_ne m ρ c main_arg11 (by decide)).trans ((keep3 m ρ c main_arg11 (by decide)).trans ((W2_of_ne m ρ c main_arg11 (by decide)).trans (keep1 m ρ c main_arg11 (by decide))))))))))))
theorem kArg12 : W12 m ρ c (Proc.devRef .tc main_arg12) = W0 m ρ c (Proc.devRef .tc main_arg12) :=
  (W12_of_ne m ρ c main_arg12 (by decide)).trans ((keep11 m ρ c main_arg12 (by decide)).trans ((W10_of_ne m ρ c main_arg12 (by decide)).trans ((W9_of_ne m ρ c main_arg12 (by decide)).trans ((keep8 m ρ c main_arg12 (by decide)).trans ((W7_of_ne m ρ c main_arg12 (by decide)).trans ((keep6 m ρ c main_arg12 (by decide)).trans ((W5_of_ne m ρ c main_arg12 (by decide)).trans ((W4_of_ne m ρ c main_arg12 (by decide)).trans ((keep3 m ρ c main_arg12 (by decide)).trans ((W2_of_ne m ρ c main_arg12 (by decide)).trans (keep1 m ρ c main_arg12 (by decide))))))))))))
theorem kArg13 : W14 m ρ c (Proc.devRef .tc main_arg13) = W0 m ρ c (Proc.devRef .tc main_arg13) :=
  (W14_of_ne m ρ c main_arg13 (by decide)).trans ((keep13 m ρ c main_arg13 (by decide)).trans ((W12_of_ne m ρ c main_arg13 (by decide)).trans ((keep11 m ρ c main_arg13 (by decide)).trans ((W10_of_ne m ρ c main_arg13 (by decide)).trans ((W9_of_ne m ρ c main_arg13 (by decide)).trans ((keep8 m ρ c main_arg13 (by decide)).trans ((W7_of_ne m ρ c main_arg13 (by decide)).trans ((keep6 m ρ c main_arg13 (by decide)).trans ((W5_of_ne m ρ c main_arg13 (by decide)).trans ((W4_of_ne m ρ c main_arg13 (by decide)).trans ((keep3 m ρ c main_arg13 (by decide)).trans ((W2_of_ne m ρ c main_arg13 (by decide)).trans (keep1 m ρ c main_arg13 (by decide))))))))))))))
theorem kArg14 : W14 m ρ c (Proc.devRef .tc main_arg14) = W0 m ρ c (Proc.devRef .tc main_arg14) :=
  (W14_of_ne m ρ c main_arg14 (by decide)).trans ((keep13 m ρ c main_arg14 (by decide)).trans ((W12_of_ne m ρ c main_arg14 (by decide)).trans ((keep11 m ρ c main_arg14 (by decide)).trans ((W10_of_ne m ρ c main_arg14 (by decide)).trans ((W9_of_ne m ρ c main_arg14 (by decide)).trans ((keep8 m ρ c main_arg14 (by decide)).trans ((W7_of_ne m ρ c main_arg14 (by decide)).trans ((keep6 m ρ c main_arg14 (by decide)).trans ((W5_of_ne m ρ c main_arg14 (by decide)).trans ((W4_of_ne m ρ c main_arg14 (by decide)).trans ((keep3 m ρ c main_arg14 (by decide)).trans ((W2_of_ne m ρ c main_arg14 (by decide)).trans (keep1 m ρ c main_arg14 (by decide))))))))))))))
theorem k2_v1 : W2 m ρ c (Proc.devRef .tc main_v1) = W1 m ρ c (Proc.devRef .tc main_v1) :=
  (W2_of_ne m ρ c main_v1 (by decide))
theorem k5_v1 : W5 m ρ c (Proc.devRef .tc main_v1) = W1 m ρ c (Proc.devRef .tc main_v1) :=
  (W5_of_ne m ρ c main_v1 (by decide)).trans ((W4_of_ne m ρ c main_v1 (by decide)).trans ((keep3 m ρ c main_v1 (by decide)).trans (W2_of_ne m ρ c main_v1 (by decide))))
theorem k10_v1 : W10 m ρ c (Proc.devRef .tc main_v1) = W1 m ρ c (Proc.devRef .tc main_v1) :=
  (W10_of_ne m ρ c main_v1 (by decide)).trans ((W9_of_ne m ρ c main_v1 (by decide)).trans ((keep8 m ρ c main_v1 (by decide)).trans ((W7_of_ne m ρ c main_v1 (by decide)).trans ((keep6 m ρ c main_v1 (by decide)).trans ((W5_of_ne m ρ c main_v1 (by decide)).trans ((W4_of_ne m ρ c main_v1 (by decide)).trans ((keep3 m ρ c main_v1 (by decide)).trans (W2_of_ne m ρ c main_v1 (by decide)))))))))
theorem k2_v3 : W2 m ρ c (Proc.devRef .tc main_v3) = W1 m ρ c (Proc.devRef .tc main_v3) :=
  (W2_of_ne m ρ c main_v3 (by decide))
theorem k5_v3 : W5 m ρ c (Proc.devRef .tc main_v3) = W1 m ρ c (Proc.devRef .tc main_v3) :=
  (W5_of_ne m ρ c main_v3 (by decide)).trans ((W4_of_ne m ρ c main_v3 (by decide)).trans ((keep3 m ρ c main_v3 (by decide)).trans (W2_of_ne m ρ c main_v3 (by decide))))
theorem k10_v3 : W10 m ρ c (Proc.devRef .tc main_v3) = W1 m ρ c (Proc.devRef .tc main_v3) :=
  (W10_of_ne m ρ c main_v3 (by decide)).trans ((W9_of_ne m ρ c main_v3 (by decide)).trans ((keep8 m ρ c main_v3 (by decide)).trans ((W7_of_ne m ρ c main_v3 (by decide)).trans ((keep6 m ρ c main_v3 (by decide)).trans ((W5_of_ne m ρ c main_v3 (by decide)).trans ((W4_of_ne m ρ c main_v3 (by decide)).trans ((keep3 m ρ c main_v3 (by decide)).trans (W2_of_ne m ρ c main_v3 (by decide)))))))))
theorem k2_v10 : W2 m ρ c (Proc.devRef .tc main_v10) = W1 m ρ c (Proc.devRef .tc main_v10) :=
  (W2_of_ne m ρ c main_v10 (by decide))
theorem k5_v10 : W5 m ρ c (Proc.devRef .tc main_v10) = W1 m ρ c (Proc.devRef .tc main_v10) :=
  (W5_of_ne m ρ c main_v10 (by decide)).trans ((W4_of_ne m ρ c main_v10 (by decide)).trans ((keep3 m ρ c main_v10 (by decide)).trans (W2_of_ne m ρ c main_v10 (by decide))))
theorem k10_v10 : W10 m ρ c (Proc.devRef .tc main_v10) = W1 m ρ c (Proc.devRef .tc main_v10) :=
  (W10_of_ne m ρ c main_v10 (by decide)).trans ((W9_of_ne m ρ c main_v10 (by decide)).trans ((keep8 m ρ c main_v10 (by decide)).trans ((W7_of_ne m ρ c main_v10 (by decide)).trans ((keep6 m ρ c main_v10 (by decide)).trans ((W5_of_ne m ρ c main_v10 (by decide)).trans ((W4_of_ne m ρ c main_v10 (by decide)).trans ((keep3 m ρ c main_v10 (by decide)).trans (W2_of_ne m ρ c main_v10 (by decide)))))))))
theorem k2_v12 : W2 m ρ c (Proc.devRef .tc main_v12) = W1 m ρ c (Proc.devRef .tc main_v12) :=
  (W2_of_ne m ρ c main_v12 (by decide))
theorem k5_v12 : W5 m ρ c (Proc.devRef .tc main_v12) = W1 m ρ c (Proc.devRef .tc main_v12) :=
  (W5_of_ne m ρ c main_v12 (by decide)).trans (((W4_arr m ρ c 2).trans (((dat1 (V3 m ρ) c).arrAt_in 2 rfl _).trans (A_eq1 (V3 m ρ) c 2))).trans ((keep3 m ρ c main_v12 (by decide)).trans ((W2_of_ne m ρ c main_v12 (by decide)))))
theorem k10_v12 : W10 m ρ c (Proc.devRef .tc main_v12) = W1 m ρ c (Proc.devRef .tc main_v12) :=
  (W10_of_ne m ρ c main_v12 (by decide)).trans ((W9_of_ne m ρ c main_v12 (by decide)).trans ((keep8 m ρ c main_v12 (by decide)).trans (((W7_arr m ρ c 2).trans (((dat3 (V6 m ρ) c).arrAt_in 2 rfl _).trans (A_eq3 (V6 m ρ) c 2))).trans ((keep6 m ρ c main_v12 (by decide)).trans ((W5_of_ne m ρ c main_v12 (by decide)).trans (((W4_arr m ρ c 2).trans (((dat1 (V3 m ρ) c).arrAt_in 2 rfl _).trans (A_eq1 (V3 m ρ) c 2))).trans ((keep3 m ρ c main_v12 (by decide)).trans ((W2_of_ne m ρ c main_v12 (by decide))))))))))

/-! ## Buffers that pass through: the reference's side -/

theorem rArg0 : Cert.ReferenceIdeal.Staged.U1 m' c (Proc.devRef .tc Cert.ReferenceIdeal.main_arg0) = Cert.ReferenceIdeal.Staged.U0 m' c (Proc.devRef .tc Cert.ReferenceIdeal.main_arg0) :=
  (Cert.ReferenceIdeal.Staged.keep1 m' c Cert.ReferenceIdeal.main_arg0 (by decide))
theorem rArg2 : Cert.ReferenceIdeal.Staged.U9 m' c (Proc.devRef .tc Cert.ReferenceIdeal.main_arg2) = Cert.ReferenceIdeal.Staged.U0 m' c (Proc.devRef .tc Cert.ReferenceIdeal.main_arg2) :=
  (Cert.ReferenceIdeal.Staged.keep9 m' c Cert.ReferenceIdeal.main_arg2 (by decide)).trans ((Cert.ReferenceIdeal.Staged.keep8 m' c Cert.ReferenceIdeal.main_arg2 (by decide)).trans ((Cert.ReferenceIdeal.Staged.keep7 m' c Cert.ReferenceIdeal.main_arg2 (by decide)).trans ((Cert.ReferenceIdeal.Staged.keep6 m' c Cert.ReferenceIdeal.main_arg2 (by decide)).trans ((Cert.ReferenceIdeal.Staged.keep5 m' c Cert.ReferenceIdeal.main_arg2 (by decide)).trans ((Cert.ReferenceIdeal.Staged.keep4 m' c Cert.ReferenceIdeal.main_arg2 (by decide)).trans ((Cert.ReferenceIdeal.Staged.keep3 m' c Cert.ReferenceIdeal.main_arg2 (by decide)).trans ((Cert.ReferenceIdeal.Staged.keep2 m' c Cert.ReferenceIdeal.main_arg2 (by decide)).trans ((Cert.ReferenceIdeal.Staged.keep1 m' c Cert.ReferenceIdeal.main_arg2 (by decide))))))))))
theorem rArg3 : Cert.ReferenceIdeal.Staged.U1 m' c (Proc.devRef .tc Cert.ReferenceIdeal.main_arg3) = Cert.ReferenceIdeal.Staged.U0 m' c (Proc.devRef .tc Cert.ReferenceIdeal.main_arg3) :=
  (Cert.ReferenceIdeal.Staged.keep1 m' c Cert.ReferenceIdeal.main_arg3 (by decide))
theorem rArg4 : Cert.ReferenceIdeal.Staged.U2 m' c (Proc.devRef .tc Cert.ReferenceIdeal.main_arg4) = Cert.ReferenceIdeal.Staged.U0 m' c (Proc.devRef .tc Cert.ReferenceIdeal.main_arg4) :=
  (Cert.ReferenceIdeal.Staged.keep2 m' c Cert.ReferenceIdeal.main_arg4 (by decide)).trans ((Cert.ReferenceIdeal.Staged.keep1 m' c Cert.ReferenceIdeal.main_arg4 (by decide)))
theorem rArg5 : Cert.ReferenceIdeal.Staged.U3 m' c (Proc.devRef .tc Cert.ReferenceIdeal.main_arg5) = Cert.ReferenceIdeal.Staged.U0 m' c (Proc.devRef .tc Cert.ReferenceIdeal.main_arg5) :=
  (Cert.ReferenceIdeal.Staged.keep3 m' c Cert.ReferenceIdeal.main_arg5 (by decide)).trans ((Cert.ReferenceIdeal.Staged.keep2 m' c Cert.ReferenceIdeal.main_arg5 (by decide)).trans ((Cert.ReferenceIdeal.Staged.keep1 m' c Cert.ReferenceIdeal.main_arg5 (by decide))))
theorem rArg6 : Cert.ReferenceIdeal.Staged.U4 m' c (Proc.devRef .tc Cert.ReferenceIdeal.main_arg6) = Cert.ReferenceIdeal.Staged.U0 m' c (Proc.devRef .tc Cert.ReferenceIdeal.main_arg6) :=
  (Cert.ReferenceIdeal.Staged.keep4 m' c Cert.ReferenceIdeal.main_arg6 (by decide)).trans ((Cert.ReferenceIdeal.Staged.keep3 m' c Cert.ReferenceIdeal.main_arg6 (by decide)).trans ((Cert.ReferenceIdeal.Staged.keep2 m' c Cert.ReferenceIdeal.main_arg6 (by decide)).trans ((Cert.ReferenceIdeal.Staged.keep1 m' c Cert.ReferenceIdeal.main_arg6 (by decide)))))
theorem rArg7 : Cert.ReferenceIdeal.Staged.U6 m' c (Proc.devRef .tc Cert.ReferenceIdeal.main_arg7) = Cert.ReferenceIdeal.Staged.U0 m' c (Proc.devRef .tc Cert.ReferenceIdeal.main_arg7) :=
  (Cert.ReferenceIdeal.Staged.keep6 m' c Cert.ReferenceIdeal.main_arg7 (by decide)).trans ((Cert.ReferenceIdeal.Staged.keep5 m' c Cert.ReferenceIdeal.main_arg7 (by decide)).trans ((Cert.ReferenceIdeal.Staged.keep4 m' c Cert.ReferenceIdeal.main_arg7 (by decide)).trans ((Cert.ReferenceIdeal.Staged.keep3 m' c Cert.ReferenceIdeal.main_arg7 (by decide)).trans ((Cert.ReferenceIdeal.Staged.keep2 m' c Cert.ReferenceIdeal.main_arg7 (by decide)).trans ((Cert.ReferenceIdeal.Staged.keep1 m' c Cert.ReferenceIdeal.main_arg7 (by decide)))))))
theorem rArg8 : Cert.ReferenceIdeal.Staged.U7 m' c (Proc.devRef .tc Cert.ReferenceIdeal.main_arg8) = Cert.ReferenceIdeal.Staged.U0 m' c (Proc.devRef .tc Cert.ReferenceIdeal.main_arg8) :=
  (Cert.ReferenceIdeal.Staged.keep7 m' c Cert.ReferenceIdeal.main_arg8 (by decide)).trans ((Cert.ReferenceIdeal.Staged.keep6 m' c Cert.ReferenceIdeal.main_arg8 (by decide)).trans ((Cert.ReferenceIdeal.Staged.keep5 m' c Cert.ReferenceIdeal.main_arg8 (by decide)).trans ((Cert.ReferenceIdeal.Staged.keep4 m' c Cert.ReferenceIdeal.main_arg8 (by decide)).trans ((Cert.ReferenceIdeal.Staged.keep3 m' c Cert.ReferenceIdeal.main_arg8 (by decide)).trans ((Cert.ReferenceIdeal.Staged.keep2 m' c Cert.ReferenceIdeal.main_arg8 (by decide)).trans ((Cert.ReferenceIdeal.Staged.keep1 m' c Cert.ReferenceIdeal.main_arg8 (by decide))))))))
theorem rArg9 : Cert.ReferenceIdeal.Staged.U5 m' c (Proc.devRef .tc Cert.ReferenceIdeal.main_arg9) = Cert.ReferenceIdeal.Staged.U0 m' c (Proc.devRef .tc Cert.ReferenceIdeal.main_arg9) :=
  (Cert.ReferenceIdeal.Staged.keep5 m' c Cert.ReferenceIdeal.main_arg9 (by decide)).trans ((Cert.ReferenceIdeal.Staged.keep4 m' c Cert.ReferenceIdeal.main_arg9 (by decide)).trans ((Cert.ReferenceIdeal.Staged.keep3 m' c Cert.ReferenceIdeal.main_arg9 (by decide)).trans ((Cert.ReferenceIdeal.Staged.keep2 m' c Cert.ReferenceIdeal.main_arg9 (by decide)).trans ((Cert.ReferenceIdeal.Staged.keep1 m' c Cert.ReferenceIdeal.main_arg9 (by decide))))))
theorem rArg10 : Cert.ReferenceIdeal.Staged.U5 m' c (Proc.devRef .tc Cert.ReferenceIdeal.main_arg10) = Cert.ReferenceIdeal.Staged.U0 m' c (Proc.devRef .tc Cert.ReferenceIdeal.main_arg10) :=
  (Cert.ReferenceIdeal.Staged.keep5 m' c Cert.ReferenceIdeal.main_arg10 (by decide)).trans ((Cert.ReferenceIdeal.Staged.keep4 m' c Cert.ReferenceIdeal.main_arg10 (by decide)).trans ((Cert.ReferenceIdeal.Staged.keep3 m' c Cert.ReferenceIdeal.main_arg10 (by decide)).trans ((Cert.ReferenceIdeal.Staged.keep2 m' c Cert.ReferenceIdeal.main_arg10 (by decide)).trans ((Cert.ReferenceIdeal.Staged.keep1 m' c Cert.ReferenceIdeal.main_arg10 (by decide))))))
theorem rArg11 : Cert.ReferenceIdeal.Staged.U8 m' c (Proc.devRef .tc Cert.ReferenceIdeal.main_arg11) = Cert.ReferenceIdeal.Staged.U0 m' c (Proc.devRef .tc Cert.ReferenceIdeal.main_arg11) :=
  (Cert.ReferenceIdeal.Staged.keep8 m' c Cert.ReferenceIdeal.main_arg11 (by decide)).trans ((Cert.ReferenceIdeal.Staged.keep7 m' c Cert.ReferenceIdeal.main_arg11 (by decide)).trans ((Cert.ReferenceIdeal.Staged.keep6 m' c Cert.ReferenceIdeal.main_arg11 (by decide)).trans ((Cert.ReferenceIdeal.Staged.keep5 m' c Cert.ReferenceIdeal.main_arg11 (by decide)).trans ((Cert.ReferenceIdeal.Staged.keep4 m' c Cert.ReferenceIdeal.main_arg11 (by decide)).trans ((Cert.ReferenceIdeal.Staged.keep3 m' c Cert.ReferenceIdeal.main_arg11 (by decide)).trans ((Cert.ReferenceIdeal.Staged.keep2 m' c Cert.ReferenceIdeal.main_arg11 (by decide)).trans ((Cert.ReferenceIdeal.Staged.keep1 m' c Cert.ReferenceIdeal.main_arg11 (by decide)))))))))
theorem rArg12 : Cert.ReferenceIdeal.Staged.U8 m' c (Proc.devRef .tc Cert.ReferenceIdeal.main_arg12) = Cert.ReferenceIdeal.Staged.U0 m' c (Proc.devRef .tc Cert.ReferenceIdeal.main_arg12) :=
  (Cert.ReferenceIdeal.Staged.keep8 m' c Cert.ReferenceIdeal.main_arg12 (by decide)).trans ((Cert.ReferenceIdeal.Staged.keep7 m' c Cert.ReferenceIdeal.main_arg12 (by decide)).trans ((Cert.ReferenceIdeal.Staged.keep6 m' c Cert.ReferenceIdeal.main_arg12 (by decide)).trans ((Cert.ReferenceIdeal.Staged.keep5 m' c Cert.ReferenceIdeal.main_arg12 (by decide)).trans ((Cert.ReferenceIdeal.Staged.keep4 m' c Cert.ReferenceIdeal.main_arg12 (by decide)).trans ((Cert.ReferenceIdeal.Staged.keep3 m' c Cert.ReferenceIdeal.main_arg12 (by decide)).trans ((Cert.ReferenceIdeal.Staged.keep2 m' c Cert.ReferenceIdeal.main_arg12 (by decide)).trans ((Cert.ReferenceIdeal.Staged.keep1 m' c Cert.ReferenceIdeal.main_arg12 (by decide)))))))))
theorem rArg13 : Cert.ReferenceIdeal.Staged.U9 m' c (Proc.devRef .tc Cert.ReferenceIdeal.main_arg13) = Cert.ReferenceIdeal.Staged.U0 m' c (Proc.devRef .tc Cert.ReferenceIdeal.main_arg13) :=
  (Cert.ReferenceIdeal.Staged.keep9 m' c Cert.ReferenceIdeal.main_arg13 (by decide)).trans ((Cert.ReferenceIdeal.Staged.keep8 m' c Cert.ReferenceIdeal.main_arg13 (by decide)).trans ((Cert.ReferenceIdeal.Staged.keep7 m' c Cert.ReferenceIdeal.main_arg13 (by decide)).trans ((Cert.ReferenceIdeal.Staged.keep6 m' c Cert.ReferenceIdeal.main_arg13 (by decide)).trans ((Cert.ReferenceIdeal.Staged.keep5 m' c Cert.ReferenceIdeal.main_arg13 (by decide)).trans ((Cert.ReferenceIdeal.Staged.keep4 m' c Cert.ReferenceIdeal.main_arg13 (by decide)).trans ((Cert.ReferenceIdeal.Staged.keep3 m' c Cert.ReferenceIdeal.main_arg13 (by decide)).trans ((Cert.ReferenceIdeal.Staged.keep2 m' c Cert.ReferenceIdeal.main_arg13 (by decide)).trans ((Cert.ReferenceIdeal.Staged.keep1 m' c Cert.ReferenceIdeal.main_arg13 (by decide))))))))))
theorem rArg14 : Cert.ReferenceIdeal.Staged.U9 m' c (Proc.devRef .tc Cert.ReferenceIdeal.main_arg14) = Cert.ReferenceIdeal.Staged.U0 m' c (Proc.devRef .tc Cert.ReferenceIdeal.main_arg14) :=
  (Cert.ReferenceIdeal.Staged.keep9 m' c Cert.ReferenceIdeal.main_arg14 (by decide)).trans ((Cert.ReferenceIdeal.Staged.keep8 m' c Cert.ReferenceIdeal.main_arg14 (by decide)).trans ((Cert.ReferenceIdeal.Staged.keep7 m' c Cert.ReferenceIdeal.main_arg14 (by decide)).trans ((Cert.ReferenceIdeal.Staged.keep6 m' c Cert.ReferenceIdeal.main_arg14 (by decide)).trans ((Cert.ReferenceIdeal.Staged.keep5 m' c Cert.ReferenceIdeal.main_arg14 (by decide)).trans ((Cert.ReferenceIdeal.Staged.keep4 m' c Cert.ReferenceIdeal.main_arg14 (by decide)).trans ((Cert.ReferenceIdeal.Staged.keep3 m' c Cert.ReferenceIdeal.main_arg14 (by decide)).trans ((Cert.ReferenceIdeal.Staged.keep2 m' c Cert.ReferenceIdeal.main_arg14 (by decide)).trans ((Cert.ReferenceIdeal.Staged.keep1 m' c Cert.ReferenceIdeal.main_arg14 (by decide))))))))))
theorem r2_v1 : Cert.ReferenceIdeal.Staged.U2 m' c (Proc.devRef .tc Cert.ReferenceIdeal.main_v1) = Cert.ReferenceIdeal.Staged.U1 m' c (Proc.devRef .tc Cert.ReferenceIdeal.main_v1) :=
  (Cert.ReferenceIdeal.Staged.keep2 m' c Cert.ReferenceIdeal.main_v1 (by decide))
theorem r4_v1 : Cert.ReferenceIdeal.Staged.U4 m' c (Proc.devRef .tc Cert.ReferenceIdeal.main_v1) = Cert.ReferenceIdeal.Staged.U1 m' c (Proc.devRef .tc Cert.ReferenceIdeal.main_v1) :=
  (Cert.ReferenceIdeal.Staged.keep4 m' c Cert.ReferenceIdeal.main_v1 (by decide)).trans ((Cert.ReferenceIdeal.Staged.keep3 m' c Cert.ReferenceIdeal.main_v1 (by decide)).trans ((Cert.ReferenceIdeal.Staged.keep2 m' c Cert.ReferenceIdeal.main_v1 (by decide))))
theorem r7_v1 : Cert.ReferenceIdeal.Staged.U7 m' c (Proc.devRef .tc Cert.ReferenceIdeal.main_v1) = Cert.ReferenceIdeal.Staged.U1 m' c (Proc.devRef .tc Cert.ReferenceIdeal.main_v1) :=
  (Cert.ReferenceIdeal.Staged.keep7 m' c Cert.ReferenceIdeal.main_v1 (by decide)).trans ((Cert.ReferenceIdeal.Staged.keep6 m' c Cert.ReferenceIdeal.main_v1 (by decide)).trans ((Cert.ReferenceIdeal.Staged.keep5 m' c Cert.ReferenceIdeal.main_v1 (by decide)).trans ((Cert.ReferenceIdeal.Staged.keep4 m' c Cert.ReferenceIdeal.main_v1 (by decide)).trans ((Cert.ReferenceIdeal.Staged.keep3 m' c Cert.ReferenceIdeal.main_v1 (by decide)).trans ((Cert.ReferenceIdeal.Staged.keep2 m' c Cert.ReferenceIdeal.main_v1 (by decide)))))))
theorem r2_v3 : Cert.ReferenceIdeal.Staged.U2 m' c (Proc.devRef .tc Cert.ReferenceIdeal.main_v3) = Cert.ReferenceIdeal.Staged.U1 m' c (Proc.devRef .tc Cert.ReferenceIdeal.main_v3) :=
  (Cert.ReferenceIdeal.Staged.keep2 m' c Cert.ReferenceIdeal.main_v3 (by decide))
theorem r4_v3 : Cert.ReferenceIdeal.Staged.U4 m' c (Proc.devRef .tc Cert.ReferenceIdeal.main_v3) = Cert.ReferenceIdeal.Staged.U1 m' c (Proc.devRef .tc Cert.ReferenceIdeal.main_v3) :=
  (Cert.ReferenceIdeal.Staged.keep4 m' c Cert.ReferenceIdeal.main_v3 (by decide)).trans ((Cert.ReferenceIdeal.Staged.keep3 m' c Cert.ReferenceIdeal.main_v3 (by decide)).trans ((Cert.ReferenceIdeal.Staged.keep2 m' c Cert.ReferenceIdeal.main_v3 (by decide))))
theorem r7_v3 : Cert.ReferenceIdeal.Staged.U7 m' c (Proc.devRef .tc Cert.ReferenceIdeal.main_v3) = Cert.ReferenceIdeal.Staged.U1 m' c (Proc.devRef .tc Cert.ReferenceIdeal.main_v3) :=
  (Cert.ReferenceIdeal.Staged.keep7 m' c Cert.ReferenceIdeal.main_v3 (by decide)).trans ((Cert.ReferenceIdeal.Staged.keep6 m' c Cert.ReferenceIdeal.main_v3 (by decide)).trans ((Cert.ReferenceIdeal.Staged.keep5 m' c Cert.ReferenceIdeal.main_v3 (by decide)).trans ((Cert.ReferenceIdeal.Staged.keep4 m' c Cert.ReferenceIdeal.main_v3 (by decide)).trans ((Cert.ReferenceIdeal.Staged.keep3 m' c Cert.ReferenceIdeal.main_v3 (by decide)).trans ((Cert.ReferenceIdeal.Staged.keep2 m' c Cert.ReferenceIdeal.main_v3 (by decide)))))))
theorem r2_v10 : Cert.ReferenceIdeal.Staged.U2 m' c (Proc.devRef .tc Cert.ReferenceIdeal.main_v10) = Cert.ReferenceIdeal.Staged.U1 m' c (Proc.devRef .tc Cert.ReferenceIdeal.main_v10) :=
  (Cert.ReferenceIdeal.Staged.keep2 m' c Cert.ReferenceIdeal.main_v10 (by decide))
theorem r4_v10 : Cert.ReferenceIdeal.Staged.U4 m' c (Proc.devRef .tc Cert.ReferenceIdeal.main_v10) = Cert.ReferenceIdeal.Staged.U1 m' c (Proc.devRef .tc Cert.ReferenceIdeal.main_v10) :=
  (Cert.ReferenceIdeal.Staged.keep4 m' c Cert.ReferenceIdeal.main_v10 (by decide)).trans ((Cert.ReferenceIdeal.Staged.keep3 m' c Cert.ReferenceIdeal.main_v10 (by decide)).trans ((Cert.ReferenceIdeal.Staged.keep2 m' c Cert.ReferenceIdeal.main_v10 (by decide))))
theorem r7_v10 : Cert.ReferenceIdeal.Staged.U7 m' c (Proc.devRef .tc Cert.ReferenceIdeal.main_v10) = Cert.ReferenceIdeal.Staged.U1 m' c (Proc.devRef .tc Cert.ReferenceIdeal.main_v10) :=
  (Cert.ReferenceIdeal.Staged.keep7 m' c Cert.ReferenceIdeal.main_v10 (by decide)).trans ((Cert.ReferenceIdeal.Staged.keep6 m' c Cert.ReferenceIdeal.main_v10 (by decide)).trans ((Cert.ReferenceIdeal.Staged.keep5 m' c Cert.ReferenceIdeal.main_v10 (by decide)).trans ((Cert.ReferenceIdeal.Staged.keep4 m' c Cert.ReferenceIdeal.main_v10 (by decide)).trans ((Cert.ReferenceIdeal.Staged.keep3 m' c Cert.ReferenceIdeal.main_v10 (by decide)).trans ((Cert.ReferenceIdeal.Staged.keep2 m' c Cert.ReferenceIdeal.main_v10 (by decide)))))))

variable (h : Agree m m' c)
include h

/-! ## The argument arrays at launch -/

theorem A0 : W0 m ρ c (Proc.devRef .tc main_arg0) = Cert.ReferenceIdeal.Staged.U0 m' c (Proc.devRef .tc Cert.ReferenceIdeal.main_arg0) := (h.1).symm
theorem A1 : W0 m ρ c (Proc.devRef .tc main_arg1) = Cert.ReferenceIdeal.Staged.U0 m' c (Proc.devRef .tc Cert.ReferenceIdeal.main_arg1) := (h.2.1).symm
theorem A2 : W0 m ρ c (Proc.devRef .tc main_arg2) = Cert.ReferenceIdeal.Staged.U0 m' c (Proc.devRef .tc Cert.ReferenceIdeal.main_arg2) := (h.2.2.1).symm
theorem A3 : W0 m ρ c (Proc.devRef .tc main_arg3) = Cert.ReferenceIdeal.Staged.U0 m' c (Proc.devRef .tc Cert.ReferenceIdeal.main_arg3) := (h.2.2.2.1).symm
theorem A4 : W0 m ρ c (Proc.devRef .tc main_arg4) = Cert.ReferenceIdeal.Staged.U0 m' c (Proc.devRef .tc Cert.ReferenceIdeal.main_arg4) := (h.2.2.2.2.1).symm
theorem A5 : W0 m ρ c (Proc.devRef .tc main_arg5) = Cert.ReferenceIdeal.Staged.U0 m' c (Proc.devRef .tc Cert.ReferenceIdeal.main_arg5) := (h.2.2.2.2.2.1).symm
theorem A6 : W0 m ρ c (Proc.devRef .tc main_arg6) = Cert.ReferenceIdeal.Staged.U0 m' c (Proc.devRef .tc Cert.ReferenceIdeal.main_arg6) := (h.2.2.2.2.2.2.1).symm
theorem A7 : W0 m ρ c (Proc.devRef .tc main_arg7) = Cert.ReferenceIdeal.Staged.U0 m' c (Proc.devRef .tc Cert.ReferenceIdeal.main_arg7) := (h.2.2.2.2.2.2.2.1).symm
theorem A8 : W0 m ρ c (Proc.devRef .tc main_arg8) = Cert.ReferenceIdeal.Staged.U0 m' c (Proc.devRef .tc Cert.ReferenceIdeal.main_arg8) := (h.2.2.2.2.2.2.2.2.1).symm
theorem A9 : W0 m ρ c (Proc.devRef .tc main_arg9) = Cert.ReferenceIdeal.Staged.U0 m' c (Proc.devRef .tc Cert.ReferenceIdeal.main_arg9) := (h.2.2.2.2.2.2.2.2.2.1).symm
theorem A10 : W0 m ρ c (Proc.devRef .tc main_arg10) = Cert.ReferenceIdeal.Staged.U0 m' c (Proc.devRef .tc Cert.ReferenceIdeal.main_arg10) := (h.2.2.2.2.2.2.2.2.2.2.1).symm
theorem A11 : W0 m ρ c (Proc.devRef .tc main_arg11) = Cert.ReferenceIdeal.Staged.U0 m' c (Proc.devRef .tc Cert.ReferenceIdeal.main_arg11) := (h.2.2.2.2.2.2.2.2.2.2.2.1).symm
theorem A12 : W0 m ρ c (Proc.devRef .tc main_arg12) = Cert.ReferenceIdeal.Staged.U0 m' c (Proc.devRef .tc Cert.ReferenceIdeal.main_arg12) := (h.2.2.2.2.2.2.2.2.2.2.2.2.1).symm
theorem A13 : W0 m ρ c (Proc.devRef .tc main_arg13) = Cert.ReferenceIdeal.Staged.U0 m' c (Proc.devRef .tc Cert.ReferenceIdeal.main_arg13) := (h.2.2.2.2.2.2.2.2.2.2.2.2.2.1).symm
theorem A14 : W0 m ρ c (Proc.devRef .tc main_arg14) = Cert.ReferenceIdeal.Staged.U0 m' c (Proc.devRef .tc Cert.ReferenceIdeal.main_arg14) := (h.2.2.2.2.2.2.2.2.2.2.2.2.2.2).symm

end Cert.Bridge

end
-- ==== Proof.Spec.lean ====
/-
  The three dense building blocks of the graph network, each written once as an operation on whole arrays over the
  extended reals, in the spelling the reference program uses for them:

  * `mm128` / `mm256`: the node-feature matrix (50000 rows) times a weight matrix, a plain contraction over the feature
    axis (128 or 256 long);
  * `fin`: one graph-convolution epilogue, `max (agg + h · d + b, 0)`, where `d` is a column (one factor per node,
    the squared inverse square root of the node's degree) and `b` a row (one bias per feature);
  * `bn`: the batch-normalisation affine map `((h − μ) · r) · γ + β` with `μ, r, γ, β` rows (one entry per feature).

  The tiled kernels compute exactly these, 2000 rows of nodes at a time; the reference computes them in one piece.
-/
import proofs.«139121_j59785944760955_1_alg».proof.Proof.Gen.ReferenceIdeal
import Idealize.ShloMosaic.PureOps.Ideal

noncomputable section

namespace Cert.Spec

open Cert.ReferenceIdeal Cert.ReferenceIdeal.Gen Idealize.ShloMosaic

/-- A row (one entry per feature) repeated for every node. -/
def rows (r : FVec Ideal S1x256 .f32) : FVec Ideal S50000x256 .f32 :=
  broadcastInDim S50000x256 ![0, 1] bcast_S1x256_S50000x256_0_1 r

/-- A column (one entry per node) repeated for every feature. -/
def cols (d : FVec Ideal S50000x1 .f32) : FVec Ideal S50000x256 .f32 :=
  broadcastInDim S50000x256 ![0, 1] bcast_S50000x1_S50000x256_0_1 d

/-- The zero array the rectifier compares with. -/
def zeros : FVec Ideal S50000x256 .f32 :=
  broadcastInDim S50000x256 ![] bcast_S_S50000x256 (constant (F := Ideal) S_ .f32 0x00000000#32)

/-- Node features (128 per node) times a 128 × 256 weight matrix. -/
def mm128 (x : FVec Ideal S50000x128 .f32) (w : FVec Ideal S128x256 .f32) : FVec Ideal S50000x256 .f32 :=
  Host.dotGeneral (F := Ideal) dot_S50000x128_S128x256_S50000x256_1_0_0_1_n_n none x w

/-- Node features (256 per node) times a 256 × 256 weight matrix. -/
def mm256 (x : FVec Ideal S50000x256 .f32) (w : FVec Ideal S256x256 .f32) : FVec Ideal S50000x256 .f32 :=
  Host.dotGeneral (F := Ideal) dot_S50000x256_S256x256_S50000x256_1_0_0_1_n_n none x w

/-- The graph-convolution epilogue: neighbour sum plus the node's own scaled features plus the bias, rectified. -/
def fin (agg h : FVec Ideal S50000x256 .f32) (d : FVec Ideal S50000x1 .f32) (b : FVec Ideal S1x256 .f32) :
    FVec Ideal S50000x256 .f32 :=
  maximumf (addf (addf agg (mulf h (cols d))) (rows b)) zeros

/-- The batch-normalisation affine map, given the mean row, the inverse-deviation row, the scale and the shift. -/
def bn (h : FVec Ideal S50000x256 .f32) (mu r g be : FVec Ideal S1x256 .f32) : FVec Ideal S50000x256 .f32 :=
  addf (mulf (mulf (subf h (rows mu)) (rows r)) (rows g)) (rows be)

end Cert.Spec

end
-- ==== Proof.RowOps.lean ====
/-
  A per-feature statistic as a row and as a vector.

  The batch-normalisation statistics have one entry per feature (256 of them). One program forms them on rows, shape
  [1, 256]: it first repeats the vector of sums as a row (and a scalar constant as a row of equal entries) and then
  divides, adds, or takes the inverse square root entry by entry. The other forms them on vectors, shape [256], and
  turns the result into a row last. The two orders agree entry by entry: entry (0, f) of a row made from a vector is
  the vector's entry f, entry (0, f) of a constant row and entry f of a constant vector are both the constant, and an
  entrywise operation at (0, f) only reads its operands at (0, f).
-/
import proofs.«139121_j59785944760955_1_alg».proof.Proof.Gen.KernelIdeal
import proofs.«139121_j59785944760955_1_alg».proof.Proof.Gen.ReferenceIdeal
import Idealize.ShloMosaic.PureOps.Ideal
import Idealize.ShloMosaic.Lib.Pipeline.Value

noncomputable section

namespace Cert.Spec

open Idealize.ShloMosaic

/-- The feature a row's entry belongs to: entry (0, f) of a row reads entry f of the vector it repeats. -/
abbrev featOf (i : Cert.KernelIdeal.S1x256.Idx) : Cert.ReferenceIdeal.S256.Idx := fun a => match a with
  | ⟨0, _⟩ => ⟨(i 1).val, (i 1).isLt⟩

/-- A vector repeated as a row, read at an entry (the first program's record of the repetition). -/
theorem rowK_apply {α : Type} (x : Cert.ReferenceIdeal.S256.Idx → α) (i : Cert.KernelIdeal.S1x256.Idx) :
    broadcastInDim Cert.KernelIdeal.S1x256 ![1] Cert.KernelIdeal.Gen.bcast_S256_S1x256_1 x i = x (featOf i) :=
  broadcastInDim_apply _ Cert.KernelIdeal.Gen.bcast_S256_S1x256_1 x i (featOf i) (fun a => match a with
    | ⟨0, _⟩ => by show (i 1).val = if (256 : Nat) = 1 then 0 else (i 1).val; rw [if_neg (by decide)])

/-- The same, with the second program's record of the repetition. -/
theorem rowR_apply {α : Type} (x : Cert.ReferenceIdeal.S256.Idx → α) (i : Cert.KernelIdeal.S1x256.Idx) :
    broadcastInDim Cert.ReferenceIdeal.S1x256 ![1] Cert.ReferenceIdeal.Gen.bcast_S256_S1x256_1 x i = x (featOf i) :=
  broadcastInDim_apply _ Cert.ReferenceIdeal.Gen.bcast_S256_S1x256_1 x i (featOf i) (fun a => match a with
    | ⟨0, _⟩ => by show (i 1).val = if (256 : Nat) = 1 then 0 else (i 1).val; rw [if_neg (by decide)])

/-- A scalar repeated as a row: every entry is the scalar. -/
theorem splatRow_apply {α : Type} (k : Cert.ReferenceIdeal.S_.Idx → α) (i : Cert.KernelIdeal.S1x256.Idx) :
    broadcastInDim Cert.KernelIdeal.S1x256 ![] Cert.KernelIdeal.Gen.bcast_S_S1x256 k i = k (fun a => a.elim0) :=
  broadcastInDim_apply _ Cert.KernelIdeal.Gen.bcast_S_S1x256 k i (fun a => a.elim0) (fun a => a.elim0)

/-- A scalar repeated as a vector: every entry is the scalar. -/
theorem splatVec_apply {α : Type} (k : Cert.ReferenceIdeal.S_.Idx → α) (j : Cert.ReferenceIdeal.S256.Idx) :
    broadcastInDim Cert.ReferenceIdeal.S256 ![] Cert.ReferenceIdeal.Gen.bcast_S_S256 k j = k (fun a => a.elim0) :=
  broadcastInDim_apply _ Cert.ReferenceIdeal.Gen.bcast_S_S256 k j (fun a => a.elim0) (fun a => a.elim0)

/-- Dividing a row of sums by a constant row is the row of the vector of quotients. -/
theorem divf_row (s : FVec Ideal Cert.ReferenceIdeal.S256 .f32) (k : FVec Ideal Cert.ReferenceIdeal.S_ .f32) :
    Host.divf (F := Ideal)
        (broadcastInDim Cert.KernelIdeal.S1x256 ![1] Cert.KernelIdeal.Gen.bcast_S256_S1x256_1 s)
        (broadcastInDim Cert.KernelIdeal.S1x256 ![] Cert.KernelIdeal.Gen.bcast_S_S1x256 k)
      = broadcastInDim Cert.ReferenceIdeal.S1x256 ![1] Cert.ReferenceIdeal.Gen.bcast_S256_S1x256_1
          (Host.divf (F := Ideal) s (broadcastInDim Cert.ReferenceIdeal.S256 ![] Cert.ReferenceIdeal.Gen.bcast_S_S256 k)) := by
  funext i
  rw [rowR_apply]
  show FloatOps.hostDivf
      (broadcastInDim Cert.KernelIdeal.S1x256 ![1] Cert.KernelIdeal.Gen.bcast_S256_S1x256_1 s i)
      (broadcastInDim Cert.KernelIdeal.S1x256 ![] Cert.KernelIdeal.Gen.bcast_S_S1x256 k i)
    = FloatOps.hostDivf (s (featOf i))
      (broadcastInDim Cert.ReferenceIdeal.S256 ![] Cert.ReferenceIdeal.Gen.bcast_S_S256 k (featOf i))
  rw [rowK_apply, splatRow_apply, splatVec_apply]

/-- Adding a constant row to a row is the row of the vector with the constant added. -/
theorem addf_row (s : FVec Ideal Cert.ReferenceIdeal.S256 .f32) (k : FVec Ideal Cert.ReferenceIdeal.S_ .f32) :
    addf (F := Ideal)
        (broadcastInDim Cert.KernelIdeal.S1x256 ![1] Cert.KernelIdeal.Gen.bcast_S256_S1x256_1 s)
        (broadcastInDim Cert.KernelIdeal.S1x256 ![] Cert.KernelIdeal.Gen.bcast_S_S1x256 k)
      = broadcastInDim Cert.ReferenceIdeal.S1x256 ![1] Cert.ReferenceIdeal.Gen.bcast_S256_S1x256_1
          (addf (F := Ideal) s (broadcastInDim Cert.ReferenceIdeal.S256 ![] Cert.ReferenceIdeal.Gen.bcast_S_S256 k)) := by
  funext i
  rw [rowR_apply]
  show FloatOps.addf
      (broadcastInDim Cert.KernelIdeal.S1x256 ![1] Cert.KernelIdeal.Gen.bcast_S256_S1x256_1 s i)
      (broadcastInDim Cert.KernelIdeal.S1x256 ![] Cert.KernelIdeal.Gen.bcast_S_S1x256 k i)
    = FloatOps.addf (s (featOf i))
      (broadcastInDim Cert.ReferenceIdeal.S256 ![] Cert.ReferenceIdeal.Gen.bcast_S_S256 k (featOf i))
  rw [rowK_apply, splatRow_apply, splatVec_apply]

/-- The inverse square root of a row is the row of the vector of inverse square roots. -/
theorem rsqrt_row (s : FVec Ideal Cert.ReferenceIdeal.S256 .f32) :
    Host.rsqrt (F := Ideal) (broadcastInDim Cert.KernelIdeal.S1x256 ![1] Cert.KernelIdeal.Gen.bcast_S256_S1x256_1 s)
      = broadcastInDim Cert.ReferenceIdeal.S1x256 ![1] Cert.ReferenceIdeal.Gen.bcast_S256_S1x256_1
          (Host.rsqrt (F := Ideal) s) := by
  funext i
  rw [rowR_apply]
  show FloatOps.hostUnary .rsqrt
      (broadcastInDim Cert.KernelIdeal.S1x256 ![1] Cert.KernelIdeal.Gen.bcast_S256_S1x256_1 s i)
    = FloatOps.hostUnary .rsqrt (s (featOf i))
  rw [rowK_apply]

end Cert.Spec

end
-- ==== Proof.RegionsMatmul.lean ====
/-
  The three matrix-product regions (0, 2 and 5), each read as ONE whole-array product.

  A region runs 25 grid points; point t multiplies rows 2000·t … 2000·t + 1999 of the left operand (50000 rows, 128 or
  256 features) with the whole weight matrix and writes the 2000 × 256 result as block t of the product's array. On the
  extended reals the kernel's narrowing of both operands is the identity and the product accumulates into zero, so
  entry (p, q) of a tile is the plain sum over the feature coordinate k of x(p, k) · w(k, q); the whole-array product of
  the specification is the same sum at every entry. Hence the tile point t computes is exactly block t of the whole
  product (row 2000·t + p of the array is row p of block t), the 25 blocks cover all 50000 rows, and after the region
  the array holds the whole product of the operand arrays as the region found them.
-/
import proofs.«139121_j59785944760955_1_alg».proof.Proof.Gen.KernelIdeal.Frame
import proofs.«139121_j59785944760955_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx

/-! ## A matrix product at an entry -/

theorem tile128_lhs0 (i : S2000x256.Idx) (r : dot_S2000x128_S128x256_S2000x256_1_0_0_1_n_n.contr.Idx) :
    (dot_S2000x128_S128x256_S2000x256_1_0_0_1_n_n.lhsIdx i r 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem tile128_lhs1 (i : S2000x256.Idx) (r : dot_S2000x128_S128x256_S2000x256_1_0_0_1_n_n.contr.Idx) :
    (dot_S2000x128_S128x256_S2000x256_1_0_0_1_n_n.lhsIdx i r 1).val = (r ⟨0, by decide⟩).val :=
  dot_S2000x128_S128x256_S2000x256_1_0_0_1_n_n.lhsIdx_val_of_single rfl i r
theorem tile128_rhs0 (i : S2000x256.Idx) (r : dot_S2000x128_S128x256_S2000x256_1_0_0_1_n_n.contr.Idx) :
    (dot_S2000x128_S128x256_S2000x256_1_0_0_1_n_n.rhsIdx i r 0).val = (r ⟨0, by decide⟩).val :=
  dot_S2000x128_S128x256_S2000x256_1_0_0_1_n_n.rhsIdx_val_of_single rfl i r
theorem tile128_rhs1 (i : S2000x256.Idx) (r : dot_S2000x128_S128x256_S2000x256_1_0_0_1_n_n.contr.Idx) :
    (dot_S2000x128_S128x256_S2000x256_1_0_0_1_n_n.rhsIdx i r 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- Entry (p, q) of this product reads the left operand at (p, k) and the right one at (k, q), k the contraction
    coordinate. -/
theorem tile128_lhs (p : Fin 2000) (q : Fin 256) (k : Fin 128) :
    dot_S2000x128_S128x256_S2000x256_1_0_0_1_n_n.lhsIdx (ix2 p q) ((contrEquiv1 dot_S2000x128_S128x256_S2000x256_1_0_0_1_n_n 128 rfl rfl).symm k) = ix2 p k := by
  have hk := contrEquiv1_symm_val dot_S2000x128_S128x256_S2000x256_1_0_0_1_n_n 128 rfl rfl k
  exact funext fun a => Fin.ext (by
    match a with
    | ⟨0, _⟩ => exact tile128_lhs0 _ _
    | ⟨1, _⟩ => exact (tile128_lhs1 _ _).trans hk)
theorem tile128_rhs (p : Fin 2000) (q : Fin 256) (k : Fin 128) :
    dot_S2000x128_S128x256_S2000x256_1_0_0_1_n_n.rhsIdx (ix2 p q) ((contrEquiv1 dot_S2000x128_S128x256_S2000x256_1_0_0_1_n_n 128 rfl rfl).symm k) = ix2 k q := by
  have hk := contrEquiv1_symm_val dot_S2000x128_S128x256_S2000x256_1_0_0_1_n_n 128 rfl rfl k
  exact funext fun a => Fin.ext (by
    match a with
    | ⟨0, _⟩ => exact (tile128_rhs0 _ _).trans hk
    | ⟨1, _⟩ => exact tile128_rhs1 _ _)

/-- The tile kernel with 128 features at an entry: the two narrowings are the identity on the extended reals and the
    product accumulates into zero, so entry (p, q) is the sum over k of x(p, k) · w(k, q). -/
theorem pay128_apply (x : Vec Ideal S2000x128 .f32) (w : Vec Ideal S128x256 .f32) (p : Fin 2000) (q : Fin 256) :
    k0_pay1 (F := Ideal) x w (ix2 p q) = ∑ k : Fin 128, x (ix2 p k) * w (ix2 k q) := by
  unfold k0_pay1
  refine (Ideal.matmul_constant_zero_apply dot_S2000x128_S128x256_S2000x256_1_0_0_1_n_n none _ _ (ix2 p q)).trans ?_
  rw [← Equiv.sum_comp (contrEquiv1 dot_S2000x128_S128x256_S2000x256_1_0_0_1_n_n 128 rfl rfl).symm]
  refine Finset.sum_congr rfl fun k _ => ?_
  rw [tile128_lhs, tile128_rhs]
  rfl

theorem whole128_lhs0 (i : S50000x256.Idx) (r : Cert.ReferenceIdeal.dot_S50000x128_S128x256_S50000x256_1_0_0_1_n_n.contr.Idx) :
    (Cert.ReferenceIdeal.dot_S50000x128_S128x256_S50000x256_1_0_0_1_n_n.lhsIdx i r 0).val = (i 0).val := by
  unfold DotDims.lhsIdx
  rw [dif_neg (show ¬(0 : Fin S50000x128.rank) ∈ Cert.ReferenceIdeal.dot_S50000x128_S128x256_S50000x256_1_0_0_1_n_n.lhsBatch by decide), dif_pos (show (0 : Fin S50000x128.rank) ∈ Cert.ReferenceIdeal.dot_S50000x128_S128x256_S50000x256_1_0_0_1_n_n.lhsNonContracting by decide)]
  rfl
theorem whole128_lhs1 (i : S50000x256.Idx) (r : Cert.ReferenceIdeal.dot_S50000x128_S128x256_S50000x256_1_0_0_1_n_n.contr.Idx) :
    (Cert.ReferenceIdeal.dot_S50000x128_S128x256_S50000x256_1_0_0_1_n_n.lhsIdx i r 1).val = (r ⟨0, by decide⟩).val :=
  Cert.ReferenceIdeal.dot_S50000x128_S128x256_S50000x256_1_0_0_1_n_n.lhsIdx_val_of_single rfl i r
theorem whole128_rhs0 (i : S50000x256.Idx) (r : Cert.ReferenceIdeal.dot_S50000x128_S128x256_S50000x256_1_0_0_1_n_n.contr.Idx) :
    (Cert.ReferenceIdeal.dot_S50000x128_S128x256_S50000x256_1_0_0_1_n_n.rhsIdx i r 0).val = (r ⟨0, by decide⟩).val :=
  Cert.ReferenceIdeal.dot_S50000x128_S128x256_S50000x256_1_0_0_1_n_n.rhsIdx_val_of_single rfl i r
theorem whole128_rhs1 (i : S50000x256.Idx) (r : Cert.ReferenceIdeal.dot_S50000x128_S128x256_S50000x256_1_0_0_1_n_n.contr.Idx) :
    (Cert.ReferenceIdeal.dot_S50000x128_S128x256_S50000x256_1_0_0_1_n_n.rhsIdx i r 1).val = (i 1).val := by
  unfold DotDims.rhsIdx
  rw [dif_neg (show ¬(1 : Fin S128x256.rank) ∈ Cert.ReferenceIdeal.dot_S50000x128_S128x256_S50000x256_1_0_0_1_n_n.rhsBatch by decide), dif_pos (show (1 : Fin S128x256.rank) ∈ Cert.ReferenceIdeal.dot_S50000x128_S128x256_S50000x256_1_0_0_1_n_n.rhsNonContracting by decide)]
  rfl

/-- Entry (p, q) of this product reads the left operand at (p, k) and the right one at (k, q), k the contraction
    coordinate. -/
theorem whole128_lhs (p : Fin 50000) (q : Fin 256) (k : Fin 128) :
    Cert.ReferenceIdeal.dot_S50000x128_S128x256_S50000x256_1_0_0_1_n_n.lhsIdx (ix2 p q) ((contrEquiv1 Cert.ReferenceIdeal.dot_S50000x128_S128x256_S50000x256_1_0_0_1_n_n 128 rfl rfl).symm k) = ix2 p k := by
  have hk := contrEquiv1_symm_val Cert.ReferenceIdeal.dot_S50000x128_S128x256_S50000x256_1_0_0_1_n_n 128 rfl rfl k
  exact funext fun a => Fin.ext (by
    match a with
    | ⟨0, _⟩ => exact whole128_lhs0 _ _
    | ⟨1, _⟩ => exact (whole128_lhs1 _ _).trans hk)
theorem whole128_rhs (p : Fin 50000) (q : Fin 256) (k : Fin 128) :
    Cert.ReferenceIdeal.dot_S50000x128_S128x256_S50000x256_1_0_0_1_n_n.rhsIdx (ix2 p q) ((contrEquiv1 Cert.ReferenceIdeal.dot_S50000x128_S128x256_S50000x256_1_0_0_1_n_n 128 rfl rfl).symm k) = ix2 k q := by
  have hk := contrEquiv1_symm_val Cert.ReferenceIdeal.dot_S50000x128_S128x256_S50000x256_1_0_0_1_n_n 128 rfl rfl k
  exact funext fun a => Fin.ext (by
    match a with
    | ⟨0, _⟩ => exact (whole128_rhs0 _ _).trans hk
    | ⟨1, _⟩ => exact whole128_rhs1 _ _)

/-- The whole-array product with 128 features at an entry: the same sum over the feature coordinate. -/
theorem mm128_apply (X : FVec Ideal S50000x128 .f32) (W : FVec Ideal S128x256 .f32) (i : Fin 50000) (q : Fin 256) :
    Cert.Spec.mm128 X W (ix2 i q) = ∑ k : Fin 128, X (ix2 i k) * W (ix2 k q) := by
  unfold Cert.Spec.mm128
  simp only [Host.dotGeneral]
  rw [Ideal.dotGeneral_apply, ← Equiv.sum_comp (contrEquiv1 Cert.ReferenceIdeal.dot_S50000x128_S128x256_S50000x256_1_0_0_1_n_n 128 rfl rfl).symm]
  refine Finset.sum_congr rfl fun k _ => ?_
  rw [whole128_lhs, whole128_rhs]

theorem tile256_lhs0 (i : S2000x256.Idx) (r : dot_S2000x256_S256x256_S2000x256_1_0_0_1_n_n.contr.Idx) :
    (dot_S2000x256_S256x256_S2000x256_1_0_0_1_n_n.lhsIdx i r 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem tile256_lhs1 (i : S2000x256.Idx) (r : dot_S2000x256_S256x256_S2000x256_1_0_0_1_n_n.contr.Idx) :
    (dot_S2000x256_S256x256_S2000x256_1_0_0_1_n_n.lhsIdx i r 1).val = (r ⟨0, by decide⟩).val :=
  dot_S2000x256_S256x256_S2000x256_1_0_0_1_n_n.lhsIdx_val_of_single rfl i r
theorem tile256_rhs0 (i : S2000x256.Idx) (r : dot_S2000x256_S256x256_S2000x256_1_0_0_1_n_n.contr.Idx) :
    (dot_S2000x256_S256x256_S2000x256_1_0_0_1_n_n.rhsIdx i r 0).val = (r ⟨0, by decide⟩).val :=
  dot_S2000x256_S256x256_S2000x256_1_0_0_1_n_n.rhsIdx_val_of_single rfl i r
theorem tile256_rhs1 (i : S2000x256.Idx) (r : dot_S2000x256_S256x256_S2000x256_1_0_0_1_n_n.contr.Idx) :
    (dot_S2000x256_S256x256_S2000x256_1_0_0_1_n_n.rhsIdx i r 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry (p, q) of this product reads the left operand at (p, k) and the right one at (k, q), k the contraction
    coordinate. -/
theorem tile256_lhs (p : Fin 2000) (q : Fin 256) (k : Fin 256) :
    dot_S2000x256_S256x256_S2000x256_1_0_0_1_n_n.lhsIdx (ix2 p q) ((contrEquiv1 dot_S2000x256_S256x256_S2000x256_1_0_0_1_n_n 256 rfl rfl).symm k) = ix2 p k := by
  have hk := contrEquiv1_symm_val dot_S2000x256_S256x256_S2000x256_1_0_0_1_n_n 256 rfl rfl k
  exact funext fun a => Fin.ext (by
    match a with
    | ⟨0, _⟩ => exact tile256_lhs0 _ _
    | ⟨1, _⟩ => exact (tile256_lhs1 _ _).trans hk)
theorem tile256_rhs (p : Fin 2000) (q : Fin 256) (k : Fin 256) :
    dot_S2000x256_S256x256_S2000x256_1_0_0_1_n_n.rhsIdx (ix2 p q) ((contrEquiv1 dot_S2000x256_S256x256_S2000x256_1_0_0_1_n_n 256 rfl rfl).symm k) = ix2 k q := by
  have hk := contrEquiv1_symm_val dot_S2000x256_S256x256_S2000x256_1_0_0_1_n_n 256 rfl rfl k
  exact funext fun a => Fin.ext (by
    match a with
    | ⟨0, _⟩ => exact (tile256_rhs0 _ _).trans hk
    | ⟨1, _⟩ => exact tile256_rhs1 _ _)

/-- The tile kernel with 256 features at an entry: the reshaping to the same shape and the two narrowings are the
    identity on the extended reals and the product accumulates into zero, so entry (p, q) is the sum over k of
    x(p, k) · w(k, q). -/
theorem pay256_apply (x : Vec Ideal S2000x256 .f32) (w : Vec Ideal S256x256 .f32) (p : Fin 2000) (q : Fin 256) :
    k2_pay1 (F := Ideal) x w (ix2 p q) = ∑ k : Fin 256, x (ix2 p k) * w (ix2 k q) := by
  unfold k2_pay1
  refine (Ideal.matmul_constant_zero_apply dot_S2000x256_S256x256_S2000x256_1_0_0_1_n_n none _ _ (ix2 p q)).trans ?_
  rw [← Equiv.sum_comp (contrEquiv1 dot_S2000x256_S256x256_S2000x256_1_0_0_1_n_n 256 rfl rfl).symm]
  refine Finset.sum_congr rfl fun k _ => ?_
  rw [tile256_lhs, tile256_rhs]
  show (shapeCast S2000x256 x shapeCasts_S2000x256_S2000x256) (ix2 p k) * w (ix2 k q) = _
  rw [shapeCast_self]

/-- Regions 2 and 5 run the same tile kernel. -/
theorem pay256_apply' (x : Vec Ideal S2000x256 .f32) (w : Vec Ideal S256x256 .f32) (p : Fin 2000) (q : Fin 256) :
    k5_pay1 (F := Ideal) x w (ix2 p q) = ∑ k : Fin 256, x (ix2 p k) * w (ix2 k q) :=
  pay256_apply x w p q

theorem whole256_lhs0 (i : S50000x256.Idx) (r : Cert.ReferenceIdeal.dot_S50000x256_S256x256_S50000x256_1_0_0_1_n_n.contr.Idx) :
    (Cert.ReferenceIdeal.dot_S50000x256_S256x256_S50000x256_1_0_0_1_n_n.lhsIdx i r 0).val = (i 0).val := by
  unfold DotDims.lhsIdx
  rw [dif_neg (show ¬(0 : Fin S50000x256.rank) ∈ Cert.ReferenceIdeal.dot_S50000x256_S256x256_S50000x256_1_0_0_1_n_n.lhsBatch by decide), dif_pos (show (0 : Fin S50000x256.rank) ∈ Cert.ReferenceIdeal.dot_S50000x256_S256x256_S50000x256_1_0_0_1_n_n.lhsNonContracting by decide)]
  rfl
theorem whole256_lhs1 (i : S50000x256.Idx) (r : Cert.ReferenceIdeal.dot_S50000x256_S256x256_S50000x256_1_0_0_1_n_n.contr.Idx) :
    (Cert.ReferenceIdeal.dot_S50000x256_S256x256_S50000x256_1_0_0_1_n_n.lhsIdx i r 1).val = (r ⟨0, by decide⟩).val :=
  Cert.ReferenceIdeal.dot_S50000x256_S256x256_S50000x256_1_0_0_1_n_n.lhsIdx_val_of_single rfl i r
theorem whole256_rhs0 (i : S50000x256.Idx) (r : Cert.ReferenceIdeal.dot_S50000x256_S256x256_S50000x256_1_0_0_1_n_n.contr.Idx) :
    (Cert.ReferenceIdeal.dot_S50000x256_S256x256_S50000x256_1_0_0_1_n_n.rhsIdx i r 0).val = (r ⟨0, by decide⟩).val :=
  Cert.ReferenceIdeal.dot_S50000x256_S256x256_S50000x256_1_0_0_1_n_n.rhsIdx_val_of_single rfl i r
theorem whole256_rhs1 (i : S50000x256.Idx) (r : Cert.ReferenceIdeal.dot_S50000x256_S256x256_S50000x256_1_0_0_1_n_n.contr.Idx) :
    (Cert.ReferenceIdeal.dot_S50000x256_S256x256_S50000x256_1_0_0_1_n_n.rhsIdx i r 1).val = (i 1).val := by
  unfold DotDims.rhsIdx
  rw [dif_neg (show ¬(1 : Fin S256x256.rank) ∈ Cert.ReferenceIdeal.dot_S50000x256_S256x256_S50000x256_1_0_0_1_n_n.rhsBatch by decide), dif_pos (show (1 : Fin S256x256.rank) ∈ Cert.ReferenceIdeal.dot_S50000x256_S256x256_S50000x256_1_0_0_1_n_n.rhsNonContracting by decide)]
  rfl

/-- Entry (p, q) of this product reads the left operand at (p, k) and the right one at (k, q), k the contraction
    coordinate. -/
theorem whole256_lhs (p : Fin 50000) (q : Fin 256) (k : Fin 256) :
    Cert.ReferenceIdeal.dot_S50000x256_S256x256_S50000x256_1_0_0_1_n_n.lhsIdx (ix2 p q) ((contrEquiv1 Cert.ReferenceIdeal.dot_S50000x256_S256x256_S50000x256_1_0_0_1_n_n 256 rfl rfl).symm k) = ix2 p k := by
  have hk := contrEquiv1_symm_val Cert.ReferenceIdeal.dot_S50000x256_S256x256_S50000x256_1_0_0_1_n_n 256 rfl rfl k
  exact funext fun a => Fin.ext (by
    match a with
    | ⟨0, _⟩ => exact whole256_lhs0 _ _
    | ⟨1, _⟩ => exact (whole256_lhs1 _ _).trans hk)
theorem whole256_rhs (p : Fin 50000) (q : Fin 256) (k : Fin 256) :
    Cert.ReferenceIdeal.dot_S50000x256_S256x256_S50000x256_1_0_0_1_n_n.rhsIdx (ix2 p q) ((contrEquiv1 Cert.ReferenceIdeal.dot_S50000x256_S256x256_S50000x256_1_0_0_1_n_n 256 rfl rfl).symm k) = ix2 k q := by
  have hk := contrEquiv1_symm_val Cert.ReferenceIdeal.dot_S50000x256_S256x256_S50000x256_1_0_0_1_n_n 256 rfl rfl k
  exact funext fun a => Fin.ext (by
    match a with
    | ⟨0, _⟩ => exact (whole256_rhs0 _ _).trans hk
    | ⟨1, _⟩ => exact whole256_rhs1 _ _)

/-- The whole-array product with 256 features at an entry: the same sum over the feature coordinate. -/
theorem mm256_apply (X : FVec Ideal S50000x256 .f32) (W : FVec Ideal S256x256 .f32) (i : Fin 50000) (q : Fin 256) :
    Cert.Spec.mm256 X W (ix2 i q) = ∑ k : Fin 256, X (ix2 i k) * W (ix2 k q) := by
  unfold Cert.Spec.mm256
  simp only [Host.dotGeneral]
  rw [Ideal.dotGeneral_apply, ← Equiv.sum_comp (contrEquiv1 Cert.ReferenceIdeal.dot_S50000x256_S256x256_S50000x256_1_0_0_1_n_n 256 rfl rfl).symm]
  refine Finset.sum_congr rfl fun k _ => ?_
  rw [whole256_lhs, whole256_rhs]

/-! ## The three product regions -/

variable (V : (c : Dev nD) → (b : Ref sig .tc) → Buf (Elt Ideal) ((c : Thread nD τ).loc b))

theorem zeros2 : (![0, 0] : Fin 2 → Nat) = fun _ => 0 := funext fun a => by fin_cases a <;> rfl

/-! ## Region 0: the tiles of the product are the tiles of the whole product -/

/-- The printed block index maps, decided over the 25 grid points: the left operand's and the product's block t is row
    block t (column block 0); the weight matrix is one block. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the left operand's block t is row 2000·t + p of the operand. -/
theorem left0_apply (c : Dev nD) (t : Fin cfg0.N) (p : Fin 2000) (k : Fin 128) (r : Fin 50000)
    (hr : r.val = t.val * 2000 + p.val) :
    (iblk0 V c 0 t : Vec Ideal S2000x128 .f32) (ix2 p k) = V c main_arg0 (ix2 r k) := by
  obtain ⟨e0, e1, -, -, -, -⟩ := index0 t
  show V c main_arg0 (((cfg0.win 0).blk t).view.emb (ix2 p k)) = V c main_arg0 (ix2 r k)
  refine congrArg _ (funext fun a => Fin.ext ?_)
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- The weight matrix's one block is the matrix. -/
theorem right0_apply (c : Dev nD) (t : Fin cfg0.N) (k : Fin 128) (q : Fin 256) :
    (iblk0 V c 1 t : Vec Ideal S128x256 .f32) (ix2 k q) = V c main_arg3 (ix2 k q) := by
  obtain ⟨-, -, e0, e1, -, -⟩ := index0 t
  show V c main_arg3 (((cfg0.win 1).blk t).view.emb (ix2 k q)) = V c main_arg3 (ix2 k q)
  refine congrArg _ (funext fun a => Fin.ext ?_)
  match a with
  | ⟨0, _⟩ => show win0_1.index t (0 : Fin 2) * 128 + 1 * k.val = k.val; rw [e0]; omega
  | ⟨1, _⟩ => show win0_1.index t (1 : Fin 2) * 256 + 1 * q.val = q.val; rw [e1]; omega

/-- Entry (p, q) of the product's block t sits at row 2000·t + p, column q of the product. -/
theorem out0_emb (t : Fin cfg0.N) (p : Fin 2000) (q : Fin 256) (r : Fin 50000) (hr : r.val = t.val * 2000 + p.val) :
    ((cfg0.win 2).blk t).view.emb (ix2 p q) = ix2 r q := by
  obtain ⟨-, -, -, -, e0, e1⟩ := index0 t
  refine funext fun a => Fin.ext ?_
  match a with
  | ⟨0, _⟩ => show win0_2.index t (0 : Fin 2) * 2000 + 1 * p.val = r.val; rw [e0, hr]; omega
  | ⟨1, _⟩ => show win0_2.index t (1 : Fin 2) * 256 + 1 * q.val = q.val; rw [e1]; omega

/-- What point t computes is block t of the whole product: both are, entry by entry, the same sum over the feature
    coordinate, the row read at 2000·t + p. -/
theorem tile0_eq (c : Dev nD) (t : Fin cfg0.N) (j : S2000x256.Idx) :
    k0_pay1 (F := Ideal) (iblk0 V c 0 t) (iblk0 V c 1 t) j
      = Cert.Spec.mm128 (V c main_arg0) (V c main_arg3) (((cfg0.win 2).blk t).view.emb j) := by
  obtain ⟨p, q, rfl⟩ : ∃ (p : Fin 2000) (q : Fin 256), j = ix2 p q := ⟨j 0, j 1, eq_ix2 j⟩
  have ht : t.val < 25 := lt_of_lt_of_eq t.isLt N_0
  obtain ⟨r, hr⟩ : ∃ r : Fin 50000, r.val = t.val * 2000 + p.val := ⟨⟨t.val * 2000 + p.val, by omega⟩, rfl⟩
  rw [out0_emb t p q r hr, pay128_apply, mm128_apply]
  refine Finset.sum_congr rfl fun k _ => ?_
  rw [left0_apply V c t p k r hr, right0_apply V c t k q]

/-- What point t writes back to the product's array is block t of the whole product. -/
theorem flushed0 (c : Dev nD) (t : Fin cfg0.N) :
    (dat0 (F := Ideal) V c).flushed 2 t
      = ((cfg0.win 2).blk t).view.read (Elt Ideal) (Cert.Spec.mm128 (V c main_arg0) (V c main_arg3)) := by
  show (cfg0.win 2).cut (grid0.coords t) ((dat0 (F := Ideal) V c).after 2 t) = _
  rw [after0_2]
  unfold out0_2
  rw [View.canon_unit_zero zeros2]
  simp only [View.ld_unit_zero (S := S2000x128) zeros2, View.ld_unit_zero (S := S128x256) zeros2]
  funext j
  exact tile0_eq V c t j

/-- An index of the product's array is in point t's block iff each coordinate is in the block's range. -/
theorem mem_blk0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v13).slice (win0_2.rect t)).set ↔ _
  rw [View.set_slice_whole, Rect.mem_set_unit]
  exact Iff.rfl

/-- Row i of the product is in the block of point i / 2000: the 25 blocks cover the array. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ : ∃ t : Fin cfg0.N, t.val = (i 0).val / 2000 :=
    ⟨⟨(i 0).val / 2000, by rw [show cfg0.N = 25 from N_0]; omega⟩, rfl⟩
  obtain ⟨-, -, -, -, e0, e1⟩ := index0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; rw [e0, ht]; omega
  | ⟨1, _⟩ => show win0_2.index t (1 : Fin 2) * 256 ≤ (i 1).val ∧ (i 1).val < win0_2.index t (1 : Fin 2) * 256 + 256; rw [e1]; omega

/-- After region 0 the product's array holds the whole product of the two operand arrays as the region found them. -/
theorem mm0 (c : Dev nD) :
    (dat0 (F := Ideal) V c).arrAt 2 cfg0.N = Cert.Spec.mm128 (V c main_arg0) (V c main_arg3) :=
  (dat0 (F := Ideal) V c).arrAt_eq_of_cover 2 (Cert.Spec.mm128 (V c main_arg0) (V c main_arg3))
    (fun t _ => flushed0 V c t) cover0

/-! ## Region 2: the tiles of the product are the tiles of the whole product -/

/-- The printed block index maps, decided over the 25 grid points: the left operand's and the product's block t is row
    block t (column block 0); the weight matrix is one block. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of the left operand's block t is row 2000·t + p of the operand. -/
theorem left2_apply (c : Dev nD) (t : Fin cfg2.N) (p : Fin 2000) (k : Fin 256) (r : Fin 50000)
    (hr : r.val = t.val * 2000 + p.val) :
    (iblk2 V c 0 t : Vec Ideal S2000x256 .f32) (ix2 p k) = V c main_v43 (ix2 r k) := by
  obtain ⟨e0, e1, -, -, -, -⟩ := index2 t
  show V c main_v43 (((cfg2.win 0).blk t).view.emb (ix2 p k)) = V c main_v43 (ix2 r k)
  refine congrArg _ (funext fun a => Fin.ext ?_)
  match a with
  | ⟨0, _⟩ => show win2_0.index t (0 : Fin 2) * 2000 + 1 * p.val = r.val; rw [e0, hr]; omega
  | ⟨1, _⟩ => show win2_0.index t (1 : Fin 2) * 256 + 1 * k.val = k.val; rw [e1]; omega

/-- The weight matrix's one block is the matrix. -/
theorem right2_apply (c : Dev nD) (t : Fin cfg2.N) (k : Fin 256) (q : Fin 256) :
    (iblk2 V c 1 t : Vec Ideal S256x256 .f32) (ix2 k q) = V c main_arg5 (ix2 k q) := by
  obtain ⟨-, -, e0, e1, -, -⟩ := index2 t
  show V c main_arg5 (((cfg2.win 1).blk t).view.emb (ix2 k q)) = V c main_arg5 (ix2 k q)
  refine congrArg _ (funext fun a => Fin.ext ?_)
  match a with
  | ⟨0, _⟩ => show win2_1.index t (0 : Fin 2) * 256 + 1 * k.val = k.val; rw [e0]; omega
  | ⟨1, _⟩ => show win2_1.index t (1 : Fin 2) * 256 + 1 * q.val = q.val; rw [e1]; omega

/-- Entry (p, q) of the product's block t sits at row 2000·t + p, column q of the product. -/
theorem out2_emb (t : Fin cfg2.N) (p : Fin 2000) (q : Fin 256) (r : Fin 50000) (hr : r.val = t.val * 2000 + p.val) :
    ((cfg2.win 2).blk t).view.emb (ix2 p q) = ix2 r q := by
  obtain ⟨-, -, -, -, e0, e1⟩ := index2 t
  refine funext fun a => Fin.ext ?_
  match a with
  | ⟨0, _⟩ => show win2_2.index t (0 : Fin 2) * 2000 + 1 * p.val = r.val; rw [e0, hr]; omega
  | ⟨1, _⟩ => show win2_2.index t (1 : Fin 2) * 256 + 1 * q.val = q.val; rw [e1]; omega

/-- What point t computes is block t of the whole product: both are, entry by entry, the same sum over the feature
    coordinate, the row read at 2000·t + p. -/
theorem tile2_eq (c : Dev nD) (t : Fin cfg2.N) (j : S2000x256.Idx) :
    k2_pay1 (F := Ideal) (iblk2 V c 0 t) (iblk2 V c 1 t) j
      = Cert.Spec.mm256 (V c main_v43) (V c main_arg5) (((cfg2.win 2).blk t).view.emb j) := by
  obtain ⟨p, q, rfl⟩ : ∃ (p : Fin 2000) (q : Fin 256), j = ix2 p q := ⟨j 0, j 1, eq_ix2 j⟩
  have ht : t.val < 25 := lt_of_lt_of_eq t.isLt N_2
  obtain ⟨r, hr⟩ : ∃ r : Fin 50000, r.val = t.val * 2000 + p.val := ⟨⟨t.val * 2000 + p.val, by omega⟩, rfl⟩
  rw [out2_emb t p q r hr, pay256_apply, mm256_apply]
  refine Finset.sum_congr rfl fun k _ => ?_
  rw [left2_apply V c t p k r hr, right2_apply V c t k q]

/-- What point t writes back to the product's array is block t of the whole product. -/
theorem flushed2 (c : Dev nD) (t : Fin cfg2.N) :
    (dat2 (F := Ideal) V c).flushed 2 t
      = ((cfg2.win 2).blk t).view.read (Elt Ideal) (Cert.Spec.mm256 (V c main_v43) (V c main_arg5)) := by
  show (cfg2.win 2).cut (grid2.coords t) ((dat2 (F := Ideal) V c).after 2 t) = _
  rw [after2_2]
  unfold out2_2
  rw [View.canon_unit_zero zeros2]
  simp only [View.ld_unit_zero (S := S2000x256) zeros2, View.ld_unit_zero (S := S256x256) zeros2]
  funext j
  exact tile2_eq V c t j

/-- An index of the product's array is in point t's block iff each coordinate is in the block's range. -/
theorem mem_blk2 (t : Fin cfg2.N) (i : S50000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v44).slice (win2_2.rect t)).set ↔ _
  rw [View.set_slice_whole, Rect.mem_set_unit]
  exact Iff.rfl

/-- Row i of the product is in the block of point i / 2000: the 25 blocks cover the array. -/
theorem cover2 (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  obtain ⟨t, ht⟩ : ∃ t : Fin cfg2.N, t.val = (i 0).val / 2000 :=
    ⟨⟨(i 0).val / 2000, by rw [show cfg2.N = 25 from N_2]; omega⟩, rfl⟩
  obtain ⟨-, -, -, -, e0, e1⟩ := index2 t
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; rw [e0, ht]; omega
  | ⟨1, _⟩ => show win2_2.index t (1 : Fin 2) * 256 ≤ (i 1).val ∧ (i 1).val < win2_2.index t (1 : Fin 2) * 256 + 256; rw [e1]; omega

/-- After region 2 the product's array holds the whole product of the two operand arrays as the region found them. -/
theorem mm2 (c : Dev nD) :
    (dat2 (F := Ideal) V c).arrAt 2 cfg2.N = Cert.Spec.mm256 (V c main_v43) (V c main_arg5) :=
  (dat2 (F := Ideal) V c).arrAt_eq_of_cover 2 (Cert.Spec.mm256 (V c main_v43) (V c main_arg5))
    (fun t _ => flushed2 V c t) cover2

/-! ## Region 5: the tiles of the product are the tiles of the whole product -/

/-- The printed block index maps, decided over the 25 grid points: the left operand's and the product's block t is row
    block t (column block 0); the weight matrix is one block. -/
theorem index5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Row p of the left operand's block t is row 2000·t + p of the operand. -/
theorem left5_apply (c : Dev nD) (t : Fin cfg5.N) (p : Fin 2000) (k : Fin 256) (r : Fin 50000)
    (hr : r.val = t.val * 2000 + p.val) :
    (iblk5 V c 0 t : Vec Ideal S2000x256 .f32) (ix2 p k) = V c main_v91 (ix2 r k) := by
  obtain ⟨e0, e1, -, -, -, -⟩ := index5 t
  show V c main_v91 (((cfg5.win 0).blk t).view.emb (ix2 p k)) = V c main_v91 (ix2 r k)
  refine congrArg _ (funext fun a => Fin.ext ?_)
  match a with
  | ⟨0, _⟩ => show win5_0.index t (0 : Fin 2) * 2000 + 1 * p.val = r.val; rw [e0, hr]; omega
  | ⟨1, _⟩ => show win5_0.index t (1 : Fin 2) * 256 + 1 * k.val = k.val; rw [e1]; omega

/-- The weight matrix's one block is the matrix. -/
theorem right5_apply (c : Dev nD) (t : Fin cfg5.N) (k : Fin 256) (q : Fin 256) :
    (iblk5 V c 1 t : Vec Ideal S256x256 .f32) (ix2 k q) = V c main_arg7 (ix2 k q) := by
  obtain ⟨-, -, e0, e1, -, -⟩ := index5 t
  show V c main_arg7 (((cfg5.win 1).blk t).view.emb (ix2 k q)) = V c main_arg7 (ix2 k q)
  refine congrArg _ (funext fun a => Fin.ext ?_)
  match a with
  | ⟨0, _⟩ => show win5_1.index t (0 : Fin 2) * 256 + 1 * k.val = k.val; rw [e0]; omega
  | ⟨1, _⟩ => show win5_1.index t (1 : Fin 2) * 256 + 1 * q.val = q.val; rw [e1]; omega

/-- Entry (p, q) of the product's block t sits at row 2000·t + p, column q of the product. -/
theorem out5_emb (t : Fin cfg5.N) (p : Fin 2000) (q : Fin 256) (r : Fin 50000) (hr : r.val = t.val * 2000 + p.val) :
    ((cfg5.win 2).blk t).view.emb (ix2 p q) = ix2 r q := by
  obtain ⟨-, -, -, -, e0, e1⟩ := index5 t
  refine funext fun a => Fin.ext ?_
  match a with
  | ⟨0, _⟩ => show win5_2.index t (0 : Fin 2) * 2000 + 1 * p.val = r.val; rw [e0, hr]; omega
  | ⟨1, _⟩ => show win5_2.index t (1 : Fin 2) * 256 + 1 * q.val = q.val; rw [e1]; omega

/-- What point t computes is block t of the whole product: both are, entry by entry, the same sum over the feature
    coordinate, the row read at 2000·t + p. -/
theorem tile5_eq (c : Dev nD) (t : Fin cfg5.N) (j : S2000x256.Idx) :
    k5_pay1 (F := Ideal) (iblk5 V c 0 t) (iblk5 V c 1 t) j
      = Cert.Spec.mm256 (V c main_v91) (V c main_arg7) (((cfg5.win 2).blk t).view.emb j) := by
  obtain ⟨p, q, rfl⟩ : ∃ (p : Fin 2000) (q : Fin 256), j = ix2 p q := ⟨j 0, j 1, eq_ix2 j⟩
  have ht : t.val < 25 := lt_of_lt_of_eq t.isLt N_5
  obtain ⟨r, hr⟩ : ∃ r : Fin 50000, r.val = t.val * 2000 + p.val := ⟨⟨t.val * 2000 + p.val, by omega⟩, rfl⟩
  rw [out5_emb t p q r hr, pay256_apply', mm256_apply]
  refine Finset.sum_congr rfl fun k _ => ?_
  rw [left5_apply V c t p k r hr, right5_apply V c t k q]

/-- What point t writes back to the product's array is block t of the whole product. -/
theorem flushed5 (c : Dev nD) (t : Fin cfg5.N) :
    (dat5 (F := Ideal) V c).flushed 2 t
      = ((cfg5.win 2).blk t).view.read (Elt Ideal) (Cert.Spec.mm256 (V c main_v91) (V c main_arg7)) := by
  show (cfg5.win 2).cut (grid5.coords t) ((dat5 (F := Ideal) V c).after 2 t) = _
  rw [after5_2]
  unfold out5_2
  rw [View.canon_unit_zero zeros2]
  simp only [View.ld_unit_zero (S := S2000x256) zeros2, View.ld_unit_zero (S := S256x256) zeros2]
  funext j
  exact tile5_eq V c t j

/-- An index of the product's array is in point t's block iff each coordinate is in the block's range. -/
theorem mem_blk5 (t : Fin cfg5.N) (i : S50000x256.Idx) :
    i ∈ ((cfg5.win 2).blk t).view.set ↔ ∀ a : Fin 2, win5_2.index t a * S2000x256.size a ≤ (i a).val ∧ (i a).val < win5_2.index t a * S2000x256.size a + S2000x256.size a := by
  show i ∈ ((View.whole main_v92).slice (win5_2.rect t)).set ↔ _
  rw [View.set_slice_whole, Rect.mem_set_unit]
  exact Iff.rfl

/-- Row i of the product is in the block of point i / 2000: the 25 blocks cover the array. -/
theorem cover5 (i : S50000x256.Idx) :
    ∃ t : Fin cfg5.N, (cfg5.win 2).flush t = true ∧ i ∈ ((cfg5.win 2).blk t).view.set := by
  have hi0 : (i 0).val < 50000 := (i 0).isLt
  have hi1 : (i 1).val < 256 := (i 1).isLt
  obtain ⟨t, ht⟩ : ∃ t : Fin cfg5.N, t.val = (i 0).val / 2000 :=
    ⟨⟨(i 0).val / 2000, by rw [show cfg5.N = 25 from N_5]; omega⟩, rfl⟩
  obtain ⟨-, -, -, -, e0, e1⟩ := index5 t
  refine ⟨t, flush5_2 t, ?_⟩
  rw [mem_blk5]
  intro a
  match a with
  | ⟨0, _⟩ => show win5_2.index t (0 : Fin 2) * 2000 ≤ (i 0).val ∧ (i 0).val < win5_2.index t (0 : Fin 2) * 2000 + 2000; rw [e0, ht]; omega
  | ⟨1, _⟩ => show win5_2.index t (1 : Fin 2) * 256 ≤ (i 1).val ∧ (i 1).val < win5_2.index t (1 : Fin 2) * 256 + 256; rw [e1]; omega

/-- After region 5 the product's array holds the whole product of the two operand arrays as the region found them. -/
theorem mm5 (c : Dev nD) :
    (dat5 (F := Ideal) V c).arrAt 2 cfg5.N = Cert.Spec.mm256 (V c main_v91) (V c main_arg7) :=
  (dat5 (F := Ideal) V c).arrAt_eq_of_cover 2 (Cert.Spec.mm256 (V c main_v91) (V c main_arg7))
    (fun t _ => flushed5 V c t) cover5

end Cert.KernelIdeal.Whole

end
-- ==== Proof.RegionsPointwise.lean ====
/-
  The five pointwise kernels of the graph network, each read as ONE whole-array function of its operand arrays.

  * The graph-convolution epilogue (three times): point t of the grid holds rows 2000 t … 2000 t + 1999 of the neighbour
    sums, of the node features and of the per-node factor column, and the whole bias row; it stores
    max ((agg + h · d) + b, 0) for those rows. Entry (p, q) of the stored block depends only on entry (2000 t + p, q)
    of agg and h, entry 2000 t + p of the column d and entry q of the row b — and that is the whole-array epilogue
    `Cert.Spec.fin` at (2000 t + p, q).
  * The batch-normalisation affine map (twice): point t holds the same rows of the features and the four whole rows
    μ, r, γ, β; it stores ((h − μ) · r) · γ + β, which at (p, q) is `Cert.Spec.bn` at (2000 t + p, q).

  Both sides are the same tree of pointwise operations, so no law of the extended reals is used: each broadcast is read
  at the index, and the two expressions coincide. The 25 row blocks fill the 50000 rows (row n lies in block n / 2000),
  so after the last point the output array is the whole-array function.
-/
import proofs.«139121_j59785944760955_1_alg».proof.Proof.Gen.KernelIdeal.Frame
import proofs.«139121_j59785944760955_1_alg».proof.Proof.Spec
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Whole

open Cert.KernelIdeal Cert.KernelIdeal.Gen

namespace Pointwise

/-- The zero offsets of a whole-block access, as a constant function. -/
theorem hz : (![0, 0] : Fin 2 → Nat) = fun _ => 0 := funext fun a => by fin_cases a <;> rfl

/-! ## Broadcasts read at an index -/

/-- A column [a,1] broadcast along the second axis reads, at (p, q), the column's entry of row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A row repeated for every node reads, at (n, q), the row's entry q. -/
theorem rows_apply (x : FVec Ideal Cert.ReferenceIdeal.S1x256 .f32) (n : Fin 50000) (q : Fin 256) :
    Cert.Spec.rows x (ix2 n q) = x (ix2 (0 : Fin 1) q) := by
  unfold Cert.Spec.rows
  exact broadcastInDim_apply ![0, 1] Cert.ReferenceIdeal.Gen.bcast_S1x256_S50000x256_0_1 x (ix2 n q) (ix2 (0 : Fin 1) q)
    (fun a => by match a with | ⟨0, _⟩ => rfl | ⟨1, _⟩ => rfl)

/-- A column repeated for every feature reads, at (n, q), the column's entry of node n. -/
theorem cols_apply (x : FVec Ideal Cert.ReferenceIdeal.S50000x1 .f32) (n : Fin 50000) (q : Fin 256) :
    Cert.Spec.cols x (ix2 n q) = x (ix2 n (0 : Fin 1)) := by
  unfold Cert.Spec.cols
  exact broadcastInDim_apply ![0, 1] Cert.ReferenceIdeal.Gen.bcast_S50000x1_S50000x256_0_1 x (ix2 n q) (ix2 n (0 : Fin 1))
    (fun a => by match a with | ⟨0, _⟩ => rfl | ⟨1, _⟩ => rfl)

/-- The zero array reads the zero word's value everywhere. -/
theorem zeros_apply (n : Fin 50000) (q : Fin 256) : Cert.Spec.zeros (ix2 n q) = Ideal.ofBits .f32 0x00000000#32 := by
  unfold Cert.Spec.zeros
  exact broadcastInDim_apply ![] Cert.ReferenceIdeal.Gen.bcast_S_S50000x256 (constant (F := Ideal) Cert.ReferenceIdeal.S_ .f32 0x00000000#32)
    (ix2 n q) ix0 (fun a => a.elim0)

/-! ## The graph-convolution epilogue, entry by entry -/

/-- The epilogue's payload at entry (p, q) of a row block: the neighbour sum plus the node's own features scaled by the
    node's factor, plus the feature's bias, rectified. -/
theorem fin_pay_apply (h : Vec Ideal S2000x256 .f32) (d : Vec Ideal S2000x1 .f32) (agg : Vec Ideal S2000x256 .f32)
    (b : Vec Ideal S1x256 .f32) (p : Fin 2000) (q : Fin 256) :
    k1_pay1 h d agg b (ix2 p q)
      = max ((agg (ix2 p q) + h (ix2 p q) * d (ix2 p (0 : Fin 1))) + b (ix2 (0 : Fin 1) q)) (Ideal.ofBits .f32 0x00000000#32) := by
  unfold k1_pay1
  simp only [shapeCast_self]
  rw [maximumf_apply, addf_apply, addf_apply, mulf_apply, broadcast_apply, broadcastTo_a1_ab_apply, broadcastTo_1b_ab_apply]
  rfl

/-- The whole-array epilogue at entry (n, q): the same expression of the arrays' entries. -/
theorem spec_fin_apply (agg h : FVec Ideal Cert.ReferenceIdeal.S50000x256 .f32) (d : FVec Ideal Cert.ReferenceIdeal.S50000x1 .f32)
    (b : FVec Ideal Cert.ReferenceIdeal.S1x256 .f32) (n : Fin 50000) (q : Fin 256) :
    Cert.Spec.fin agg h d b (ix2 n q)
      = max ((agg (ix2 n q) + h (ix2 n q) * d (ix2 n (0 : Fin 1))) + b (ix2 (0 : Fin 1) q)) (Ideal.ofBits .f32 0x00000000#32) := by
  unfold Cert.Spec.fin
  rw [maximumf_apply, addf_apply, addf_apply, mulf_apply, cols_apply, rows_apply, zeros_apply]

/-- The epilogue's payload at an entry of a row block, when the operand blocks are that row block of the operand
    arrays (and the bias row is the whole bias array), is the whole-array epilogue at the entry's place in the array. -/
theorem fin_pay_eq_spec (agg h : FVec Ideal Cert.ReferenceIdeal.S50000x256 .f32) (d : FVec Ideal Cert.ReferenceIdeal.S50000x1 .f32)
    (b : FVec Ideal Cert.ReferenceIdeal.S1x256 .f32)
    (xh : Vec Ideal S2000x256 .f32) (xd : Vec Ideal S2000x1 .f32) (xagg : Vec Ideal S2000x256 .f32) (xb : Vec Ideal S1x256 .f32)
    (p : Fin 2000) (q : Fin 256) (n : Fin 50000)
    (hagg : xagg (ix2 p q) = agg (ix2 n q)) (hh : xh (ix2 p q) = h (ix2 n q))
    (hd : xd (ix2 p (0 : Fin 1)) = d (ix2 n (0 : Fin 1))) (hb : xb (ix2 (0 : Fin 1) q) = b (ix2 (0 : Fin 1) q)) :
    k1_pay1 xh xd xagg xb (ix2 p q) = Cert.Spec.fin agg h d b (ix2 n q) := by
  rw [fin_pay_apply, spec_fin_apply, hagg, hh, hd, hb]

/-! ## The batch-normalisation affine map, entry by entry -/

/-- The affine map's payload at entry (p, q) of a row block: centre by the feature's mean, scale by its inverse
    deviation and by its gain, shift. -/
theorem bn_pay_apply (h : Vec Ideal S2000x256 .f32) (mu r g be : Vec Ideal S1x256 .f32) (p : Fin 2000) (q : Fin 256) :
    k4_pay1 h mu r g be (ix2 p q)
      = ((h (ix2 p q) - mu (ix2 (0 : Fin 1) q)) * r (ix2 (0 : Fin 1) q)) * g (ix2 (0 : Fin 1) q) + be (ix2 (0 : Fin 1) q) := by
  unfold k4_pay1
  simp only [shapeCast_self]
  rw [addf_apply, mulf_apply, mulf_apply, subf_apply]
  simp only [broadcastTo_1b_ab_apply]

/-- The whole-array affine map at entry (n, q): the same expression of the arrays' entries. -/
theorem spec_bn_apply (h : FVec Ideal Cert.ReferenceIdeal.S50000x256 .f32) (mu r g be : FVec Ideal Cert.ReferenceIdeal.S1x256 .f32)
    (n : Fin 50000) (q : Fin 256) :
    Cert.Spec.bn h mu r g be (ix2 n q)
      = ((h (ix2 n q) - mu (ix2 (0 : Fin 1) q)) * r (ix2 (0 : Fin 1) q)) * g (ix2 (0 : Fin 1) q) + be (ix2 (0 : Fin 1) q) := by
  unfold Cert.Spec.bn
  rw [addf_apply, mulf_apply, mulf_apply, subf_apply, rows_apply, rows_apply, rows_apply, rows_apply]

/-- The affine map's payload at an entry of a row block, when the feature block is that row block of the feature
    array (and the four rows are the whole row arrays), is the whole-array map at the entry's place in the array. -/
theorem bn_pay_eq_spec (h : FVec Ideal Cert.ReferenceIdeal.S50000x256 .f32) (mu r g be : FVec Ideal Cert.ReferenceIdeal.S1x256 .f32)
    (xh : Vec Ideal S2000x256 .f32) (xmu xr xg xbe : Vec Ideal S1x256 .f32)
    (p : Fin 2000) (q : Fin 256) (n : Fin 50000)
    (hh : xh (ix2 p q) = h (ix2 n q)) (hmu : xmu (ix2 (0 : Fin 1) q) = mu (ix2 (0 : Fin 1) q))
    (hr : xr (ix2 (0 : Fin 1) q) = r (ix2 (0 : Fin 1) q)) (hg : xg (ix2 (0 : Fin 1) q) = g (ix2 (0 : Fin 1) q))
    (hbe : xbe (ix2 (0 : Fin 1) q) = be (ix2 (0 : Fin 1) q)) :
    k4_pay1 xh xmu xr xg xbe (ix2 p q) = Cert.Spec.bn h mu r g be (ix2 n q) := by
  rw [bn_pay_apply, spec_bn_apply, hh, hmu, hr, hg, hbe]

end Pointwise

section Regions

variable (V : (c : Dev nD) → (b : Ref sig .tc) → Buf (Elt Ideal) ((c : Thread nD τ).loc b))

/-! ## Region 1: the first graph-convolution epilogue -/

namespace Pointwise

/-- The index maps over the grid: the neighbour sums, the features, the node factors and the output are at row block
    t at point t; the bias row is the one block of its array. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the whole-array epilogue of the operand arrays as the region finds them:
    entry (p, q) of the block is entry (2000 t + p, q) of each row-blocked operand. -/
theorem flushed1 (c : Dev nD) (t : Fin cfg1.N) :
    (dat1 (F := Ideal) V c).flushed 4 t = ((cfg1.win 4).blk t).view.read (Elt Ideal)
      (Cert.Spec.fin (V c main_v41) (V c main_v13) (V c main_v12) (V c main_v42)) := by
  show (cfg1.win 4).cut (grid1.coords t) ((dat1 V c).after 4 t) = _
  rw [after1_4]
  unfold out1_4
  rw [View.canon_unit_zero hz]
  simp only [View.ld_unit_zero (S := S2000x256) hz, View.ld_unit_zero (S := S2000x1) hz, View.ld_unit_zero (S := S1x256) hz]
  obtain ⟨e00, e01, e10, e11, e20, e21, e30, e31, e40, e41⟩ := idx_facts1 t
  have hN : cfg1.N = 25 := N_1
  have ht : t.val < 25 := hN ▸ t.isLt
  funext j
  have hp : (j 0).val < 2000 := (j 0).isLt
  have hq : (j 1).val < 256 := (j 1).isLt
  have hj : (win1 4).xinj (grid1.coords t) j = ix2 (⟨(j 0).val, hp⟩ : Fin 2000) (⟨(j 1).val, hq⟩ : Fin 256) :=
    funext fun a => by match a with | ⟨0, _⟩ => rfl | ⟨1, _⟩ => rfl
  show k1_pay1 (iblk1 V c 1 t) (iblk1 V c 2 t) (iblk1 V c 0 t) (iblk1 V c 3 t) ((win1 4).xinj (grid1.coords t) j) = _
  rw [hj]
  refine (fin_pay_eq_spec (V c main_v41) (V c main_v13) (V c main_v12) (V c main_v42)
    (iblk1 V c 1 t) (iblk1 V c 2 t) (iblk1 V c 0 t) (iblk1 V c 3 t) ⟨(j 0).val, hp⟩ ⟨(j 1).val, hq⟩
    ⟨t.val * 2000 + (j 0).val, by omega⟩ ?_ ?_ ?_ ?_).trans ?_
  · show V c main_v41 (((cfg1.win 0).blk t).view.emb _) = V c main_v41 _
    refine congrArg _ (funext fun a => Fin.ext ?_)
    match a with
    | ⟨0, _⟩ => show win1_0.index t (0 : Fin 2) * 2000 + 1 * (j 0).val = t.val * 2000 + (j 0).val; omega
    | ⟨1, _⟩ => show win1_0.index t (1 : Fin 2) * 256 + 1 * (j 1).val = (j 1).val; omega
  · show V c main_v13 (((cfg1.win 1).blk t).view.emb _) = V c main_v13 _
    refine congrArg _ (funext fun a => Fin.ext ?_)
    match a with
    | ⟨0, _⟩ => show win1_1.index t (0 : Fin 2) * 2000 + 1 * (j 0).val = t.val * 2000 + (j 0).val; omega
    | ⟨1, _⟩ => show win1_1.index t (1 : Fin 2) * 256 + 1 * (j 1).val = (j 1).val; omega
  · show V c main_v12 (((cfg1.win 2).blk t).view.emb _) = V c main_v12 _
    refine congrArg _ (funext fun a => Fin.ext ?_)
    match a with
    | ⟨0, _⟩ => show win1_2.index t (0 : Fin 2) * 2000 + 1 * (j 0).val = t.val * 2000 + (j 0).val; omega
    | ⟨1, _⟩ => show win1_2.index t (1 : Fin 2) * 1 + 1 * 0 = 0; omega
  · show V c main_v42 (((cfg1.win 3).blk t).view.emb _) = V c main_v42 _
    refine congrArg _ (funext fun a => Fin.ext ?_)
    match a with
    | ⟨0, _⟩ => show win1_3.index t (0 : Fin 2) * 1 + 1 * 0 = 0; omega
    | ⟨1, _⟩ => show win1_3.index t (1 : Fin 2) * 256 + 1 * (j 1).val = (j 1).val; omega
  · show Cert.Spec.fin (V c main_v41) (V c main_v13) (V c main_v12) (V c main_v42) _
      = Cert.Spec.fin (V c main_v41) (V c main_v13) (V c main_v12) (V c main_v42) (((cfg1.win 4).blk t).view.emb j)
    refine congrArg _ (funext fun a => Fin.ext ?_)
    match a with
    | ⟨0, _⟩ => show t.val * 2000 + (j 0).val = win1_4.index t (0 : Fin 2) * 2000 + 1 * (j 0).val; omega
    | ⟨1, _⟩ => show (j 1).val = win1_4.index t (1 : Fin 2) * 256 + 1 * (j 1).val; omega

/-- An index of the output array is in point t's block iff each coordinate is in the block's range on its axis. -/
theorem mem_blk1 (t : Fin cfg1.N) (i : S50000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v43).slice (win1_4.rect t)).set ↔ _
  rw [View.set_slice_whole, Rect.mem_set_unit]
  exact Iff.rfl

/-- Row n of the output array is written by point n / 2000: the 25 row blocks fill the 50000 rows. -/
theorem cover1 (i : S50000x256.Idx) : ∃ t : Fin cfg1.N, (cfg1.win 4).flush t = true ∧ i ∈ ((cfg1.win 4).blk t).view.set := by
  have hi0 : (i 0).val < 50000 := (i 0).isLt
  have hi1 : (i 1).val < 256 := (i 1).isLt
  have hN : cfg1.N = 25 := N_1
  have ht : (i 0).val / 2000 < cfg1.N := by rw [hN]; omega
  obtain ⟨-, -, -, -, -, -, -, -, e40, e41⟩ := idx_facts1 ⟨(i 0).val / 2000, ht⟩
  refine ⟨⟨(i 0).val / 2000, ht⟩, flush1_4 _, ?_⟩
  rw [mem_blk1]
  intro a
  match a with
  | ⟨0, _⟩ =>
    show win1_4.index ⟨(i 0).val / 2000, ht⟩ (0 : Fin 2) * 2000 ≤ (i 0).val ∧ (i 0).val < win1_4.index ⟨(i 0).val / 2000, ht⟩ (0 : Fin 2) * 2000 + 2000
    rw [e40]; show (i 0).val / 2000 * 2000 ≤ (i 0).val ∧ (i 0).val < (i 0).val / 2000 * 2000 + 2000; omega
  | ⟨1, _⟩ =>
    show win1_4.index ⟨(i 0).val / 2000, ht⟩ (1 : Fin 2) * 256 ≤ (i 1).val ∧ (i 1).val < win1_4.index ⟨(i 0).val / 2000, ht⟩ (1 : Fin 2) * 256 + 256
    rw [e41]; omega

end Pointwise

/-- The output array after region 1: the graph-convolution epilogue of the four operand arrays as the region finds them. -/
theorem fin1 (c : Dev nD) : (dat1 (F := Ideal) V c).arrAt 4 cfg1.N
    = Cert.Spec.fin (V c main_v41) (V c main_v13) (V c main_v12) (V c main_v42) :=
  (dat1 (F := Ideal) V c).arrAt_eq_of_cover 4 (Cert.Spec.fin (V c main_v41) (V c main_v13) (V c main_v12) (V c main_v42))
    (fun t _ => Pointwise.flushed1 V c t) (Pointwise.cover1)

/-! ## Region 3: the second graph-convolution epilogue -/

namespace Pointwise

/-- The index maps over the grid: the neighbour sums, the features, the node factors and the output are at row block
    t at point t; the bias row is the one block of its array. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t writes back is block t of the whole-array epilogue of the operand arrays as the region finds them:
    entry (p, q) of the block is entry (2000 t + p, q) of each row-blocked operand. -/
theorem flushed3 (c : Dev nD) (t : Fin cfg3.N) :
    (dat3 (F := Ideal) V c).flushed 4 t = ((cfg3.win 4).blk t).view.read (Elt Ideal)
      (Cert.Spec.fin (V c main_v72) (V c main_v44) (V c main_v12) (V c main_v73)) := by
  show (cfg3.win 4).cut (grid3.coords t) ((dat3 V c).after 4 t) = _
  rw [after3_4]
  unfold out3_4
  rw [View.canon_unit_zero hz]
  simp only [View.ld_unit_zero (S := S2000x256) hz, View.ld_unit_zero (S := S2000x1) hz, View.ld_unit_zero (S := S1x256) hz]
  obtain ⟨e00, e01, e10, e11, e20, e21, e30, e31, e40, e41⟩ := idx_facts3 t
  have hN : cfg3.N = 25 := N_3
  have ht : t.val < 25 := hN ▸ t.isLt
  funext j
  have hp : (j 0).val < 2000 := (j 0).isLt
  have hq : (j 1).val < 256 := (j 1).isLt
  have hj : (win3 4).xinj (grid3.coords t) j = ix2 (⟨(j 0).val, hp⟩ : Fin 2000) (⟨(j 1).val, hq⟩ : Fin 256) :=
    funext fun a => by match a with | ⟨0, _⟩ => rfl | ⟨1, _⟩ => rfl
  show k1_pay1 (iblk3 V c 1 t) (iblk3 V c 2 t) (iblk3 V c 0 t) (iblk3 V c 3 t) ((win3 4).xinj (grid3.coords t) j) = _
  rw [hj]
  refine (fin_pay_eq_spec (V c main_v72) (V c main_v44) (V c main_v12) (V c main_v73)
    (iblk3 V c 1 t) (iblk3 V c 2 t) (iblk3 V c 0 t) (iblk3 V c 3 t) ⟨(j 0).val, hp⟩ ⟨(j 1).val, hq⟩
    ⟨t.val * 2000 + (j 0).val, by omega⟩ ?_ ?_ ?_ ?_).trans ?_
  · show V c main_v72 (((cfg3.win 0).blk t).view.emb _) = V c main_v72 _
    refine congrArg _ (funext fun a => Fin.ext ?_)
    match a with
    | ⟨0, _⟩ => show win3_0.index t (0 : Fin 2) * 2000 + 1 * (j 0).val = t.val * 2000 + (j 0).val; omega
    | ⟨1, _⟩ => show win3_0.index t (1 : Fin 2) * 256 + 1 * (j 1).val = (j 1).val; omega
  · show V c main_v44 (((cfg3.win 1).blk t).view.emb _) = V c main_v44 _
    refine congrArg _ (funext fun a => Fin.ext ?_)
    match a with
    | ⟨0, _⟩ => show win3_1.index t (0 : Fin 2) * 2000 + 1 * (j 0).val = t.val * 2000 + (j 0).val; omega
    | ⟨1, _⟩ => show win3_1.index t (1 : Fin 2) * 256 + 1 * (j 1).val = (j 1).val; omega
  · show V c main_v12 (((cfg3.win 2).blk t).view.emb _) = V c main_v12 _
    refine congrArg _ (funext fun a => Fin.ext ?_)
    match a with
    | ⟨0, _⟩ => show win3_2.index t (0 : Fin 2) * 2000 + 1 * (j 0).val = t.val * 2000 + (j 0).val; omega
    | ⟨1, _⟩ => show win3_2.index t (1 : Fin 2) * 1 + 1 * 0 = 0; omega
  · show V c main_v73 (((cfg3.win 3).blk t).view.emb _) = V c main_v73 _
    refine congrArg _ (funext fun a => Fin.ext ?_)
    match a with
    | ⟨0, _⟩ => show win3_3.index t (0 : Fin 2) * 1 + 1 * 0 = 0; omega
    | ⟨1, _⟩ => show win3_3.index t (1 : Fin 2) * 256 + 1 * (j 1).val = (j 1).val; omega
  · show Cert.Spec.fin (V c main_v72) (V c main_v44) (V c main_v12) (V c main_v73) _
      = Cert.Spec.fin (V c main_v72) (V c main_v44) (V c main_v12) (V c main_v73) (((cfg3.win 4).blk t).view.emb j)
    refine congrArg _ (funext fun a => Fin.ext ?_)
    match a with
    | ⟨0, _⟩ => show t.val * 2000 + (j 0).val = win3_4.index t (0 : Fin 2) * 2000 + 1 * (j 0).val; omega
    | ⟨1, _⟩ => show (j 1).val = win3_4.index t (1 : Fin 2) * 256 + 1 * (j 1).val; omega

/-- An index of the output array is in point t's block iff each coordinate is in the block's range on its axis. -/
theorem mem_blk3 (t : Fin cfg3.N) (i : S50000x256.Idx) :
    i ∈ ((cfg3.win 4).blk t).view.set ↔ ∀ a : Fin 2, win3_4.index t a * S2000x256.size a ≤ (i a).val ∧ (i a).val < win3_4.index t a * S2000x256.size a + S2000x256.size a := by
  show i ∈ ((View.whole main_v74).slice (win3_4.rect t)).set ↔ _
  rw [View.set_slice_whole, Rect.mem_set_unit]
  exact Iff.rfl

/-- Row n of the output array is written by point n / 2000: the 25 row blocks fill the 50000 rows. -/
theorem cover3 (i : S50000x256.Idx) : ∃ t : Fin cfg3.N, (cfg3.win 4).flush t = true ∧ i ∈ ((cfg3.win 4).blk t).view.set := by
  have hi0 : (i 0).val < 50000 := (i 0).isLt
  have hi1 : (i 1).val < 256 := (i 1).isLt
  have hN : cfg3.N = 25 := N_3
  have ht : (i 0).val / 2000 < cfg3.N := by rw [hN]; omega
  obtain ⟨-, -, -, -, -, -, -, -, e40, e41⟩ := idx_facts3 ⟨(i 0).val / 2000, ht⟩
  refine ⟨⟨(i 0).val / 2000, ht⟩, flush3_4 _, ?_⟩
  rw [mem_blk3]
  intro a
  match a with
  | ⟨0, _⟩ =>
    show win3_4.index ⟨(i 0).val / 2000, ht⟩ (0 : Fin 2) * 2000 ≤ (i 0).val ∧ (i 0).val < win3_4.index ⟨(i 0).val / 2000, ht⟩ (0 : Fin 2) * 2000 + 2000
    rw [e40]; show (i 0).val / 2000 * 2000 ≤ (i 0).val ∧ (i 0).val < (i 0).val / 2000 * 2000 + 2000; omega
  | ⟨1, _⟩ =>
    show win3_4.index ⟨(i 0).val / 2000, ht⟩ (1 : Fin 2) * 256 ≤ (i 1).val ∧ (i 1).val < win3_4.index ⟨(i 0).val / 2000, ht⟩ (1 : Fin 2) * 256 + 256
    rw [e41]; omega

end Pointwise

/-- The output array after region 3: the graph-convolution epilogue of the four operand arrays as the region finds them. -/
theorem fin3 (c : Dev nD) : (dat3 (F := Ideal) V c).arrAt 4 cfg3.N
    = Cert.Spec.fin (V c main_v72) (V c main_v44) (V c main_v12) (V c main_v73) :=
  (dat3 (F := Ideal) V c).arrAt_eq_of_cover 4 (Cert.Spec.fin (V c main_v72) (V c main_v44) (V c main_v12) (V c main_v73))
    (fun t _ => Pointwise.flushed3 V c t) (Pointwise.cover3)

/-! ## Region 4: the first batch-normalisation affine map -/

namespace Pointwise

/-- The index maps over the grid: the features and the output are at row block t at point t; each of the four rows
    is the one block of its array. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- What point t writes back is block t of the whole-array affine map of the operand arrays as the region finds them:
    entry (p, q) of the block is entry (2000 t + p, q) of the feature array. -/
theorem flushed4 (c : Dev nD) (t : Fin cfg4.N) :
    (dat4 (F := Ideal) V c).flushed 5 t = ((cfg4.win 5).blk t).view.read (Elt Ideal)
      (Cert.Spec.bn (V c main_v74) (V c main_v78) (V c main_v88) (V c main_v89) (V c main_v90)) := by
  show (cfg4.win 5).cut (grid4.coords t) ((dat4 V c).after 5 t) = _
  rw [after4_5]
  unfold out4_5
  rw [View.canon_unit_zero hz]
  simp only [View.ld_unit_zero (S := S2000x256) hz, View.ld_unit_zero (S := S1x256) hz]
  obtain ⟨e00, e01, e10, e11, e20, e21, e30, e31, e40, e41, e50, e51⟩ := idx_facts4 t
  have hN : cfg4.N = 25 := N_4
  have ht : t.val < 25 := hN ▸ t.isLt
  funext j
  have hp : (j 0).val < 2000 := (j 0).isLt
  have hq : (j 1).val < 256 := (j 1).isLt
  have hj : (win4 5).xinj (grid4.coords t) j = ix2 (⟨(j 0).val, hp⟩ : Fin 2000) (⟨(j 1).val, hq⟩ : Fin 256) :=
    funext fun a => by match a with | ⟨0, _⟩ => rfl | ⟨1, _⟩ => rfl
  show k4_pay1 (iblk4 V c 0 t) (iblk4 V c 1 t) (iblk4 V c 2 t) (iblk4 V c 3 t) (iblk4 V c 4 t) ((win4 5).xinj (grid4.coords t) j) = _
  rw [hj]
  refine (bn_pay_eq_spec (V c main_v74) (V c main_v78) (V c main_v88) (V c main_v89) (V c main_v90)
    (iblk4 V c 0 t) (iblk4 V c 1 t) (iblk4 V c 2 t) (iblk4 V c 3 t) (iblk4 V c 4 t) ⟨(j 0).val, hp⟩ ⟨(j 1).val, hq⟩
    ⟨t.val * 2000 + (j 0).val, by omega⟩ ?_ ?_ ?_ ?_ ?_).trans ?_
  · show V c main_v74 (((cfg4.win 0).blk t).view.emb _) = V c main_v74 _
    refine congrArg _ (funext fun a => Fin.ext ?_)
    match a with
    | ⟨0, _⟩ => show win4_0.index t (0 : Fin 2) * 2000 + 1 * (j 0).val = t.val * 2000 + (j 0).val; omega
    | ⟨1, _⟩ => show win4_0.index t (1 : Fin 2) * 256 + 1 * (j 1).val = (j 1).val; omega
  · show V c main_v78 (((cfg4.win 1).blk t).view.emb _) = V c main_v78 _
    refine congrArg _ (funext fun a => Fin.ext ?_)
    match a with
    | ⟨0, _⟩ => show win4_1.index t (0 : Fin 2) * 1 + 1 * 0 = 0; omega
    | ⟨1, _⟩ => show win4_1.index t (1 : Fin 2) * 256 + 1 * (j 1).val = (j 1).val; omega
  · show V c main_v88 (((cfg4.win 2).blk t).view.emb _) = V c main_v88 _
    refine congrArg _ (funext fun a => Fin.ext ?_)
    match a with
    | ⟨0, _⟩ => show win4_2.index t (0 : Fin 2) * 1 + 1 * 0 = 0; omega
    | ⟨1, _⟩ => show win4_2.index t (1 : Fin 2) * 256 + 1 * (j 1).val = (j 1).val; omega
  · show V c main_v89 (((cfg4.win 3).blk t).view.emb _) = V c main_v89 _
    refine congrArg _ (funext fun a => Fin.ext ?_)
    match a with
    | ⟨0, _⟩ => show win4_3.index t (0 : Fin 2) * 1 + 1 * 0 = 0; omega
    | ⟨1, _⟩ => show win4_3.index t (1 : Fin 2) * 256 + 1 * (j 1).val = (j 1).val; omega
  · show V c main_v90 (((cfg4.win 4).blk t).view.emb _) = V c main_v90 _
    refine congrArg _ (funext fun a => Fin.ext ?_)
    match a with
    | ⟨0, _⟩ => show win4_4.index t (0 : Fin 2) * 1 + 1 * 0 = 0; omega
    | ⟨1, _⟩ => show win4_4.index t (1 : Fin 2) * 256 + 1 * (j 1).val = (j 1).val; omega
  · show Cert.Spec.bn (V c main_v74) (V c main_v78) (V c main_v88) (V c main_v89) (V c main_v90) _
      = Cert.Spec.bn (V c main_v74) (V c main_v78) (V c main_v88) (V c main_v89) (V c main_v90) (((cfg4.win 5).blk t).view.emb j)
    refine congrArg _ (funext fun a => Fin.ext ?_)
    match a with
    | ⟨0, _⟩ => show t.val * 2000 + (j 0).val = win4_5.index t (0 : Fin 2) * 2000 + 1 * (j 0).val; omega
    | ⟨1, _⟩ => show (j 1).val = win4_5.index t (1 : Fin 2) * 256 + 1 * (j 1).val; omega

/-- An index of the output array is in point t's block iff each coordinate is in the block's range on its axis. -/
theorem mem_blk4 (t : Fin cfg4.N) (i : S50000x256.Idx) :
    i ∈ ((cfg4.win 5).blk t).view.set ↔ ∀ a : Fin 2, win4_5.index t a * S2000x256.size a ≤ (i a).val ∧ (i a).val < win4_5.index t a * S2000x256.size a + S2000x256.size a := by
  show i ∈ ((View.whole main_v91).slice (win4_5.rect t)).set ↔ _
  rw [View.set_slice_whole, Rect.mem_set_unit]
  exact Iff.rfl

/-- Row n of the output array is written by point n / 2000: the 25 row blocks fill the 50000 rows. -/
theorem cover4 (i : S50000x256.Idx) : ∃ t : Fin cfg4.N, (cfg4.win 5).flush t = true ∧ i ∈ ((cfg4.win 5).blk t).view.set := by
  have hi0 : (i 0).val < 50000 := (i 0).isLt
  have hi1 : (i 1).val < 256 := (i 1).isLt
  have hN : cfg4.N = 25 := N_4
  have ht : (i 0).val / 2000 < cfg4.N := by rw [hN]; omega
  obtain ⟨-, -, -, -, -, -, -, -, -, -, e50, e51⟩ := idx_facts4 ⟨(i 0).val / 2000, ht⟩
  refine ⟨⟨(i 0).val / 2000, ht⟩, flush4_5 _, ?_⟩
  rw [mem_blk4]
  intro a
  match a with
  | ⟨0, _⟩ =>
    show win4_5.index ⟨(i 0).val / 2000, ht⟩ (0 : Fin 2) * 2000 ≤ (i 0).val ∧ (i 0).val < win4_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win4_5.index ⟨(i 0).val / 2000, ht⟩ (1 : Fin 2) * 256 ≤ (i 1).val ∧ (i 1).val < win4_5.index ⟨(i 0).val / 2000, ht⟩ (1 : Fin 2) * 256 + 256
    rw [e51]; omega

end Pointwise

/-- The output array after region 4: the batch-normalisation affine map of the five operand arrays as the region finds them. -/
theorem bn4 (c : Dev nD) : (dat4 (F := Ideal) V c).arrAt 5 cfg4.N
    = Cert.Spec.bn (V c main_v74) (V c main_v78) (V c main_v88) (V c main_v89) (V c main_v90) :=
  (dat4 (F := Ideal) V c).arrAt_eq_of_cover 5 (Cert.Spec.bn (V c main_v74) (V c main_v78) (V c main_v88) (V c main_v89) (V c main_v90))
    (fun t _ => Pointwise.flushed4 V c t) (Pointwise.cover4)

/-! ## Region 6: the third graph-convolution epilogue -/

namespace Pointwise

/-- The index maps over the grid: the neighbour sums, the features, the node factors and the output are at row block
    t at point t; the bias row is the one block of its array. -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- What point t writes back is block t of the whole-array epilogue of the operand arrays as the region finds them:
    entry (p, q) of the block is entry (2000 t + p, q) of each row-blocked operand. -/
theorem flushed6 (c : Dev nD) (t : Fin cfg6.N) :
    (dat6 (F := Ideal) V c).flushed 4 t = ((cfg6.win 4).blk t).view.read (Elt Ideal)
      (Cert.Spec.fin (V c main_v120) (V c main_v92) (V c main_v12) (V c main_v121)) := by
  show (cfg6.win 4).cut (grid6.coords t) ((dat6 V c).after 4 t) = _
  rw [after6_4]
  unfold out6_4
  rw [View.canon_unit_zero hz]
  simp only [View.ld_unit_zero (S := S2000x256) hz, View.ld_unit_zero (S := S2000x1) hz, View.ld_unit_zero (S := S1x256) hz]
  obtain ⟨e00, e01, e10, e11, e20, e21, e30, e31, e40, e41⟩ := idx_facts6 t
  have hN : cfg6.N = 25 := N_6
  have ht : t.val < 25 := hN ▸ t.isLt
  funext j
  have hp : (j 0).val < 2000 := (j 0).isLt
  have hq : (j 1).val < 256 := (j 1).isLt
  have hj : (win6 4).xinj (grid6.coords t) j = ix2 (⟨(j 0).val, hp⟩ : Fin 2000) (⟨(j 1).val, hq⟩ : Fin 256) :=
    funext fun a => by match a with | ⟨0, _⟩ => rfl | ⟨1, _⟩ => rfl
  show k1_pay1 (iblk6 V c 1 t) (iblk6 V c 2 t) (iblk6 V c 0 t) (iblk6 V c 3 t) ((win6 4).xinj (grid6.coords t) j) = _
  rw [hj]
  refine (fin_pay_eq_spec (V c main_v120) (V c main_v92) (V c main_v12) (V c main_v121)
    (iblk6 V c 1 t) (iblk6 V c 2 t) (iblk6 V c 0 t) (iblk6 V c 3 t) ⟨(j 0).val, hp⟩ ⟨(j 1).val, hq⟩
    ⟨t.val * 2000 + (j 0).val, by omega⟩ ?_ ?_ ?_ ?_).trans ?_
  · show V c main_v120 (((cfg6.win 0).blk t).view.emb _) = V c main_v120 _
    refine congrArg _ (funext fun a => Fin.ext ?_)
    match a with
    | ⟨0, _⟩ => show win6_0.index t (0 : Fin 2) * 2000 + 1 * (j 0).val = t.val * 2000 + (j 0).val; omega
    | ⟨1, _⟩ => show win6_0.index t (1 : Fin 2) * 256 + 1 * (j 1).val = (j 1).val; omega
  · show V c main_v92 (((cfg6.win 1).blk t).view.emb _) = V c main_v92 _
    refine congrArg _ (funext fun a => Fin.ext ?_)
    match a with
    | ⟨0, _⟩ => show win6_1.index t (0 : Fin 2) * 2000 + 1 * (j 0).val = t.val * 2000 + (j 0).val; omega
    | ⟨1, _⟩ => show win6_1.index t (1 : Fin 2) * 256 + 1 * (j 1).val = (j 1).val; omega
  · show V c main_v12 (((cfg6.win 2).blk t).view.emb _) = V c main_v12 _
    refine congrArg _ (funext fun a => Fin.ext ?_)
    match a with
    | ⟨0, _⟩ => show win6_2.index t (0 : Fin 2) * 2000 + 1 * (j 0).val = t.val * 2000 + (j 0).val; omega
    | ⟨1, _⟩ => show win6_2.index t (1 : Fin 2) * 1 + 1 * 0 = 0; omega
  · show V c main_v121 (((cfg6.win 3).blk t).view.emb _) = V c main_v121 _
    refine congrArg _ (funext fun a => Fin.ext ?_)
    match a with
    | ⟨0, _⟩ => show win6_3.index t (0 : Fin 2) * 1 + 1 * 0 = 0; omega
    | ⟨1, _⟩ => show win6_3.index t (1 : Fin 2) * 256 + 1 * (j 1).val = (j 1).val; omega
  · show Cert.Spec.fin (V c main_v120) (V c main_v92) (V c main_v12) (V c main_v121) _
      = Cert.Spec.fin (V c main_v120) (V c main_v92) (V c main_v12) (V c main_v121) (((cfg6.win 4).blk t).view.emb j)
    refine congrArg _ (funext fun a => Fin.ext ?_)
    match a with
    | ⟨0, _⟩ => show t.val * 2000 + (j 0).val = win6_4.index t (0 : Fin 2) * 2000 + 1 * (j 0).val; omega
    | ⟨1, _⟩ => show (j 1).val = win6_4.index t (1 : Fin 2) * 256 + 1 * (j 1).val; omega

/-- An index of the output array is in point t's block iff each coordinate is in the block's range on its axis. -/
theorem mem_blk6 (t : Fin cfg6.N) (i : S50000x256.Idx) :
    i ∈ ((cfg6.win 4).blk t).view.set ↔ ∀ a : Fin 2, win6_4.index t a * S2000x256.size a ≤ (i a).val ∧ (i a).val < win6_4.index t a * S2000x256.size a + S2000x256.size a := by
  show i ∈ ((View.whole main_v122).slice (win6_4.rect t)).set ↔ _
  rw [View.set_slice_whole, Rect.mem_set_unit]
  exact Iff.rfl

/-- Row n of the output array is written by point n / 2000: the 25 row blocks fill the 50000 rows. -/
theorem cover6 (i : S50000x256.Idx) : ∃ t : Fin cfg6.N, (cfg6.win 4).flush t = true ∧ i ∈ ((cfg6.win 4).blk t).view.set := by
  have hi0 : (i 0).val < 50000 := (i 0).isLt
  have hi1 : (i 1).val < 256 := (i 1).isLt
  have hN : cfg6.N = 25 := N_6
  have ht : (i 0).val / 2000 < cfg6.N := by rw [hN]; omega
  obtain ⟨-, -, -, -, -, -, -, -, e40, e41⟩ := idx_facts6 ⟨(i 0).val / 2000, ht⟩
  refine ⟨⟨(i 0).val / 2000, ht⟩, flush6_4 _, ?_⟩
  rw [mem_blk6]
  intro a
  match a with
  | ⟨0, _⟩ =>
    show win6_4.index ⟨(i 0).val / 2000, ht⟩ (0 : Fin 2) * 2000 ≤ (i 0).val ∧ (i 0).val < win6_4.index ⟨(i 0).val / 2000, ht⟩ (0 : Fin 2) * 2000 + 2000
    rw [e40]; show (i 0).val / 2000 * 2000 ≤ (i 0).val ∧ (i 0).val < (i 0).val / 2000 * 2000 + 2000; omega
  | ⟨1, _⟩ =>
    show win6_4.index ⟨(i 0).val / 2000, ht⟩ (1 : Fin 2) * 256 ≤ (i 1).val ∧ (i 1).val < win6_4.index ⟨(i 0).val / 2000, ht⟩ (1 : Fin 2) * 256 + 256
    rw [e41]; omega

end Pointwise

/-- The output array after region 6: the graph-convolution epilogue of the four operand arrays as the region finds them. -/
theorem fin6 (c : Dev nD) : (dat6 (F := Ideal) V c).arrAt 4 cfg6.N
    = Cert.Spec.fin (V c main_v120) (V c main_v92) (V c main_v12) (V c main_v121) :=
  (dat6 (F := Ideal) V c).arrAt_eq_of_cover 4 (Cert.Spec.fin (V c main_v120) (V c main_v92) (V c main_v12) (V c main_v121))
    (fun t _ => Pointwise.flushed6 V c t) (Pointwise.cover6)

/-! ## Region 7: the second batch-normalisation affine map -/

namespace Pointwise

/-- The index maps over the grid: the features and the output are at row block t at point t; each of the four rows
    is the one block of its array. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- What point t writes back is block t of the whole-array affine map of the operand arrays as the region finds them:
    entry (p, q) of the block is entry (2000 t + p, q) of the feature array. -/
theorem flushed7 (c : Dev nD) (t : Fin cfg7.N) :
    (dat7 (F := Ideal) V c).flushed 5 t = ((cfg7.win 5).blk t).view.read (Elt Ideal)
      (Cert.Spec.bn (V c main_v122) (V c main_v126) (V c main_v136) (V c main_v137) (V c main_v138)) := by
  show (cfg7.win 5).cut (grid7.coords t) ((dat7 V c).after 5 t) = _
  rw [after7_5]
  unfold out7_5
  rw [View.canon_unit_zero hz]
  simp only [View.ld_unit_zero (S := S2000x256) hz, View.ld_unit_zero (S := S1x256) hz]
  obtain ⟨e00, e01, e10, e11, e20, e21, e30, e31, e40, e41, e50, e51⟩ := idx_facts7 t
  have hN : cfg7.N = 25 := N_7
  have ht : t.val < 25 := hN ▸ t.isLt
  funext j
  have hp : (j 0).val < 2000 := (j 0).isLt
  have hq : (j 1).val < 256 := (j 1).isLt
  have hj : (win7 5).xinj (grid7.coords t) j = ix2 (⟨(j 0).val, hp⟩ : Fin 2000) (⟨(j 1).val, hq⟩ : Fin 256) :=
    funext fun a => by match a with | ⟨0, _⟩ => rfl | ⟨1, _⟩ => rfl
  show k4_pay1 (iblk7 V c 0 t) (iblk7 V c 1 t) (iblk7 V c 2 t) (iblk7 V c 3 t) (iblk7 V c 4 t) ((win7 5).xinj (grid7.coords t) j) = _
  rw [hj]
  refine (bn_pay_eq_spec (V c main_v122) (V c main_v126) (V c main_v136) (V c main_v137) (V c main_v138)
    (iblk7 V c 0 t) (iblk7 V c 1 t) (iblk7 V c 2 t) (iblk7 V c 3 t) (iblk7 V c 4 t) ⟨(j 0).val, hp⟩ ⟨(j 1).val, hq⟩
    ⟨t.val * 2000 + (j 0).val, by omega⟩ ?_ ?_ ?_ ?_ ?_).trans ?_
  · show V c main_v122 (((cfg7.win 0).blk t).view.emb _) = V c main_v122 _
    refine congrArg _ (funext fun a => Fin.ext ?_)
    match a with
    | ⟨0, _⟩ => show win7_0.index t (0 : Fin 2) * 2000 + 1 * (j 0).val = t.val * 2000 + (j 0).val; omega
    | ⟨1, _⟩ => show win7_0.index t (1 : Fin 2) * 256 + 1 * (j 1).val = (j 1).val; omega
  · show V c main_v126 (((cfg7.win 1).blk t).view.emb _) = V c main_v126 _
    refine congrArg _ (funext fun a => Fin.ext ?_)
    match a with
    | ⟨0, _⟩ => show win7_1.index t (0 : Fin 2) * 1 + 1 * 0 = 0; omega
    | ⟨1, _⟩ => show win7_1.index t (1 : Fin 2) * 256 + 1 * (j 1).val = (j 1).val; omega
  · show V c main_v136 (((cfg7.win 2).blk t).view.emb _) = V c main_v136 _
    refine congrArg _ (funext fun a => Fin.ext ?_)
    match a with
    | ⟨0, _⟩ => show win7_2.index t (0 : Fin 2) * 1 + 1 * 0 = 0; omega
    | ⟨1, _⟩ => show win7_2.index t (1 : Fin 2) * 256 + 1 * (j 1).val = (j 1).val; omega
  · show V c main_v137 (((cfg7.win 3).blk t).view.emb _) = V c main_v137 _
    refine congrArg _ (funext fun a => Fin.ext ?_)
    match a with
    | ⟨0, _⟩ => show win7_3.index t (0 : Fin 2) * 1 + 1 * 0 = 0; omega
    | ⟨1, _⟩ => show win7_3.index t (1 : Fin 2) * 256 + 1 * (j 1).val = (j 1).val; omega
  · show V c main_v138 (((cfg7.win 4).blk t).view.emb _) = V c main_v138 _
    refine congrArg _ (funext fun a => Fin.ext ?_)
    match a with
    | ⟨0, _⟩ => show win7_4.index t (0 : Fin 2) * 1 + 1 * 0 = 0; omega
    | ⟨1, _⟩ => show win7_4.index t (1 : Fin 2) * 256 + 1 * (j 1).val = (j 1).val; omega
  · show Cert.Spec.bn (V c main_v122) (V c main_v126) (V c main_v136) (V c main_v137) (V c main_v138) _
      = Cert.Spec.bn (V c main_v122) (V c main_v126) (V c main_v136) (V c main_v137) (V c main_v138) (((cfg7.win 5).blk t).view.emb j)
    refine congrArg _ (funext fun a => Fin.ext ?_)
    match a with
    | ⟨0, _⟩ => show t.val * 2000 + (j 0).val = win7_5.index t (0 : Fin 2) * 2000 + 1 * (j 0).val; omega
    | ⟨1, _⟩ => show (j 1).val = win7_5.index t (1 : Fin 2) * 256 + 1 * (j 1).val; omega

/-- An index of the output array is in point t's block iff each coordinate is in the block's range on its axis. -/
theorem mem_blk7 (t : Fin cfg7.N) (i : S50000x256.Idx) :
    i ∈ ((cfg7.win 5).blk t).view.set ↔ ∀ a : Fin 2, win7_5.index t a * S2000x256.size a ≤ (i a).val ∧ (i a).val < win7_5.index t a * S2000x256.size a + S2000x256.size a := by
  show i ∈ ((View.whole main_v139).slice (win7_5.rect t)).set ↔ _
  rw [View.set_slice_whole, Rect.mem_set_unit]
  exact Iff.rfl

/-- Row n of the output array is written by point n / 2000: the 25 row blocks fill the 50000 rows. -/
theorem cover7 (i : S50000x256.Idx) : ∃ t : Fin cfg7.N, (cfg7.win 5).flush t = true ∧ i ∈ ((cfg7.win 5).blk t).view.set := by
  have hi0 : (i 0).val < 50000 := (i 0).isLt
  have hi1 : (i 1).val < 256 := (i 1).isLt
  have hN : cfg7.N = 25 := N_7
  have ht : (i 0).val / 2000 < cfg7.N := by rw [hN]; omega
  obtain ⟨-, -, -, -, -, -, -, -, -, -, e50, e51⟩ := idx_facts7 ⟨(i 0).val / 2000, ht⟩
  refine ⟨⟨(i 0).val / 2000, ht⟩, flush7_5 _, ?_⟩
  rw [mem_blk7]
  intro a
  match a with
  | ⟨0, _⟩ =>
    show win7_5.index ⟨(i 0).val / 2000, ht⟩ (0 : Fin 2) * 2000 ≤ (i 0).val ∧ (i 0).val < win7_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win7_5.index ⟨(i 0).val / 2000, ht⟩ (1 : Fin 2) * 256 ≤ (i 1).val ∧ (i 1).val < win7_5.index ⟨(i 0).val / 2000, ht⟩ (1 : Fin 2) * 256 + 256
    rw [e51]; omega

end Pointwise

/-- The output array after region 7: the batch-normalisation affine map of the five operand arrays as the region finds them. -/
theorem bn7 (c : Dev nD) : (dat7 (F := Ideal) V c).arrAt 5 cfg7.N
    = Cert.Spec.bn (V c main_v122) (V c main_v126) (V c main_v136) (V c main_v137) (V c main_v138) :=
  (dat7 (F := Ideal) V c).arrAt_eq_of_cover 5 (Cert.Spec.bn (V c main_v122) (V c main_v126) (V c main_v136) (V c main_v137) (V c main_v138))
    (fun t _ => Pointwise.flushed7 V c t) (Pointwise.cover7)

end Regions

end Cert.KernelIdeal.Whole

end
-- ==== Proof.BridgeA.lean ====
/-
  The two programs, stage by stage. The kernel program and the reference compute the same graph network in the same
  order: the degree normalisation; three graph convolutions (a matrix product, a neighbour sum over the edges, an
  epilogue); two batch normalisations; the pooling head. The kernel program does the matrix products, the epilogues and
  the batch-normalisation affine maps in tiled kernels and the rest in host operations that are, operation for
  operation, the reference's. So at each of nine points of the run the kernel program's buffer holds what the
  reference's holds (`stage…`): a kernel's whole output array is the reference's operation on whole arrays (the
  `Whole.…` lemmas), a stretch of host operations is read back operation by operation on both sides and the two
  readings are one term once the buffers they start from are identified (an argument array: by hypothesis; an earlier
  stage: by its lemma; the edge lists and the degree factors: by reading the first stretch back as well). The only
  place where the two spellings differ is the batch-normalisation statistics, which the kernel program forms on rows
  [1, 256] and the reference on vectors [256] (`Cert.Spec.divf_row`, `addf_row`, `rsqrt_row`).
-/
import proofs.«139121_j59785944760955_1_alg».proof.Proof.Pass
import proofs.«139121_j59785944760955_1_alg».proof.Proof.Spec
import proofs.«139121_j59785944760955_1_alg».proof.Proof.RowOps
import proofs.«139121_j59785944760955_1_alg».proof.Proof.RegionsMatmul
import proofs.«139121_j59785944760955_1_alg».proof.Proof.RegionsPointwise

set_option maxRecDepth 16384

noncomputable section

namespace Cert.Bridge

open Cert.KernelIdeal Cert.KernelIdeal.Gen Cert.KernelIdeal.Walk
open Idealize.ShloMosaic Idealize.ShloMosaic.TcCoe Idealize.SL.Sem Idealize.ShloMosaic.StableHlo

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)
variable (c : Dev nD)
variable (h : Agree m m' c)
include h

/-! ## The nine stages -/

/-- The first matrix product: node features times `W1`. -/
theorem stage_mm1 : W2 m ρ c (Proc.devRef .tc main_v13) = Cert.ReferenceIdeal.Staged.U2 m' c (Proc.devRef .tc Cert.ReferenceIdeal.main_v11) := by
  refine (W2_arr m ρ c 2).trans ((Whole.mm0 (V1 m ρ) c).trans ?_)
  show Cert.Spec.mm128 (W1 m ρ c (Proc.devRef .tc main_arg0)) (W1 m ρ c (Proc.devRef .tc main_arg3)) = _
  dsimp only [Cert.ReferenceIdeal.Staged.U2, Cert.ReferenceIdeal.Staged.segB]
  after_results_simp
  simp only [kArg0 m ρ c, kArg3 m ρ c, rArg0 m' c, rArg3 m' c, A0 m ρ m' c h, A3 m ρ m' c h]
  rfl

set_option maxHeartbeats 40000000 in
/-- The first graph convolution's output: neighbour sum, self term, bias, rectifier. -/
theorem stage_conv1 : W4 m ρ c (Proc.devRef .tc main_v43) = Cert.ReferenceIdeal.Staged.U3 m' c (Proc.devRef .tc Cert.ReferenceIdeal.main_v48) := by
  refine (W4_arr m ρ c 4).trans ((Whole.fin1 (V3 m ρ) c).trans ?_)
  show Cert.Spec.fin (W3 m ρ c (Proc.devRef .tc main_v41)) (W3 m ρ c (Proc.devRef .tc main_v13)) (W3 m ρ c (Proc.devRef .tc main_v12)) (W3 m ρ c (Proc.devRef .tc main_v42)) = _
  dsimp only [W3, hostOps1, Cert.ReferenceIdeal.Staged.U3, Cert.ReferenceIdeal.Staged.segC]
  after_results_simp
  simp only [stage_mm1 m ρ m' c h, k2_v1 m ρ c, k2_v3 m ρ c, k2_v10 m ρ c, k2_v12 m ρ c, kArg4 m ρ c, r2_v1 m' c, r2_v3 m' c, r2_v10 m' c, rArg4 m' c]
  dsimp only [W1, hostOps0, Cert.ReferenceIdeal.Staged.U1, Cert.ReferenceIdeal.Staged.segA]
  after_results_simp
  simp only [A1 m ρ m' c h, A4 m ρ m' c h]
  rfl

/-- The second matrix product. -/
theorem stage_mm2 : W5 m ρ c (Proc.devRef .tc main_v44) = Cert.ReferenceIdeal.Staged.U4 m' c (Proc.devRef .tc Cert.ReferenceIdeal.main_v49) := by
  refine (W5_arr m ρ c 2).trans ((Whole.mm2 (V4 m ρ) c).trans ?_)
  show Cert.Spec.mm256 (W4 m ρ c (Proc.devRef .tc main_v43)) (W4 m ρ c (Proc.devRef .tc main_arg5)) = _
  dsimp only [Cert.ReferenceIdeal.Staged.U4, Cert.ReferenceIdeal.Staged.segD]
  after_results_simp
  simp only [stage_conv1 m ρ m' c h, kArg5 m ρ c, rArg5 m' c, A5 m ρ m' c h]
  rfl

set_option maxHeartbeats 40000000 in
/-- The second graph convolution's output. -/
theorem stage_conv2 : W7 m ρ c (Proc.devRef .tc main_v74) = Cert.ReferenceIdeal.Staged.U5 m' c (Proc.devRef .tc Cert.ReferenceIdeal.main_v86) := by
  refine (W7_arr m ρ c 4).trans ((Whole.fin3 (V6 m ρ) c).trans ?_)
  show Cert.Spec.fin (W6 m ρ c (Proc.devRef .tc main_v72)) (W6 m ρ c (Proc.devRef .tc main_v44)) (W6 m ρ c (Proc.devRef .tc main_v12)) (W6 m ρ c (Proc.devRef .tc main_v73)) = _
  dsimp only [W6, hostOps3, Cert.ReferenceIdeal.Staged.U5, Cert.ReferenceIdeal.Staged.segE]
  after_results_simp
  simp only [stage_mm2 m ρ m' c h, k5_v1 m ρ c, k5_v3 m ρ c, k5_v10 m ρ c, k5_v12 m ρ c, kArg6 m ρ c, r4_v1 m' c, r4_v3 m' c, r4_v10 m' c, rArg6 m' c]
  dsimp only [W1, hostOps0, Cert.ReferenceIdeal.Staged.U1, Cert.ReferenceIdeal.Staged.segA]
  after_results_simp
  simp only [A1 m ρ m' c h, A6 m ρ m' c h]
  rfl

set_option maxHeartbeats 40000000 in
/-- The first batch normalisation: the statistics over the 50000 nodes and the affine map. -/
theorem stage_bn1 : W9 m ρ c (Proc.devRef .tc main_v91) = Cert.ReferenceIdeal.Staged.U6 m' c (Proc.devRef .tc Cert.ReferenceIdeal.main_v111) := by
  refine (W9_arr m ρ c 5).trans ((Whole.bn4 (V8 m ρ) c).trans ?_)
  show Cert.Spec.bn (W8 m ρ c (Proc.devRef .tc main_v74)) (W8 m ρ c (Proc.devRef .tc main_v78)) (W8 m ρ c (Proc.devRef .tc main_v88)) (W8 m ρ c (Proc.devRef .tc main_v89)) (W8 m ρ c (Proc.devRef .tc main_v90)) = _
  dsimp only [W8, hostOps4, Cert.ReferenceIdeal.Staged.U6, Cert.ReferenceIdeal.Staged.segF]
  after_results_simp
  simp only [stage_conv2 m ρ m' c h, kArg9 m ρ c, kArg10 m ρ c, rArg9 m' c, rArg10 m' c, A9 m ρ m' c h, A10 m ρ m' c h]
  rw [Cert.Spec.divf_row, Cert.Spec.divf_row, Cert.Spec.addf_row, Cert.Spec.rsqrt_row]
  rfl

end Cert.Bridge

end
-- ==== Proof.BridgeB.lean ====
/-
  The second half of the stage-by-stage comparison: the third graph convolution, the second batch normalisation and
  the pooling head, from the first batch normalisation's output on (`Cert.Bridge.stage_bn1`).
-/
import proofs.«139121_j59785944760955_1_alg».proof.Proof.BridgeA
import proofs.«139121_j59785944760955_1_alg».proof.Proof.Spec
import proofs.«139121_j59785944760955_1_alg».proof.Proof.RowOps
import proofs.«139121_j59785944760955_1_alg».proof.Proof.RegionsMatmul
import proofs.«139121_j59785944760955_1_alg».proof.Proof.RegionsPointwise

set_option maxRecDepth 16384

noncomputable section

namespace Cert.Bridge

open Cert.KernelIdeal Cert.KernelIdeal.Gen Cert.KernelIdeal.Walk
open Idealize.ShloMosaic Idealize.ShloMosaic.TcCoe Idealize.SL.Sem Idealize.ShloMosaic.StableHlo

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)
variable (c : Dev nD)
variable (h : Agree m m' c)
include h

/-! ## The last four stages -/

/-- The third matrix product. -/
theorem stage_mm3 : W10 m ρ c (Proc.devRef .tc main_v92) = Cert.ReferenceIdeal.Staged.U7 m' c (Proc.devRef .tc Cert.ReferenceIdeal.main_v112) := by
  refine (W10_arr m ρ c 2).trans ((Whole.mm5 (V9 m ρ) c).trans ?_)
  show Cert.Spec.mm256 (W9 m ρ c (Proc.devRef .tc main_v91)) (W9 m ρ c (Proc.devRef .tc main_arg7)) = _
  dsimp only [Cert.ReferenceIdeal.Staged.U7, Cert.ReferenceIdeal.Staged.segG]
  after_results_simp
  simp only [stage_bn1 m ρ m' c h, kArg7 m ρ c, rArg7 m' c, A7 m ρ m' c h]
  rfl

set_option maxHeartbeats 40000000 in
/-- The third graph convolution's output. -/
theorem stage_conv3 : W12 m ρ c (Proc.devRef .tc main_v122) = Cert.ReferenceIdeal.Staged.U8 m' c (Proc.devRef .tc Cert.ReferenceIdeal.main_v149) := by
  refine (W12_arr m ρ c 4).trans ((Whole.fin6 (V11 m ρ) c).trans ?_)
  show Cert.Spec.fin (W11 m ρ c (Proc.devRef .tc main_v120)) (W11 m ρ c (Proc.devRef .tc main_v92)) (W11 m ρ c (Proc.devRef .tc main_v12)) (W11 m ρ c (Proc.devRef .tc main_v121)) = _
  dsimp only [W11, hostOps6, Cert.ReferenceIdeal.Staged.U8, Cert.ReferenceIdeal.Staged.segH]
  after_results_simp
  simp only [stage_mm3 m ρ m' c h, k10_v1 m ρ c, k10_v3 m ρ c, k10_v10 m ρ c, k10_v12 m ρ c, kArg8 m ρ c, r7_v1 m' c, r7_v3 m' c, r7_v10 m' c, rArg8 m' c]
  dsimp only [W1, hostOps0, Cert.ReferenceIdeal.Staged.U1, Cert.ReferenceIdeal.Staged.segA]
  after_results_simp
  simp only [A1 m ρ m' c h, A8 m ρ m' c h]
  rfl

set_option maxHeartbeats 40000000 in
/-- The second batch normalisation. -/
theorem stage_bn2 : W14 m ρ c (Proc.devRef .tc main_v139) = Cert.ReferenceIdeal.Staged.U9 m' c (Proc.devRef .tc Cert.ReferenceIdeal.main_v174) := by
  refine (W14_arr m ρ c 5).trans ((Whole.bn7 (V13 m ρ) c).trans ?_)
  show Cert.Spec.bn (W13 m ρ c (Proc.devRef .tc main_v122)) (W13 m ρ c (Proc.devRef .tc main_v126)) (W13 m ρ c (Proc.devRef .tc main_v136)) (W13 m ρ c (Proc.devRef .tc main_v137)) (W13 m ρ c (Proc.devRef .tc main_v138)) = _
  dsimp only [W13, hostOps7, Cert.ReferenceIdeal.Staged.U9, Cert.ReferenceIdeal.Staged.segI]
  after_results_simp
  simp only [stage_conv3 m ρ m' c h, kArg11 m ρ c, kArg12 m ρ c, rArg11 m' c, rArg12 m' c, A11 m ρ m' c h, A12 m ρ m' c h]
  rw [Cert.Spec.divf_row, Cert.Spec.divf_row, Cert.Spec.addf_row, Cert.Spec.rsqrt_row]
  rfl

set_option maxHeartbeats 40000000 in
/-- The pooling head: per-graph means of the node features, then the last linear layer. This is the result. -/
theorem stage_result : W15 m ρ c (Proc.devRef .tc main_v155) = Cert.ReferenceIdeal.Staged.U10 m' c (Proc.devRef .tc Cert.ReferenceIdeal.main_v190) := by
  dsimp only [W15, hostOps8, Cert.ReferenceIdeal.Staged.U10, Cert.ReferenceIdeal.Staged.segJ]
  after_results_simp
  simp only [stage_bn2 m ρ m' c h, kArg2 m ρ c, kArg13 m ρ c, kArg14 m ρ c, rArg2 m' c, rArg13 m' c, rArg14 m' c, A2 m ρ m' c h, A13 m ρ m' c h, A14 m ρ m' c h]
  rfl

end Cert.Bridge

end
-- ==== Proof.lean ====
/-
  A three-layer graph convolutional network on 50000 nodes and 800000 edges, with two batch normalisations and a
  per-graph mean pooling followed by a linear layer, computed by a program that runs eight tiled kernels (three matrix
  products, three convolution epilogues, two batch-normalisation affine maps; each kernel takes 2000 rows of nodes at
  a time) among host operations (the degree normalisation, the gathers and scatter-sums over the edges, the
  batch-normalisation statistics, the pooling head), against a reference that does everything in whole-array host
  operations.

  Over the extended reals the two programs are the same function of the argument arrays, and no algebraic law is
  needed to see it: a change of float format is the identity, so the kernels' bf16 operands are the f32 ones; a tiled
  matrix product into a zero accumulator and the host's `dot_general` are the same sum over the contraction index; the
  epilogue `max(agg + h·d + b, 0)` and the affine map `((h − μ)·r)·γ + β` are the reference's trees of pointwise
  operations with the same grouping; and every host operation of the kernel program is, in the same order, an
  operation of the reference. The one difference of spelling is that the kernel program forms the mean and the
  inverse deviation on rows [1, 256] where the reference forms them on vectors [256] and broadcasts afterwards.
  Finiteness of the inputs is not used.

  The modules: `Spec` (the three whole-array operations), `RegionsMatmul` / `RegionsPointwise` (each kernel's
  output array is that operation of its input arrays), `RowOps` (rows against vectors), `KRun` (the kernel program's
  run with its result named), `RefOps` / `RefRun` (the reference's run in ten stages), `Keep` (buffers a stretch of
  host operations leaves alone), `Pass` (buffers followed to where a later stage reads them), `BridgeA` / `BridgeB` (the two runs hold the same arrays at nine
  points; the last is the result).
-/
import proofs.«139121_j59785944760955_1_alg».proof.Defs
import proofs.«139121_j59785944760955_1_alg».proof.Proof.Gen.Kernel
import proofs.«139121_j59785944760955_1_alg».proof.Proof.Gen.Kernel.Skeleton
import proofs.«139121_j59785944760955_1_alg».proof.Proof.Gen.Kernel.Launch
import proofs.«139121_j59785944760955_1_alg».proof.Proof.Gen.Kernel.Points
import proofs.«139121_j59785944760955_1_alg».proof.Proof.Gen.Kernel.Frame
import proofs.«139121_j59785944760955_1_alg».proof.Proof.Gen.KernelIdeal
import proofs.«139121_j59785944760955_1_alg».proof.Proof.Gen.KernelIdeal.Skeleton
import proofs.«139121_j59785944760955_1_alg».proof.Proof.Gen.KernelIdeal.Launch
import proofs.«139121_j59785944760955_1_alg».proof.Proof.Gen.KernelIdeal.Points
import proofs.«139121_j59785944760955_1_alg».proof.Proof.Gen.KernelIdeal.Frame
import proofs.«139121_j59785944760955_1_alg».proof.Proof.Gen.ReferenceIdeal
import proofs.«139121_j59785944760955_1_alg».proof.Proof.Gen.Pre_finite_inputs
import proofs.«139121_j59785944760955_1_alg».proof.Proof.KRun
import proofs.«139121_j59785944760955_1_alg».proof.Proof.RefRun
import proofs.«139121_j59785944760955_1_alg».proof.Proof.BridgeB
import Idealize.ShloMosaic.Adequacy
import Idealize.ShloMosaic.Init

noncomputable section

namespace Cert.Proof

open Idealize.ShloMosaic Idealize.SL.Sem

/-- The kernel program as printed runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's run, with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Staged.run (F := Ideal) m ρ)

/-- From memories that agree on the arguments both idealized programs run, and the result arrays are equal: the kernel
    program ends with its result at its last boundary's contents, the reference with its result at its last cut's
    contents, and those two arrays are one (`Cert.Bridge.stage_result`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W15 m ρ c (Proc.devRef .tc Cert.KernelIdeal.main_v155), Cert.KernelIdeal.Named.run_named m ρ, ?_⟩
  refine (θ_run Cert.ReferenceIdeal.defs _ _).mono (fun _ h c => ⟨(h c).1.trans ?_, (h c).2⟩)
    (Cert.ReferenceIdeal.Staged.run (F := Ideal) m' ρ')
  exact (Cert.Bridge.stage_result m ρ m' c (hagree c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
